-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x64 : Shape := ⟨2, ![2048, 64]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S2048x64 .f32) (main_arg2 : FVec F S3072x1024 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S2048x64 : Shape := ⟨2, ![2048, 64]⟩
abbrev S3072x1024 : Shape := ⟨2, ![3072, 1024]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S256x128 : Shape := ⟨2, ![256, 128]⟩
abbrev S2048x128 : Shape := ⟨2, ![2048, 128]⟩
abbrev S256x64 : Shape := ⟨2, ![256, 64]⟩
abbrev S256x32 : Shape := ⟨2, ![256, 32]⟩
abbrev S2048x32 : Shape := ⟨2, ![2048, 32]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 16
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2048x64, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S3072x1024, .bf16⟩
  | .hbm, ⟨8, _⟩ => ⟨S4096x3072, .bf16⟩
  | .hbm, ⟨9, _⟩ => ⟨S2048x64, .f32⟩
  | .hbm, ⟨10, _⟩ => ⟨S2048x64, .f32⟩
  | .hbm, ⟨11, _⟩ => ⟨S4096x1024, .bf16⟩
  | .hbm, ⟨12, _⟩ => ⟨S1024x1024, .bf16⟩
  | .hbm, ⟨13, _⟩ => ⟨S1x1024, .f32⟩
  | .hbm, ⟨14, _⟩ => ⟨S4096x1024, .f32⟩
  | .hbm, ⟨15, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S256x64, .f32⟩
  | .local _ .vmem, ⟨16, _⟩ => ⟨S2048x64, .f32⟩
  | .local _ .vmem, ⟨17, _⟩ => ⟨S2048x64, .f32⟩
  | .local _ .vmem, ⟨18, _⟩ => ⟨S256x128, .bf16⟩
  | .local _ .vmem, ⟨19, _⟩ => ⟨S256x128, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S2048x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S2048x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S256x128_o0_0_S256x64 : S256x128.Slices ![0, 0] S256x64
  slices_S256x64_o0_0_S256x32 : S256x64.Slices ![0, 0] S256x32
  slices_S256x64_o0_32_S256x32 : S256x64.Slices ![0, 32] S256x32
  concatenates_S256x32_S256x32_S256x64_d1 : Shape.Concatenates [S256x32, S256x32] S256x64 1
  slices_S256x128_o0_64_S256x64 : S256x128.Slices ![0, 64] S256x64
  slices_S2048x128_o0_0_S2048x64 : S2048x128.Slices ![0, 0] S2048x64
  slices_S2048x64_o0_0_S2048x32 : S2048x64.Slices ![0, 0] S2048x32
  slices_S2048x64_o0_32_S2048x32 : S2048x64.Slices ![0, 32] S2048x32
  concatenates_S2048x32_S2048x32_S2048x64_d1 : Shape.Concatenates [S2048x32, S2048x32] S2048x64 1
  slices_S2048x128_o0_64_S2048x64 : S2048x128.Slices ![0, 64] S2048x64
  reduces_S256x2048_S256 : S256x2048.Reduces [1] S256
  shapeCasts_S256_S256x1 : S256.ShapeCasts S256x1
  broadcasts_S256x1_S256x2048 : S256x1.Broadcasts S256x2048
  concatenates_S256x64_S256x64_S256x128_d1 : Shape.Concatenates [S256x64, S256x64] S256x128 1
  packedbf16_S256x128_S256x128_0_0 : (Rect.unit (s := S256x128) ![0, 0] S256x128.size inb_S256x128_S256x128_0_0).PackedRows (EltTy.packing .bf16)
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x1024_S512x1024_1_1_0_0_n_n_wf : DotDims.WF S512x1024 S1024x1024 S512x1024 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x3072.size a
  hwx1_0 : ∀ i : grid1.Coords, EltTy.bits .bf16 = 32 ∨ (Rect.block (s := S4096x3072) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .bf16 = 32 ∨ (Rect.block (s := S4096x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .bf16 = 32 ∨ (Rect.block (s := S4096x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S2048x64.size a
  hwx1_3 : ∀ i : grid1.Coords, EltTy.bits .f32 = 32 ∨ (Rect.block (s := S2048x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S2048x64.size a
  hwx1_4 : ∀ i : grid1.Coords, EltTy.bits .f32 = 32 ∨ (Rect.block (s := S2048x64) S256x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S2048x64.size a
  hwx1_5 : ∀ i : grid1.Coords, EltTy.bits .f32 = 32 ∨ (Rect.block (s := S2048x64) S2048x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S2048x64.size a
  hwx1_6 : ∀ i : grid1.Coords, EltTy.bits .f32 = 32 ∨ (Rect.block (s := S2048x64) S2048x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S4096x1024.size a
  hwx1_7 : ∀ i : grid1.Coords, EltTy.bits .bf16 = 32 ∨ (Rect.block (s := S4096x1024) S256x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2048x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S2048x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2048x64 : Shape := ⟨2, ![2048, 64]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S1x1x2048x64 : Shape := ⟨4, ![1, 1, 2048, 64]⟩
abbrev S2x16x2048x32 : Shape := ⟨4, ![2, 16, 2048, 32]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2048x64, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x2048x16x64, .f32⟩
  | .hbm, ⟨14, _⟩ => ⟨S2x16x2048x64, .f32⟩
  | .hbm, ⟨15, _⟩ => ⟨S2048x64, .f32⟩
  | .hbm, ⟨16, _⟩ => ⟨S1x1x2048x64, .f32⟩
  | .hbm, ⟨17, _⟩ => ⟨S2x16x2048x64, .f32⟩
  | .hbm, ⟨18, _⟩ => ⟨S2x16x2048x64, .f32⟩
  | .hbm, ⟨19, _⟩ => ⟨S2x16x2048x32, .f32⟩
  | .hbm, ⟨20, _⟩ => ⟨S2x16x2048x32, .f32⟩
  | .hbm, ⟨21, _⟩ => ⟨S2x16x2048x32, .f32⟩
  | .hbm, ⟨22, _⟩ => ⟨S2x16x2048x64, .f32⟩
  | .hbm, ⟨23, _⟩ => ⟨S2048x64, .f32⟩
  | .hbm, ⟨24, _⟩ => ⟨S1x1x2048x64, .f32⟩
  | .hbm, ⟨25, _⟩ => ⟨S2x16x2048x64, .f32⟩
  | .hbm, ⟨26, _⟩ => ⟨S2x16x2048x64, .f32⟩
  | .hbm, ⟨27, _⟩ => ⟨S2x16x2048x64, .f32⟩
  | .hbm, ⟨28, _⟩ => ⟨S2048x64, .f32⟩
  | .hbm, ⟨29, _⟩ => ⟨S1x1x2048x64, .f32⟩
  | .hbm, ⟨30, _⟩ => ⟨S2x16x2048x64, .f32⟩
  | .hbm, ⟨31, _⟩ => ⟨S2x16x2048x64, .f32⟩
  | .hbm, ⟨32, _⟩ => ⟨S2x16x2048x32, .f32⟩
  | .hbm, ⟨33, _⟩ => ⟨S2x16x2048x32, .f32⟩
  | .hbm, ⟨34, _⟩ => ⟨S2x16x2048x32, .f32⟩
  | .hbm, ⟨35, _⟩ => ⟨S2x16x2048x64, .f32⟩
  | .hbm, ⟨36, _⟩ => ⟨S2048x64, .f32⟩
  | .hbm, ⟨37, _⟩ => ⟨S1x1x2048x64, .f32⟩
  | .hbm, ⟨38, _⟩ => ⟨S2x16x2048x64, .f32⟩
  | .hbm, ⟨39, _⟩ => ⟨S2x16x2048x64, .f32⟩
  | .hbm, ⟨40, _⟩ => ⟨S2x16x2048x64, .f32⟩
  | .hbm, ⟨41, _⟩ => ⟨S2x16x2048x2048, .f32⟩
  | .hbm, ⟨42, _⟩ => ⟨S_, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S_, .f32⟩
  | .hbm, ⟨48, _⟩ => ⟨S2x16x2048, .f32⟩
  | .hbm, ⟨49, _⟩ => ⟨S2x16x2048, .f32⟩
  | .hbm, ⟨50, _⟩ => ⟨S2x16x2048x1, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S_, .f32⟩
  | .hbm, ⟨55, _⟩ => ⟨S2x16x2048, .f32⟩
  | .hbm, ⟨56, _⟩ => ⟨S2x16x2048x1, .f32⟩
  | .hbm, ⟨57, _⟩ => ⟨S2x16x2048x2048, .f32⟩
  | .hbm, ⟨58, _⟩ => ⟨S2x16x2048x2048, .f32⟩
  | .hbm, ⟨59, _⟩ => ⟨S2x16x2048x64, .f32⟩
  | .hbm, ⟨60, _⟩ => ⟨S2x2048x16x64, .f32⟩
  | .hbm, ⟨61, _⟩ => ⟨S2x2048x1024, .f32⟩
  | .hbm, ⟨62, _⟩ => ⟨S2x2048x1024, .f32⟩
  | .hbm, ⟨63, _⟩ => ⟨S1x1x1024, .f32⟩
  | .hbm, ⟨64, _⟩ => ⟨S2x2048x1024, .f32⟩
  | .hbm, ⟨65, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst : Ref sig .tc := ⟨.hbm, 42, rfl⟩
abbrev main_v37 : Ref sig .tc := ⟨.hbm, 43, rfl⟩
abbrev main_v38 : Ref sig .tc := ⟨.hbm, 44, rfl⟩
abbrev main_cst_0 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S2048x64_S1x1x2048x64_2_3 : S2048x64.BroadcastsInDim S1x1x2048x64 (![2, 3] : Fin 2 → Fin S1x1x2048x64.rank)
  bcast_S1x1x2048x64_S2x16x2048x64_0_1_2_3 : S1x1x2048x64.BroadcastsInDim S2x16x2048x64 (![0, 1, 2, 3] : Fin 4 → Fin S2x16x2048x64.rank)
  slices_S2x16x2048x64_S2x16x2048x32_0_0_0_0 : S2x16x2048x64.Slices ![0, 0, 0, 0] S2x16x2048x32
  slices_S2x16x2048x64_S2x16x2048x32_0_0_0_32 : S2x16x2048x64.Slices ![0, 0, 0, 32] S2x16x2048x32
  concatenates_S2x16x2048x32_S2x16x2048x32_S2x16x2048x64_d3 : Shape.Concatenates [S2x16x2048x32, S2x16x2048x32] S2x16x2048x64 3
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.FrameBits0.lean ====
/-
  The first pallas_call (the query/key/value projection, a 512×1024 by 1024×1024ᵀ product per grid point, grid 8×3) as a
  pipeline with proof data: at the contents `V` the call is entered from, input window 0 holds rows 512·i … of the
  flattened activations, input window 1 rows 1024·j … of the weights, and after the body the output window's buffer
  holds `o0` of those two blocks. Stated for ANY block function `o0` the body is shown to compute (`hk0`, the body's
  triple on whole staging buffers), so that the pipeline's bookkeeping and the body's run are independent.
-/
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Call0

variable (V : (c : Dev nD) → (b : Ref sig .tc) → Buf (Elt F) ((c : Thread nD τ).loc b))
variable (o0 : Vec F S512x1024 .bf16 → Vec F S1024x1024 .bf16 → Vec F S512x1024 .bf16)

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (when it is not fetched the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as found; after the body each input buffer at its block, the output buffer at `o0` of the
    two input blocks; nothing owed, full shares, the invariant the untouched scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => o0 (iblk0 V c 0 t) (iblk0 V c 1 t)
  Φ _ := Pipeline.ΦA spec0 c
  q _ := fullShare
  owed _ := 0

theorem A_eq0 (c : Dev nD) (w : Fin cfg0.W) : (dat0 V o0 c).A w = V c (Pipeline.arrRef spec0 w) := by
  dsimp only [dat0]

theorem after0_0 (c : Dev nD) (t : Fin cfg0.N) : (dat0 V o0 c).after 0 t = iblk0 V c 0 t := by dsimp only [dat0]
theorem after0_1 (c : Dev nD) (t : Fin cfg0.N) : (dat0 V o0 c).after 1 t = iblk0 V c 1 t := by dsimp only [dat0]
theorem after0_2 (c : Dev nD) (t : Fin cfg0.N) : (dat0 V o0 c).after 2 t = o0 (iblk0 V c 0 t) (iblk0 V c 1 t) := by dsimp only [dat0]

theorem before0_0 (c : Dev nD) (t : Fin cfg0.N) (d) : (dat0 V o0 c).before 0 t d = iblk0 V c 0 t :=
  before0_0_of V (dat0 V o0 c) (A_eq0 V o0 c 0) (after0_0 V o0 c) t d
theorem before0_1 (c : Dev nD) (t : Fin cfg0.N) (d) : (dat0 V o0 c).before 1 t d = iblk0 V c 1 t :=
  before0_1_of V (dat0 V o0 c) (A_eq0 V o0 c 1) (after0_1 V o0 c) t d

/-- What the body is called with at point `t`, the windows one by one, -/
def bodyPre0 (c : Dev nD) (t : Fin cfg0.N) : sProp 𝕄 :=
  iprop((dat0 V o0 c).Φ t.castSucc ∗ (dat0 V o0 c).owesAt () t.castSucc
    ∗ (∃ d, owns (c : Thread nD τ) (st0_0 t) fullShare ((dat0 V o0 c).before 0 t d))
    ∗ (∃ d, owns (c : Thread nD τ) (st0_1 t) fullShare ((dat0 V o0 c).before 1 t d))
    ∗ (∃ d, owns (c : Thread nD τ) (st0_2 t) fullShare ((dat0 V o0 c).before 2 t d)))

/-- and what it returns. -/
def bodyPost0 (c : Dev nD) (t : Fin cfg0.N) : sProp 𝕄 :=
  iprop((dat0 V o0 c).Φ t.succ ∗ (dat0 V o0 c).owesAt () t.succ
    ∗ owns (c : Thread nD τ) (st0_0 t) fullShare ((dat0 V o0 c).after 0 t)
    ∗ owns (c : Thread nD τ) (st0_1 t) fullShare ((dat0 V o0 c).after 1 t)
    ∗ owns (c : Thread nD τ) (st0_2 t) fullShare ((dat0 V o0 c).after 2 t))

/-- The body's triple on whole staging buffers: the inputs at read contents, the output at anything, run to the inputs
    as they were and the output at `o0` of them. -/
def Triple0 : Prop :=
  ∀ (c : Dev nD) (E : Set ℕ) (i : grid0.Coords) (arg2 : Memref sig .tc .vmem S512x1024 .bf16) (harg2 : arg2.IsWhole)
    (arg3 : Memref sig .tc .vmem S1024x1024 .bf16) (harg3 : arg3.IsWhole) (arg4 : Memref sig .tc .vmem S512x1024 .bf16) (harg4 : arg4.IsWhole)
    (x0 : Vec F S512x1024 .bf16) (x1 : Vec F S1024x1024 .bf16) (K : PUnit → sProp 𝕄),
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (o0 x0 x1)) -∗ K ⟨⟩))
      ⊢ wp frame (wpE (defs₀ (F := F)) Variants.none c none) E (cc0__proj_kernel i arg2 harg2 arg3 harg3 arg4 harg4) K

variable (hk0 : Triple0 (F := F) o0)

include hk0 in
/-- The body at any point: the inputs' buffers hold their blocks, so the triple applies; the invariant and the core's
    dues pass through unread. -/
theorem sound_body0 (c : Dev nD) (t : Fin cfg0.N) :
    bodyPre0 V o0 c t ⊢ wp frame (wpE (defs₀ (F := F)) Variants.none c none) Set.univ (bodyAt0 t) (fun _ => bodyPost0 V o0 c t) := by
  unfold bodyPre0 bodyPost0 bodyAt0
  simp only [before0_0, before0_1]
  rw [show (dat0 V o0 c).Φ t.succ = (dat0 V o0 c).Φ t.castSucc from rfl,
    show (dat0 V o0 c).owesAt () t.succ = (dat0 V o0 c).owesAt () t.castSucc from rfl,
    after0_0, after0_1, after0_2]
  iintro ⟨HΦ, Ho, ⟨%d0, H0⟩, ⟨%d1, H1⟩, ⟨%d2, H2⟩⟩
  iapply (hk0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

include hk0 in
/-- The pipeline's body obligation, at every point. -/
theorem body_obligation0 (c : Dev nD) : BodyObligation (dat0 (F := F) V o0 c) (defs₀ (F := F)) Variants.none () Set.univ := fun t => by
  rw [bigSep_W0, bigSep_W0]
  exact sound_body0 V o0 hk0 c t

end Call0

end Cert.Kernel.Hand

end
-- ==== Proof.FrameBits1.lean ====
/-
  The second pallas_call (attention for a pair of heads on a tile of 256 queries, grid 2×8×8) as a pipeline with proof
  data: at the contents `V` the call is entered from, window 0 holds the tile's 256×128 query columns, windows 1 and 2 the
  batch row's 2048×128 key and value columns (three windows on ONE array, the projection's output), windows 3 and 4 the
  tile's rows of the cosine and sine tables, windows 5 and 6 the whole tables (the same two arrays again), and after the
  body the output window's buffer holds `o1` of those seven blocks — for any block function `o1` the body is shown to
  compute (`hk1`). An array read through several windows is held by each at a part of its full share: the projection's
  output at a half, a quarter and a quarter; each table at two halves.
-/
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Call1

variable (V : (c : Dev nD) → (b : Ref sig .tc) → Buf (Elt F) ((c : Thread nD τ).loc b))
variable (o1 : Vec F S256x128 .bf16 → Vec F S2048x128 .bf16 → Vec F S2048x128 .bf16 → Vec F S256x64 .f32 → Vec F S256x64 .f32 → Vec F S2048x64 .f32 → Vec F S2048x64 .f32 → Vec F S256x128 .bf16)

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (unfetched, its block index
    has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not (unfetched, its block index
    has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not (unfetched, its block index
    has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not (unfetched, its block index
    has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not (unfetched, its block index
    has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not (unfetched, its block index
    has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not (unfetched, its block index
    has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as found; after the body each input buffer at its block, the output buffer at `o1` of the
    input blocks; nothing owed; the invariant the untouched scoped rest and the generator register; an array read through several windows is held by each at a part of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => o1 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right.left
    | ⟨2, _⟩ => fullShare.right.right
    | ⟨3, _⟩ => fullShare.left
    | ⟨4, _⟩ => fullShare.left
    | ⟨5, _⟩ => fullShare.right
    | ⟨6, _⟩ => fullShare.right
    | ⟨7, _⟩ => fullShare
  owed _ := 0

theorem A_eq1 (c : Dev nD) (w : Fin cfg1.W) : (dat1 V o1 c).A w = V c (Pipeline.arrRef spec1 w) := by
  dsimp only [dat1]

theorem after1_0 (c : Dev nD) (t : Fin cfg1.N) : (dat1 V o1 c).after 0 t = iblk1 V c 0 t := by dsimp only [dat1]
theorem after1_1 (c : Dev nD) (t : Fin cfg1.N) : (dat1 V o1 c).after 1 t = iblk1 V c 1 t := by dsimp only [dat1]
theorem after1_2 (c : Dev nD) (t : Fin cfg1.N) : (dat1 V o1 c).after 2 t = iblk1 V c 2 t := by dsimp only [dat1]
theorem after1_3 (c : Dev nD) (t : Fin cfg1.N) : (dat1 V o1 c).after 3 t = iblk1 V c 3 t := by dsimp only [dat1]
theorem after1_4 (c : Dev nD) (t : Fin cfg1.N) : (dat1 V o1 c).after 4 t = iblk1 V c 4 t := by dsimp only [dat1]
theorem after1_5 (c : Dev nD) (t : Fin cfg1.N) : (dat1 V o1 c).after 5 t = iblk1 V c 5 t := by dsimp only [dat1]
theorem after1_6 (c : Dev nD) (t : Fin cfg1.N) : (dat1 V o1 c).after 6 t = iblk1 V c 6 t := by dsimp only [dat1]
theorem after1_7 (c : Dev nD) (t : Fin cfg1.N) : (dat1 V o1 c).after 7 t = o1 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V o1 c).before 0 t d = iblk1 V c 0 t :=
  before1_0_of V (dat1 V o1 c) (A_eq1 V o1 c 0) (after1_0 V o1 c) t d
theorem before1_1 (c : Dev nD) (t : Fin cfg1.N) (d) : (dat1 V o1 c).before 1 t d = iblk1 V c 1 t :=
  before1_1_of V (dat1 V o1 c) (A_eq1 V o1 c 1) (after1_1 V o1 c) t d
theorem before1_2 (c : Dev nD) (t : Fin cfg1.N) (d) : (dat1 V o1 c).before 2 t d = iblk1 V c 2 t :=
  before1_2_of V (dat1 V o1 c) (A_eq1 V o1 c 2) (after1_2 V o1 c) t d
theorem before1_3 (c : Dev nD) (t : Fin cfg1.N) (d) : (dat1 V o1 c).before 3 t d = iblk1 V c 3 t :=
  before1_3_of V (dat1 V o1 c) (A_eq1 V o1 c 3) (after1_3 V o1 c) t d
theorem before1_4 (c : Dev nD) (t : Fin cfg1.N) (d) : (dat1 V o1 c).before 4 t d = iblk1 V c 4 t :=
  before1_4_of V (dat1 V o1 c) (A_eq1 V o1 c 4) (after1_4 V o1 c) t d
theorem before1_5 (c : Dev nD) (t : Fin cfg1.N) (d) : (dat1 V o1 c).before 5 t d = iblk1 V c 5 t :=
  before1_5_of V (dat1 V o1 c) (A_eq1 V o1 c 5) (after1_5 V o1 c) t d
theorem before1_6 (c : Dev nD) (t : Fin cfg1.N) (d) : (dat1 V o1 c).before 6 t d = iblk1 V c 6 t :=
  before1_6_of V (dat1 V o1 c) (A_eq1 V o1 c 6) (after1_6 V o1 c) t d

/-- What the body is called with at point `t`, the windows one by one, -/
def bodyPre1 (c : Dev nD) (t : Fin cfg1.N) : sProp 𝕄 :=
  iprop((dat1 V o1 c).Φ t.castSucc ∗ (dat1 V o1 c).owesAt () t.castSucc
    ∗ (∃ d, owns (c : Thread nD τ) (st1_0 t) fullShare ((dat1 V o1 c).before 0 t d))
    ∗ (∃ d, owns (c : Thread nD τ) (st1_1 t) fullShare ((dat1 V o1 c).before 1 t d))
    ∗ (∃ d, owns (c : Thread nD τ) (st1_2 t) fullShare ((dat1 V o1 c).before 2 t d))
    ∗ (∃ d, owns (c : Thread nD τ) (st1_3 t) fullShare ((dat1 V o1 c).before 3 t d))
    ∗ (∃ d, owns (c : Thread nD τ) (st1_4 t) fullShare ((dat1 V o1 c).before 4 t d))
    ∗ (∃ d, owns (c : Thread nD τ) (st1_5 t) fullShare ((dat1 V o1 c).before 5 t d))
    ∗ (∃ d, owns (c : Thread nD τ) (st1_6 t) fullShare ((dat1 V o1 c).before 6 t d))
    ∗ (∃ d, owns (c : Thread nD τ) (st1_7 t) fullShare ((dat1 V o1 c).before 7 t d)))

/-- and what it returns. -/
def bodyPost1 (c : Dev nD) (t : Fin cfg1.N) : sProp 𝕄 :=
  iprop((dat1 V o1 c).Φ t.succ ∗ (dat1 V o1 c).owesAt () t.succ
    ∗ owns (c : Thread nD τ) (st1_0 t) fullShare ((dat1 V o1 c).after 0 t)
    ∗ owns (c : Thread nD τ) (st1_1 t) fullShare ((dat1 V o1 c).after 1 t)
    ∗ owns (c : Thread nD τ) (st1_2 t) fullShare ((dat1 V o1 c).after 2 t)
    ∗ owns (c : Thread nD τ) (st1_3 t) fullShare ((dat1 V o1 c).after 3 t)
    ∗ owns (c : Thread nD τ) (st1_4 t) fullShare ((dat1 V o1 c).after 4 t)
    ∗ owns (c : Thread nD τ) (st1_5 t) fullShare ((dat1 V o1 c).after 5 t)
    ∗ owns (c : Thread nD τ) (st1_6 t) fullShare ((dat1 V o1 c).after 6 t)
    ∗ owns (c : Thread nD τ) (st1_7 t) fullShare ((dat1 V o1 c).after 7 t))

/-- The body's triple on whole staging buffers: the inputs at read contents, the output at anything, run to the inputs
    as they were and the output at `o1` of them. -/
def Triple1 : Prop :=
  ∀ (c : Dev nD) (E : Set ℕ) (i : grid1.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x64 .f32) (harg6 : arg6.IsWhole) (arg7 : Memref sig .tc .vmem S256x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S256x128 .bf16) (harg10 : arg10.IsWhole)
    (x0 : Vec F S256x128 .bf16) (x1 : Vec F S2048x128 .bf16) (x2 : Vec F S2048x128 .bf16) (x3 : Vec F S256x64 .f32) (x4 : Vec F S256x64 .f32) (x5 : Vec F S2048x64 .f32) (x6 : Vec F S2048x64 .f32) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (o1 x0 x1 x2 x3 x4 x5 x6)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K

variable (hk1 : Triple1 (F := F) o1)

include hk1 in
/-- The body at any point: the inputs' buffers hold their blocks, so the triple applies; the invariant and the core's
    dues pass through unread. -/
theorem sound_body1 (c : Dev nD) (t : Fin cfg1.N) :
    bodyPre1 V o1 c t ⊢ wp frame (wpE (defs₀ (F := F)) Variants.none c none) Set.univ (bodyAt1 t) (fun _ => bodyPost1 V o1 c t) := by
  unfold bodyPre1 bodyPost1 bodyAt1
  simp only [before1_0, before1_1, before1_2, before1_3, before1_4, before1_5, before1_6]
  rw [show (dat1 V o1 c).Φ t.succ = (dat1 V o1 c).Φ t.castSucc from rfl,
    show (dat1 V o1 c).owesAt () t.succ = (dat1 V o1 c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hk1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

include hk1 in
/-- The pipeline's body obligation, at every point. -/
theorem body_obligation1 (c : Dev nD) : BodyObligation (dat1 (F := F) V o1 c) (defs₀ (F := F)) Variants.none () Set.univ := fun t => by
  rw [bigSep_W1, bigSep_W1]
  exact sound_body1 V o1 hk1 c t

end Call1

end Cert.Kernel.Hand

end
-- ==== Proof.FrameBits2.lean ====
/-
  The third pallas_call (the output projection: a 512×1024 by 1024×1024ᵀ product plus a bias row, per grid point, grid 8)
  as a pipeline with proof data: at the contents `V` the call is entered from, input window 0 holds rows 512·i … of
  the attention output, windows 1 and 2 the whole weights and the bias row (fetched once), and after the body the output
  window's buffer holds `o2` of those three blocks — for any block function `o2` the body is shown to compute (`hk2`).
-/
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Call2

variable (V : (c : Dev nD) → (b : Ref sig .tc) → Buf (Elt F) ((c : Thread nD τ).loc b))
variable (o2 : Vec F S512x1024 .bf16 → Vec F S1024x1024 .bf16 → Vec F S1x1024 .f32 → Vec F S512x1024 .f32)

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not (unfetched, its block index
    has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not (unfetched, its block index
    has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not (unfetched, its block index
    has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data: the arrays as found; after the body each input buffer at its block, the output buffer at `o2` of the
    input blocks; nothing owed; the invariant the untouched scoped rest and the generator register; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => o2 (iblk2 V c 0 t) (iblk2 V c 1 t) (iblk2 V c 2 t)
  Φ _ := Pipeline.ΦA spec2 c
  q _ := fullShare
  owed _ := 0

theorem A_eq2 (c : Dev nD) (w : Fin cfg2.W) : (dat2 V o2 c).A w = V c (Pipeline.arrRef spec2 w) := by
  dsimp only [dat2]

theorem after2_0 (c : Dev nD) (t : Fin cfg2.N) : (dat2 V o2 c).after 0 t = iblk2 V c 0 t := by dsimp only [dat2]
theorem after2_1 (c : Dev nD) (t : Fin cfg2.N) : (dat2 V o2 c).after 1 t = iblk2 V c 1 t := by dsimp only [dat2]
theorem after2_2 (c : Dev nD) (t : Fin cfg2.N) : (dat2 V o2 c).after 2 t = iblk2 V c 2 t := by dsimp only [dat2]
theorem after2_3 (c : Dev nD) (t : Fin cfg2.N) : (dat2 V o2 c).after 3 t = o2 (iblk2 V c 0 t) (iblk2 V c 1 t) (iblk2 V c 2 t) := by dsimp only [dat2]

theorem before2_0 (c : Dev nD) (t : Fin cfg2.N) (d) : (dat2 V o2 c).before 0 t d = iblk2 V c 0 t :=
  before2_0_of V (dat2 V o2 c) (A_eq2 V o2 c 0) (after2_0 V o2 c) t d
theorem before2_1 (c : Dev nD) (t : Fin cfg2.N) (d) : (dat2 V o2 c).before 1 t d = iblk2 V c 1 t :=
  before2_1_of V (dat2 V o2 c) (A_eq2 V o2 c 1) (after2_1 V o2 c) t d
theorem before2_2 (c : Dev nD) (t : Fin cfg2.N) (d) : (dat2 V o2 c).before 2 t d = iblk2 V c 2 t :=
  before2_2_of V (dat2 V o2 c) (A_eq2 V o2 c 2) (after2_2 V o2 c) t d

/-- What the body is called with at point `t`, the windows one by one, -/
def bodyPre2 (c : Dev nD) (t : Fin cfg2.N) : sProp 𝕄 :=
  iprop((dat2 V o2 c).Φ t.castSucc ∗ (dat2 V o2 c).owesAt () t.castSucc
    ∗ (∃ d, owns (c : Thread nD τ) (st2_0 t) fullShare ((dat2 V o2 c).before 0 t d))
    ∗ (∃ d, owns (c : Thread nD τ) (st2_1 t) fullShare ((dat2 V o2 c).before 1 t d))
    ∗ (∃ d, owns (c : Thread nD τ) (st2_2 t) fullShare ((dat2 V o2 c).before 2 t d))
    ∗ (∃ d, owns (c : Thread nD τ) (st2_3 t) fullShare ((dat2 V o2 c).before 3 t d)))

/-- and what it returns. -/
def bodyPost2 (c : Dev nD) (t : Fin cfg2.N) : sProp 𝕄 :=
  iprop((dat2 V o2 c).Φ t.succ ∗ (dat2 V o2 c).owesAt () t.succ
    ∗ owns (c : Thread nD τ) (st2_0 t) fullShare ((dat2 V o2 c).after 0 t)
    ∗ owns (c : Thread nD τ) (st2_1 t) fullShare ((dat2 V o2 c).after 1 t)
    ∗ owns (c : Thread nD τ) (st2_2 t) fullShare ((dat2 V o2 c).after 2 t)
    ∗ owns (c : Thread nD τ) (st2_3 t) fullShare ((dat2 V o2 c).after 3 t))

/-- The body's triple on whole staging buffers: the inputs at read contents, the output at anything, run to the inputs
    as they were and the output at `o2` of them. -/
def Triple2 : Prop :=
  ∀ (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄),
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (o2 x0 x1 x2)) -∗ K ⟨⟩))
      ⊢ wp frame (wpE (defs₀ (F := F)) Variants.none c none) E (cc2__proj_bias_kernel i arg1 harg1 arg2 harg2 arg3 harg3 arg4 harg4) K

variable (hk2 : Triple2 (F := F) o2)

include hk2 in
/-- The body at any point: the inputs' buffers hold their blocks, so the triple applies; the invariant and the core's
    dues pass through unread. -/
theorem sound_body2 (c : Dev nD) (t : Fin cfg2.N) :
    bodyPre2 V o2 c t ⊢ wp frame (wpE (defs₀ (F := F)) Variants.none c none) Set.univ (bodyAt2 t) (fun _ => bodyPost2 V o2 c t) := by
  unfold bodyPre2 bodyPost2 bodyAt2
  simp only [before2_0, before2_1, before2_2]
  rw [show (dat2 V o2 c).Φ t.succ = (dat2 V o2 c).Φ t.castSucc from rfl,
    show (dat2 V o2 c).owesAt () t.succ = (dat2 V o2 c).owesAt () t.castSucc from rfl,
    after2_0, after2_1, after2_2, after2_3]
  iintro ⟨HΦ, Ho, ⟨%d0, H0⟩, ⟨%d1, H1⟩, ⟨%d2, H2⟩, ⟨%d3, H3⟩⟩
  iapply (hk2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

include hk2 in
/-- The pipeline's body obligation, at every point. -/
theorem body_obligation2 (c : Dev nD) : BodyObligation (dat2 (F := F) V o2 c) (defs₀ (F := F)) Variants.none () Set.univ := fun t => by
  rw [bigSep_W2, bigSep_W2]
  exact sound_body2 V o2 hk2 c t

end Call2

end Cert.Kernel.Hand

end
-- ==== Proof.BodyBits0.lean ====
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of pallas_call 0: what it leaves in its output buffer, and its triple

The body reads its two input buffers whole, forms one matrix product rounded to bf16, and writes
it over the whole output buffer. So the output buffer afterwards is one whole-buffer piece, a pure
function of the two inputs; the triple says the inputs are left as they were. -/

-- membership in a whole-buffer rectangle: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer as one whole rectangle -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0

/-! ## What the body leaves in the output buffer -/

/-- The output buffer after the body, from the two inputs' contents: its one store as a piece. -/
def out0_2 (x0 : Vec F S512x1024 .bf16) (x1 : Vec F S1024x1024 .bf16) : Vec F S512x1024 .bf16 :=
  View.canon [⟨r0_0, k0_pay1 (View.ld x0 r0_0) (View.ld x1 r0_1)⟩]

/-- The one store is of the whole buffer, so it covers every index. -/
theorem cover0_2 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- On whole buffers, the inputs at contents `x0`, `x1` and the output at anything, the body runs to the
    continuation holding the inputs unchanged and the output at `out0_2 x0 x1`. -/
theorem sound_kernel0 (c : Dev nD) (E : Set ℕ) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .bf16) (harg4 : arg4.IsWhole)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Hand

end
-- ==== Proof.BodyBits1.lean ====
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of pallas_call 1: what it leaves in its output buffer, and its triple

The body reads its seven input buffers whole (the query block, the key and value blocks, and the four
rotary tables), applies the rotary embedding to the two halves of the query and key, forms the two
heads' softmax attention, and writes the result rounded to bf16 over the whole output buffer. So the
output buffer afterwards is one whole-buffer piece, a pure function of the seven inputs; the triple
says the inputs are left as they were. -/

-- membership in a whole-buffer rectangle: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer as one whole rectangle -/

abbrev r1_0 : Rect S256x128 := Rect.unit (s := S256x128) ![0, 0] S256x128.size inb_S256x128_S256x128_0_0
abbrev r1_1 : Rect S2048x128 := Rect.unit (s := S2048x128) ![0, 0] S2048x128.size inb_S2048x128_S2048x128_0_0
abbrev r1_2 : Rect S256x64 := Rect.unit (s := S256x64) ![0, 0] S256x64.size inb_S256x64_S256x64_0_0
abbrev r1_3 : Rect S2048x64 := Rect.unit (s := S2048x64) ![0, 0] S2048x64.size inb_S2048x64_S2048x64_0_0

/-! ## What the body leaves in the output buffer -/

/-- The output buffer after the body, from the seven inputs' contents: its one store as a piece. -/
def out1_7 (x0 : Vec F S256x128 .bf16) (x1 x2 : Vec F S2048x128 .bf16) (x3 x4 : Vec F S256x64 .f32) (x5 x6 : Vec F S2048x64 .f32) : Vec F S256x128 .bf16 :=
  View.canon [⟨r1_0, k1_pay12 (k1_pay2 (View.ld x1 r1_1)) (k1_pay3 (View.ld x2 r1_1)) (k1_pay6 (View.ld x5 r1_3)) (k1_pay7 (View.ld x6 r1_3))
    (k1_pay8 (View.ld x0 r1_0) (View.ld x3 r1_2) (View.ld x4 r1_2)) (k1_pay9 (View.ld x0 r1_0) (View.ld x3 r1_2) (View.ld x4 r1_2))
    (k1_pay10 (View.ld x1 r1_1)) (k1_pay11 (View.ld x1 r1_1))⟩]

/-- The one store is of the whole buffer, so it covers every index. -/
theorem cover1_7 (p0 : Vec F S256x128 .bf16) (y : S256x128.Idx) :
    ∃ pc ∈ ([⟨r1_0, p0⟩] : List (View.Piece (Elt F) S256x128 .bf16)), y ∈ pc.1.set :=
  View.cover_of_tiled [⟨r1_0, p0⟩] S256x128.size (by rfl) y

/-! ## The body's triple -/

set_option maxHeartbeats 1000000 in
/-- On whole buffers, the inputs at contents `x0` … `x6` and the output at anything, the body runs to the
    continuation holding the inputs unchanged and the output at `out1_7 x0 x1 x2 x3 x4 x5 x6`. -/
theorem sound_kernel1 (c : Dev nD) (E : Set ℕ) (i : grid1.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x64 .f32) (harg6 : arg6.IsWhole) (arg7 : Memref sig .tc .vmem S256x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S256x128 .bf16) (harg10 : arg10.IsWhole)
    (x0 : Vec F S256x128 .bf16) (x1 : Vec F S2048x128 .bf16) (x2 : Vec F S2048x128 .bf16) (x3 : Vec F S256x64 .f32) (x4 : Vec F S256x64 .f32) (x5 : Vec F S2048x64 .f32) (x6 : Vec F S2048x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out1_7 x0 x1 x2 x3 x4 x5 x6)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

end Cert.Kernel.Hand

end
-- ==== Proof.BodyBits2.lean ====
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of pallas_call 2: what it leaves in its output buffer, and its triple

The body reads its three input buffers whole (two matrices and a one-row bias), forms the matrix
product plus the bias broadcast along the rows, and writes it over the whole output buffer. So the
output buffer afterwards is one whole-buffer piece, a pure function of the three inputs; the triple
says the inputs are left as they were. -/

-- membership in a whole-buffer rectangle: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer as one whole rectangle -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output buffer -/

/-- The output buffer after the body, from the three inputs' contents: its one store as a piece. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The one store is of the whole buffer, so it covers every index. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- On whole buffers, the inputs at contents `x0`, `x1`, `x2` and the output at anything, the body runs to
    the continuation holding the inputs unchanged and the output at `out2_3 x0 x1 x2`. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__proj_bias_kernel i arg1 harg1 arg2 harg2 arg3 harg3 arg4 harg4) K := by
  simp only [cc2__proj_bias_kernel_eq_skeleton]; unfold cc2__proj_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.Kernel.Hand

end
-- ==== Proof.RunBitsA.lean ====
/-
  The contents of the core's buffers at each boundary of the program — launch, then alternately a stretch of host
  operations and a pallas_call, eight boundaries in all — as a fold from the launch memory: a host stretch changes the
  buffers its operations write; the projection call changes only its output array, to what its write-backs leave
  (the proof data's final array); likewise the attention call and the output projection. No stretch and no call writes
  an argument array, so each argument read through the fold is the launch memory's.
-/
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import proofs.«130407_j90417651516253_2_alg».proof.Proof.FrameBits0
import proofs.«130407_j90417651516253_2_alg».proof.Proof.FrameBits1
import proofs.«130407_j90417651516253_2_alg».proof.Proof.FrameBits2
import proofs.«130407_j90417651516253_2_alg».proof.Proof.BodyBits0
import proofs.«130407_j90417651516253_2_alg».proof.Proof.BodyBits1
import proofs.«130407_j90417651516253_2_alg».proof.Proof.BodyBits2
import proofs.«130407_j90417651516253_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three bodies' triples, at the block functions they compute. -/
theorem hk0 : Triple0 (F := F) out0_2 := fun c E i a2 h2 a3 h3 a4 h4 x0 x1 K => sound_kernel0 c E i a2 h2 a3 h3 a4 h4 x0 x1 K
theorem hk1 : Triple1 (F := F) out1_7 := fun c E i a3 h3 a4 h4 a5 h5 a6 h6 a7 h7 a8 h8 a9 h9 a10 h10 x0 x1 x2 x3 x4 x5 x6 K =>
  sound_kernel1 c E i a3 h3 a4 h4 a5 h5 a6 h6 a7 h7 a8 h8 a9 h9 a10 h10 x0 x1 x2 x3 x4 x5 x6 K
theorem hk2 : Triple2 (F := F) out2_3 := fun c E i a1 h1 a2 h2 a3 h3 a4 h4 x0 x1 x2 K => sound_kernel2 c E i a1 h1 a2 h2 a3 h3 a4 h4 x0 x1 x2 K

section Fold

variable (m : (ℓ : Loc nD τ sig) → Buf (Elt F) ℓ)

/-- Core `c`'s buffers at launch. -/
abbrev W0 : Dev nD → Valuation τ sig (Elt F) := fun c b => m (c, b)
/-- After the first host stretch (the projection call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection call's exit: its arrays at what the pipeline leaves, every other buffer as entered. -/
def W2 (c : Dev nD) : Valuation τ sig (Elt F) :=
  Pipeline.withArrays spec0 c (W1 m c) fun w => (dat0 (V1 m) out0_2 c).arrAt w cfg0.N
theorem W2_arr (c : Dev nD) (w : Fin cfg0.W) :
    W2 m c (Proc.devRef .tc (Pipeline.arrRef spec0 w)) = (dat0 (V1 m) out0_2 c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) out0_2 c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention call's exit: its output array at what the pipeline leaves, every other buffer as entered (its seven
    input windows read three arrays, none of which it changes). -/
def W4 (c : Dev nD) : Valuation τ sig (Elt F) :=
  Function.update (W3 m c) (Proc.devRef .tc main_v6) ((dat1 (V3 m) out1_7 c).arrAt 7 cfg1.N)
theorem W4_out (c : Dev nD) : W4 m c (Proc.devRef .tc main_v6) = (dat1 (V3 m) out1_7 c).arrAt 7 cfg1.N := by
  unfold W4; exact Function.update_self ..
theorem W4_of_ne (c : Dev nD) (b : Ref sig .tc) (hb : b ≠ main_v6) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-- After the third host stretch (the output projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the output projection's exit. -/
def W6 (c : Dev nD) : Valuation τ sig (Elt F) :=
  Pipeline.withArrays spec2 c (W5 m c) fun w => (dat2 (V5 m) out2_3 c).arrAt w cfg2.N
theorem W6_arr (c : Dev nD) (w : Fin cfg2.W) :
    W6 m c (Proc.devRef .tc (Pipeline.arrRef spec2 w)) = (dat2 (V5 m) out2_3 c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) out2_3 c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch: the return. -/
abbrev W7 : Dev nD → Valuation τ sig (Elt F) := fun c => StableHlo.after hostOps3 (W6 m c)

/-- A buffer that no host stretch writes and that is no call's output keeps its launch contents to the end. -/
theorem W7_of_kept (c : Dev nD) (r : Ref sig .tc) (h0 : r ∉ hostOps0_W) (h1 : r ∉ hostOps1_W) (h2 : r ∉ hostOps2_W) (h3 : r ∉ hostOps3_W)
    (ha0 : ∀ w, Pipeline.arrRef spec0 w ≠ r) (ha1 : r ≠ main_v6) (ha2 : ∀ w, Pipeline.arrRef spec2 w ≠ r) :
    W7 m c (Proc.devRef .tc r) = m ((c : Thread nD τ).loc r) :=
  calc W7 m c (Proc.devRef .tc r)
    _ = W6 m c (Proc.devRef .tc r) := StableHlo.after_of_writes_sub hostOps3 _ hostOps3_writes h3
    _ = W5 m c (Proc.devRef .tc r) := W6_of_ne m c r ha2
    _ = W4 m c (Proc.devRef .tc r) := StableHlo.after_of_writes_sub hostOps2 _ hostOps2_writes h2
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

theorem W7_main_arg0 (c : Dev nD) : W7 m c (Proc.devRef .tc main_arg0) = m ((c : Thread nD τ).loc main_arg0) :=
  W7_of_kept m c main_arg0 (by decide) (by decide) (by decide) (by decide) (by decide) (by decide) (by decide)
theorem W7_main_arg1 (c : Dev nD) : W7 m c (Proc.devRef .tc main_arg1) = m ((c : Thread nD τ).loc main_arg1) :=
  W7_of_kept m c main_arg1 (by decide) (by decide) (by decide) (by decide) (by decide) (by decide) (by decide)
theorem W7_main_arg2 (c : Dev nD) : W7 m c (Proc.devRef .tc main_arg2) = m ((c : Thread nD τ).loc main_arg2) :=
  W7_of_kept m c main_arg2 (by decide) (by decide) (by decide) (by decide) (by decide) (by decide) (by decide)
theorem W7_main_arg3 (c : Dev nD) : W7 m c (Proc.devRef .tc main_arg3) = m ((c : Thread nD τ).loc main_arg3) :=
  W7_of_kept m c main_arg3 (by decide) (by decide) (by decide) (by decide) (by decide) (by decide) (by decide)
theorem W7_main_arg4 (c : Dev nD) : W7 m c (Proc.devRef .tc main_arg4) = m ((c : Thread nD τ).loc main_arg4) :=
  W7_of_kept m c main_arg4 (by decide) (by decide) (by decide) (by decide) (by decide) (by decide) (by decide)

end Fold

end Cert.Kernel.Hand

end
-- ==== Proof.Share1Bits.lean ====
/-
  The attention call reads ONE array — the projection's output — through three windows (queries, keys, values), and
  each rotary table through two (the tile's rows, and the whole table). Its pipeline therefore holds those arrays at
  parts of the full share: a half, a quarter and a quarter; and two halves. Here: the four distinct buffers behind the
  call's eight windows, each whole at the full share, ARE the pipeline's arrays at entry (splitting the shares), and at
  the end — the seven input windows' arrays unchanged, the output window's at what its write-backs leave — they are the
  four buffers again at the full share (joining the shares back).
-/
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import proofs.«130407_j90417651516253_2_alg».proof.Proof.FrameBits1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares1

variable (V : (c : Dev nD) → (b : Ref sig .tc) → Buf (Elt F) ((c : Thread nD τ).loc b))
variable (o1 : Vec F S256x128 .bf16 → Vec F S2048x128 .bf16 → Vec F S2048x128 .bf16 → Vec F S256x64 .f32 → Vec F S256x64 .f32 → Vec F S2048x64 .f32 → Vec F S2048x64 .f32 → Vec F S256x128 .bf16)

/-- The distinct buffers behind the call's eight windows are four: the projection's output, the two tables, the result. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v3) ↦{fullShare} V' main_v3) ∗ (((c : Thread nD τ).loc main_v4) ↦{fullShare} V' main_v4)
          ∗ (((c : Thread nD τ).loc main_v5) ↦{fullShare} V' main_v5) ∗ (((c : Thread nD τ).loc main_v6) ↦{fullShare} V' main_v6)) := by
  unfold Pipeline.arrBufs
  exact bigSep_eq_bigSepL_of_eq [main_v3, main_v4, main_v5, main_v6] (by decide) (by decide) _

/-- The pipeline's arrays, window by window, each at its share. -/
theorem arrays1_eq (c : Dev nD) (G : (w : Fin cfg1.W) → Buf (Elt F) ((cfg1.win w).arr.view.loc (c : Thread nD τ))) :
    ((dat1 V o1 c).arrays G : sProp 𝕄)
      = iprop((((c : Thread nD τ).loc main_v3) ↦{fullShare.left} G 0) ∗ (((c : Thread nD τ).loc main_v3) ↦{fullShare.right.left} G 1)
          ∗ (((c : Thread nD τ).loc main_v3) ↦{fullShare.right.right} G 2) ∗ (((c : Thread nD τ).loc main_v4) ↦{fullShare.left} G 3)
          ∗ (((c : Thread nD τ).loc main_v5) ↦{fullShare.left} G 4) ∗ (((c : Thread nD τ).loc main_v4) ↦{fullShare.right} G 5)
          ∗ (((c : Thread nD τ).loc main_v5) ↦{fullShare.right} G 6) ∗ (((c : Thread nD τ).loc main_v6) ↦{fullShare} G 7)) := by
  unfold Dat.arrays
  have h : ∀ w : Fin cfg1.W, (((cfg1.win w).arr.view.loc (c : Thread nD τ)) ↦[(cfg1.win w).arr.view.set]{(dat1 V o1 c).share w} G w : sProp 𝕄)
      = (((cfg1.win w).arr.view.loc (c : Thread nD τ)) ↦{(dat1 V o1 c).share w} G w) := fun w => by rw [(arr_whole1 w).set_eq_univ]
  rw [bigSep_congr fun w _ => h w, bigSep_W1]
  rfl

/-- ENTRY: the four buffers whole at the full share make the pipeline's arrays at their entry contents — the projection's
    output split a half, a quarter, a quarter among the three windows on it, each table split in two halves. -/
theorem entry1 (c : Dev nD) :
    (Pipeline.arrBufs (Ix := Unit) (Name := ℕ) (U := UR sig nD τ) (Lvl := ℕ) spec1 c (V c) : sProp 𝕄)
      ⊢ (dat1 V o1 c).arrays ((dat1 V o1 c).arrAt · 0) := by
  rw [arrBufs1_eq, arrays1_eq]
  iintro ⟨H3, H4, H5, H6⟩
  ihave H3' := (pointsTo_share (PosShare.mem_left_op_right fullShare)).1 $$ H3
  icases H3' with ⟨H3a, H3r⟩
  ihave H3r' := (pointsTo_share (PosShare.mem_left_op_right fullShare.right)).1 $$ H3r
  icases H3r' with ⟨H3b, H3c⟩
  ihave H4' := (pointsTo_share (PosShare.mem_left_op_right fullShare)).1 $$ H4
  icases H4' with ⟨H4a, H4b⟩
  ihave H5' := (pointsTo_share (PosShare.mem_left_op_right fullShare)).1 $$ H5
  icases H5' with ⟨H5a, H5b⟩
  isplitl [H3a]; · iexact H3a
  isplitl [H3b]; · iexact H3b
  isplitl [H3c]; · iexact H3c
  isplitl [H4a]; · iexact H4a
  isplitl [H5a]; · iexact H5a
  isplitl [H4b]; · iexact H4b
  isplitl [H5b]; · iexact H5b
  iexact H6

/-- EXIT: the pipeline's arrays at their final contents — the seven input windows' as entered, the output window's at
    what its write-backs leave — are the four buffers whole at the full share again, at any contents `V'` that agree
    with the entry contents on the three arrays read and hold the final output array at the fourth. -/
theorem exit1 (c : Dev nD) (V' : (b : Ref sig .tc) → Buf (Elt F) ((c : Thread nD τ).loc b))
    (h3 : V' main_v3 = V c main_v3) (h4 : V' main_v4 = V c main_v4) (h5 : V' main_v5 = V c main_v5)
    (h6 : V' main_v6 = (dat1 V o1 c).arrAt 7 cfg1.N) :
    ((dat1 V o1 c).arrays ((dat1 V o1 c).arrAt · cfg1.N) : sProp 𝕄)
      ⊢ Pipeline.arrBufs (Ix := Unit) (Name := ℕ) (U := UR sig nD τ) (Lvl := ℕ) spec1 c V' := by
  rw [arrBufs1_eq, arrays1_eq, h3, h4, h5, h6]
  have e0 : (dat1 V o1 c).arrAt 0 cfg1.N = V c main_v3 := ((dat1 V o1 c).arrAt_in 0 rfl _).trans (A_eq1 V o1 c 0)
  have e1 : (dat1 V o1 c).arrAt 1 cfg1.N = V c main_v3 := ((dat1 V o1 c).arrAt_in 1 rfl _).trans (A_eq1 V o1 c 1)
  have e2 : (dat1 V o1 c).arrAt 2 cfg1.N = V c main_v3 := ((dat1 V o1 c).arrAt_in 2 rfl _).trans (A_eq1 V o1 c 2)
  have e3 : (dat1 V o1 c).arrAt 3 cfg1.N = V c main_v4 := ((dat1 V o1 c).arrAt_in 3 rfl _).trans (A_eq1 V o1 c 3)
  have e4 : (dat1 V o1 c).arrAt 4 cfg1.N = V c main_v5 := ((dat1 V o1 c).arrAt_in 4 rfl _).trans (A_eq1 V o1 c 4)
  have e5 : (dat1 V o1 c).arrAt 5 cfg1.N = V c main_v4 := ((dat1 V o1 c).arrAt_in 5 rfl _).trans (A_eq1 V o1 c 5)
  have e6 : (dat1 V o1 c).arrAt 6 cfg1.N = V c main_v5 := ((dat1 V o1 c).arrAt_in 6 rfl _).trans (A_eq1 V o1 c 6)
  rw [e0, e1, e2, e3, e4, e5, e6]
  iintro ⟨H3a, H3b, H3c, H4a, H5a, H4b, H5b, H6⟩
  ihave H3r := (pointsTo_share (PosShare.mem_left_op_right fullShare.right)).2 $$ [H3b H3c]
  · isplitl [H3b] <;> iassumption
  ihave H3 := (pointsTo_share (PosShare.mem_left_op_right fullShare)).2 $$ [H3a H3r]
  · isplitl [H3a] <;> iassumption
  ihave H4 := (pointsTo_share (PosShare.mem_left_op_right fullShare)).2 $$ [H4a H4b]
  · isplitl [H4a] <;> iassumption
  ihave H5 := (pointsTo_share (PosShare.mem_left_op_right fullShare)).2 $$ [H5a H5b]
  · isplitl [H5a] <;> iassumption
  isplitl [H3]; · iexact H3
  isplitl [H4]; · iexact H4
  isplitl [H5]; · iexact H5
  iexact H6

end Shares1

end Cert.Kernel.Hand

end
-- ==== Proof.RunBitsB.lean ====
/-
  The program's run: its seven items — four stretches of host operations and the three pallas_calls between them — as
  segments over one thread state, "every unscoped buffer at the boundary's contents, the generator register at some
  state, nothing owed". A call's segment sorts its arrays out of the unscoped buffers at entry and puts them back at the
  exit contents; for the attention call, whose windows share arrays, by splitting and joining shares. Every weakly fair
  execution of the program then terminates, faults nowhere, and ends with every unscoped buffer at the last boundary's
  contents: the arguments as launched, the result at what the last host operation makes of the output projection's array.
-/
import proofs.«130407_j90417651516253_2_alg».proof.Proof.Gen.Kernel.Launch
import proofs.«130407_j90417651516253_2_alg».proof.Proof.Gen.Kernel.Skeleton
import proofs.«130407_j90417651516253_2_alg».proof.Proof.Gen.Kernel.Points
import proofs.«130407_j90417651516253_2_alg».proof.Proof.RunBitsA
import proofs.«130407_j90417651516253_2_alg».proof.Proof.Share1Bits
import Idealize.ShloMosaic.Adequacy
import Idealize.ShloMosaic.Init
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m) out0_2 c
  | ⟨1, _⟩ => fun c => dat1 (V3 m) out1_7 c
  | ⟨2, _⟩ => fun c => dat2 (V5 m) out2_3 c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) out0_2 hk0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) out2_3 hk2 c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the attention call's exit the unscoped buffers that are none of its arrays hold what they held at entry. -/
theorem rest1_eq (c : Dev nD) :
    (Pipeline.unscopedRest (Ix := Unit) (Name := ℕ) (U := UR sig nD τ) (Lvl := ℕ) spec1 c (V4 m c) : sProp 𝕄)
      = Pipeline.unscopedRest (Ix := Unit) (Name := ℕ) (U := UR sig nD τ) (Lvl := ℕ) spec1 c (V3 m c) := by
  unfold Pipeline.unscopedRest
  refine bigSep_congr fun b hb => ?_
  have hne : b ≠ main_v6 := fun e => (Finset.mem_sdiff.mp hb).2 (Finset.mem_image.mpr ⟨7, Finset.mem_univ _, e.symm⟩)
  rw [show V4 m c b = V3 m c b from W4_of_ne m c b hne]

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) out1_7 hk1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest (Ix := Unit) (Name := ℕ) (U := UR sig nD τ) (Lvl := ℕ) spec1 c (V3 m c)) := by
      rw [Pipeline.unscopedBufs_split₀ cfgs (1 : Fin 3) winFacts₀1.arr_unscoped c (V3 m c)]
      exact sep_mono (entry1 (V3 m) out1_7 c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) := by
      rw [Pipeline.unscopedBufs_split₀ cfgs (1 : Fin 3) winFacts₀1.arr_unscoped c (V4 m c)]
      exact BI.sep_mono (exit1 (V3 m) out1_7 c (V4 m c) (W4_of_ne m c main_v3 (by decide)) (W4_of_ne m c main_v4 (by decide))
        (W4_of_ne m c main_v5 (by decide)) (W4_out m c)) (Entails.of_eq (rest1_eq m c).symm)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program IS the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of the program
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Run

end Cert.Kernel.Hand

end
-- ==== Proof.FrameIdeal0.lean ====
/-
  The first pallas_call (the query/key/value projection, a 512×1024 by 1024×1024ᵀ product per grid point, grid 8×3) as a
  pipeline with proof data: at the contents `V` the call is entered from, input window 0 holds rows 512·i … of the
  flattened activations, input window 1 rows 1024·j … of the weights, and after the body the output window's buffer
  holds `o0` of those two blocks. Stated for ANY block function `o0` the body is shown to compute (`hk0`, the body's
  triple on whole staging buffers), so that the pipeline's bookkeeping and the body's run are independent.
-/
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Call0

variable (V : (c : Dev nD) → (b : Ref sig .tc) → Buf (Elt F) ((c : Thread nD τ).loc b))
variable (o0 : Vec F S512x1024 .bf16 → Vec F S1024x1024 .bf16 → Vec F S512x1024 .bf16)

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (when it is not fetched the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as found; after the body each input buffer at its block, the output buffer at `o0` of the
    two input blocks; nothing owed, full shares, the invariant the untouched scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => o0 (iblk0 V c 0 t) (iblk0 V c 1 t)
  Φ _ := Pipeline.ΦA spec0 c
  q _ := fullShare
  owed _ := 0

theorem A_eq0 (c : Dev nD) (w : Fin cfg0.W) : (dat0 V o0 c).A w = V c (Pipeline.arrRef spec0 w) := by
  dsimp only [dat0]

theorem after0_0 (c : Dev nD) (t : Fin cfg0.N) : (dat0 V o0 c).after 0 t = iblk0 V c 0 t := by dsimp only [dat0]
theorem after0_1 (c : Dev nD) (t : Fin cfg0.N) : (dat0 V o0 c).after 1 t = iblk0 V c 1 t := by dsimp only [dat0]
theorem after0_2 (c : Dev nD) (t : Fin cfg0.N) : (dat0 V o0 c).after 2 t = o0 (iblk0 V c 0 t) (iblk0 V c 1 t) := by dsimp only [dat0]

theorem before0_0 (c : Dev nD) (t : Fin cfg0.N) (d) : (dat0 V o0 c).before 0 t d = iblk0 V c 0 t :=
  before0_0_of V (dat0 V o0 c) (A_eq0 V o0 c 0) (after0_0 V o0 c) t d
theorem before0_1 (c : Dev nD) (t : Fin cfg0.N) (d) : (dat0 V o0 c).before 1 t d = iblk0 V c 1 t :=
  before0_1_of V (dat0 V o0 c) (A_eq0 V o0 c 1) (after0_1 V o0 c) t d

/-- What the body is called with at point `t`, the windows one by one, -/
def bodyPre0 (c : Dev nD) (t : Fin cfg0.N) : sProp 𝕄 :=
  iprop((dat0 V o0 c).Φ t.castSucc ∗ (dat0 V o0 c).owesAt () t.castSucc
    ∗ (∃ d, owns (c : Thread nD τ) (st0_0 t) fullShare ((dat0 V o0 c).before 0 t d))
    ∗ (∃ d, owns (c : Thread nD τ) (st0_1 t) fullShare ((dat0 V o0 c).before 1 t d))
    ∗ (∃ d, owns (c : Thread nD τ) (st0_2 t) fullShare ((dat0 V o0 c).before 2 t d)))

/-- and what it returns. -/
def bodyPost0 (c : Dev nD) (t : Fin cfg0.N) : sProp 𝕄 :=
  iprop((dat0 V o0 c).Φ t.succ ∗ (dat0 V o0 c).owesAt () t.succ
    ∗ owns (c : Thread nD τ) (st0_0 t) fullShare ((dat0 V o0 c).after 0 t)
    ∗ owns (c : Thread nD τ) (st0_1 t) fullShare ((dat0 V o0 c).after 1 t)
    ∗ owns (c : Thread nD τ) (st0_2 t) fullShare ((dat0 V o0 c).after 2 t))

/-- The body's triple on whole staging buffers: the inputs at read contents, the output at anything, run to the inputs
    as they were and the output at `o0` of them. -/
def Triple0 : Prop :=
  ∀ (c : Dev nD) (E : Set ℕ) (i : grid0.Coords) (arg2 : Memref sig .tc .vmem S512x1024 .bf16) (harg2 : arg2.IsWhole)
    (arg3 : Memref sig .tc .vmem S1024x1024 .bf16) (harg3 : arg3.IsWhole) (arg4 : Memref sig .tc .vmem S512x1024 .bf16) (harg4 : arg4.IsWhole)
    (x0 : Vec F S512x1024 .bf16) (x1 : Vec F S1024x1024 .bf16) (K : PUnit → sProp 𝕄),
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (o0 x0 x1)) -∗ K ⟨⟩))
      ⊢ wp frame (wpE (defs₀ (F := F)) Variants.none c none) E (cc0__proj_kernel i arg2 harg2 arg3 harg3 arg4 harg4) K

variable (hk0 : Triple0 (F := F) o0)

include hk0 in
/-- The body at any point: the inputs' buffers hold their blocks, so the triple applies; the invariant and the core's
    dues pass through unread. -/
theorem sound_body0 (c : Dev nD) (t : Fin cfg0.N) :
    bodyPre0 V o0 c t ⊢ wp frame (wpE (defs₀ (F := F)) Variants.none c none) Set.univ (bodyAt0 t) (fun _ => bodyPost0 V o0 c t) := by
  unfold bodyPre0 bodyPost0 bodyAt0
  simp only [before0_0, before0_1]
  rw [show (dat0 V o0 c).Φ t.succ = (dat0 V o0 c).Φ t.castSucc from rfl,
    show (dat0 V o0 c).owesAt () t.succ = (dat0 V o0 c).owesAt () t.castSucc from rfl,
    after0_0, after0_1, after0_2]
  iintro ⟨HΦ, Ho, ⟨%d0, H0⟩, ⟨%d1, H1⟩, ⟨%d2, H2⟩⟩
  iapply (hk0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

include hk0 in
/-- The pipeline's body obligation, at every point. -/
theorem body_obligation0 (c : Dev nD) : BodyObligation (dat0 (F := F) V o0 c) (defs₀ (F := F)) Variants.none () Set.univ := fun t => by
  rw [bigSep_W0, bigSep_W0]
  exact sound_body0 V o0 hk0 c t

end Call0

end Cert.KernelIdeal.Hand

end
-- ==== Proof.FrameIdeal1.lean ====
/-
  The second pallas_call (attention for a pair of heads on a tile of 256 queries, grid 2×8×8) as a pipeline with proof
  data: at the contents `V` the call is entered from, window 0 holds the tile's 256×128 query columns, windows 1 and 2 the
  batch row's 2048×128 key and value columns (three windows on ONE array, the projection's output), windows 3 and 4 the
  tile's rows of the cosine and sine tables, windows 5 and 6 the whole tables (the same two arrays again), and after the
  body the output window's buffer holds `o1` of those seven blocks — for any block function `o1` the body is shown to
  compute (`hk1`). An array read through several windows is held by each at a part of its full share: the projection's
  output at a half, a quarter and a quarter; each table at two halves.
-/
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Call1

variable (V : (c : Dev nD) → (b : Ref sig .tc) → Buf (Elt F) ((c : Thread nD τ).loc b))
variable (o1 : Vec F S256x128 .bf16 → Vec F S2048x128 .bf16 → Vec F S2048x128 .bf16 → Vec F S256x64 .f32 → Vec F S256x64 .f32 → Vec F S2048x64 .f32 → Vec F S2048x64 .f32 → Vec F S256x128 .bf16)

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (unfetched, its block index
    has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not (unfetched, its block index
    has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not (unfetched, its block index
    has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not (unfetched, its block index
    has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not (unfetched, its block index
    has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not (unfetched, its block index
    has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not (unfetched, its block index
    has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as found; after the body each input buffer at its block, the output buffer at `o1` of the
    input blocks; nothing owed; the invariant the untouched scoped rest and the generator register; an array read through several windows is held by each at a part of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => o1 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right.left
    | ⟨2, _⟩ => fullShare.right.right
    | ⟨3, _⟩ => fullShare.left
    | ⟨4, _⟩ => fullShare.left
    | ⟨5, _⟩ => fullShare.right
    | ⟨6, _⟩ => fullShare.right
    | ⟨7, _⟩ => fullShare
  owed _ := 0

theorem A_eq1 (c : Dev nD) (w : Fin cfg1.W) : (dat1 V o1 c).A w = V c (Pipeline.arrRef spec1 w) := by
  dsimp only [dat1]

theorem after1_0 (c : Dev nD) (t : Fin cfg1.N) : (dat1 V o1 c).after 0 t = iblk1 V c 0 t := by dsimp only [dat1]
theorem after1_1 (c : Dev nD) (t : Fin cfg1.N) : (dat1 V o1 c).after 1 t = iblk1 V c 1 t := by dsimp only [dat1]
theorem after1_2 (c : Dev nD) (t : Fin cfg1.N) : (dat1 V o1 c).after 2 t = iblk1 V c 2 t := by dsimp only [dat1]
theorem after1_3 (c : Dev nD) (t : Fin cfg1.N) : (dat1 V o1 c).after 3 t = iblk1 V c 3 t := by dsimp only [dat1]
theorem after1_4 (c : Dev nD) (t : Fin cfg1.N) : (dat1 V o1 c).after 4 t = iblk1 V c 4 t := by dsimp only [dat1]
theorem after1_5 (c : Dev nD) (t : Fin cfg1.N) : (dat1 V o1 c).after 5 t = iblk1 V c 5 t := by dsimp only [dat1]
theorem after1_6 (c : Dev nD) (t : Fin cfg1.N) : (dat1 V o1 c).after 6 t = iblk1 V c 6 t := by dsimp only [dat1]
theorem after1_7 (c : Dev nD) (t : Fin cfg1.N) : (dat1 V o1 c).after 7 t = o1 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V o1 c).before 0 t d = iblk1 V c 0 t :=
  before1_0_of V (dat1 V o1 c) (A_eq1 V o1 c 0) (after1_0 V o1 c) t d
theorem before1_1 (c : Dev nD) (t : Fin cfg1.N) (d) : (dat1 V o1 c).before 1 t d = iblk1 V c 1 t :=
  before1_1_of V (dat1 V o1 c) (A_eq1 V o1 c 1) (after1_1 V o1 c) t d
theorem before1_2 (c : Dev nD) (t : Fin cfg1.N) (d) : (dat1 V o1 c).before 2 t d = iblk1 V c 2 t :=
  before1_2_of V (dat1 V o1 c) (A_eq1 V o1 c 2) (after1_2 V o1 c) t d
theorem before1_3 (c : Dev nD) (t : Fin cfg1.N) (d) : (dat1 V o1 c).before 3 t d = iblk1 V c 3 t :=
  before1_3_of V (dat1 V o1 c) (A_eq1 V o1 c 3) (after1_3 V o1 c) t d
theorem before1_4 (c : Dev nD) (t : Fin cfg1.N) (d) : (dat1 V o1 c).before 4 t d = iblk1 V c 4 t :=
  before1_4_of V (dat1 V o1 c) (A_eq1 V o1 c 4) (after1_4 V o1 c) t d
theorem before1_5 (c : Dev nD) (t : Fin cfg1.N) (d) : (dat1 V o1 c).before 5 t d = iblk1 V c 5 t :=
  before1_5_of V (dat1 V o1 c) (A_eq1 V o1 c 5) (after1_5 V o1 c) t d
theorem before1_6 (c : Dev nD) (t : Fin cfg1.N) (d) : (dat1 V o1 c).before 6 t d = iblk1 V c 6 t :=
  before1_6_of V (dat1 V o1 c) (A_eq1 V o1 c 6) (after1_6 V o1 c) t d

/-- What the body is called with at point `t`, the windows one by one, -/
def bodyPre1 (c : Dev nD) (t : Fin cfg1.N) : sProp 𝕄 :=
  iprop((dat1 V o1 c).Φ t.castSucc ∗ (dat1 V o1 c).owesAt () t.castSucc
    ∗ (∃ d, owns (c : Thread nD τ) (st1_0 t) fullShare ((dat1 V o1 c).before 0 t d))
    ∗ (∃ d, owns (c : Thread nD τ) (st1_1 t) fullShare ((dat1 V o1 c).before 1 t d))
    ∗ (∃ d, owns (c : Thread nD τ) (st1_2 t) fullShare ((dat1 V o1 c).before 2 t d))
    ∗ (∃ d, owns (c : Thread nD τ) (st1_3 t) fullShare ((dat1 V o1 c).before 3 t d))
    ∗ (∃ d, owns (c : Thread nD τ) (st1_4 t) fullShare ((dat1 V o1 c).before 4 t d))
    ∗ (∃ d, owns (c : Thread nD τ) (st1_5 t) fullShare ((dat1 V o1 c).before 5 t d))
    ∗ (∃ d, owns (c : Thread nD τ) (st1_6 t) fullShare ((dat1 V o1 c).before 6 t d))
    ∗ (∃ d, owns (c : Thread nD τ) (st1_7 t) fullShare ((dat1 V o1 c).before 7 t d)))

/-- and what it returns. -/
def bodyPost1 (c : Dev nD) (t : Fin cfg1.N) : sProp 𝕄 :=
  iprop((dat1 V o1 c).Φ t.succ ∗ (dat1 V o1 c).owesAt () t.succ
    ∗ owns (c : Thread nD τ) (st1_0 t) fullShare ((dat1 V o1 c).after 0 t)
    ∗ owns (c : Thread nD τ) (st1_1 t) fullShare ((dat1 V o1 c).after 1 t)
    ∗ owns (c : Thread nD τ) (st1_2 t) fullShare ((dat1 V o1 c).after 2 t)
    ∗ owns (c : Thread nD τ) (st1_3 t) fullShare ((dat1 V o1 c).after 3 t)
    ∗ owns (c : Thread nD τ) (st1_4 t) fullShare ((dat1 V o1 c).after 4 t)
    ∗ owns (c : Thread nD τ) (st1_5 t) fullShare ((dat1 V o1 c).after 5 t)
    ∗ owns (c : Thread nD τ) (st1_6 t) fullShare ((dat1 V o1 c).after 6 t)
    ∗ owns (c : Thread nD τ) (st1_7 t) fullShare ((dat1 V o1 c).after 7 t))

/-- The body's triple on whole staging buffers: the inputs at read contents, the output at anything, run to the inputs
    as they were and the output at `o1` of them. -/
def Triple1 : Prop :=
  ∀ (c : Dev nD) (E : Set ℕ) (i : grid1.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x64 .f32) (harg6 : arg6.IsWhole) (arg7 : Memref sig .tc .vmem S256x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S256x128 .bf16) (harg10 : arg10.IsWhole)
    (x0 : Vec F S256x128 .bf16) (x1 : Vec F S2048x128 .bf16) (x2 : Vec F S2048x128 .bf16) (x3 : Vec F S256x64 .f32) (x4 : Vec F S256x64 .f32) (x5 : Vec F S2048x64 .f32) (x6 : Vec F S2048x64 .f32) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (o1 x0 x1 x2 x3 x4 x5 x6)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K

variable (hk1 : Triple1 (F := F) o1)

include hk1 in
/-- The body at any point: the inputs' buffers hold their blocks, so the triple applies; the invariant and the core's
    dues pass through unread. -/
theorem sound_body1 (c : Dev nD) (t : Fin cfg1.N) :
    bodyPre1 V o1 c t ⊢ wp frame (wpE (defs₀ (F := F)) Variants.none c none) Set.univ (bodyAt1 t) (fun _ => bodyPost1 V o1 c t) := by
  unfold bodyPre1 bodyPost1 bodyAt1
  simp only [before1_0, before1_1, before1_2, before1_3, before1_4, before1_5, before1_6]
  rw [show (dat1 V o1 c).Φ t.succ = (dat1 V o1 c).Φ t.castSucc from rfl,
    show (dat1 V o1 c).owesAt () t.succ = (dat1 V o1 c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hk1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

include hk1 in
/-- The pipeline's body obligation, at every point. -/
theorem body_obligation1 (c : Dev nD) : BodyObligation (dat1 (F := F) V o1 c) (defs₀ (F := F)) Variants.none () Set.univ := fun t => by
  rw [bigSep_W1, bigSep_W1]
  exact sound_body1 V o1 hk1 c t

end Call1

end Cert.KernelIdeal.Hand

end
-- ==== Proof.FrameIdeal2.lean ====
/-
  The third pallas_call (the output projection: a 512×1024 by 1024×1024ᵀ product plus a bias row, per grid point, grid 8)
  as a pipeline with proof data: at the contents `V` the call is entered from, input window 0 holds rows 512·i … of
  the attention output, windows 1 and 2 the whole weights and the bias row (fetched once), and after the body the output
  window's buffer holds `o2` of those three blocks — for any block function `o2` the body is shown to compute (`hk2`).
-/
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Call2

variable (V : (c : Dev nD) → (b : Ref sig .tc) → Buf (Elt F) ((c : Thread nD τ).loc b))
variable (o2 : Vec F S512x1024 .bf16 → Vec F S1024x1024 .bf16 → Vec F S1x1024 .f32 → Vec F S512x1024 .f32)

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not (unfetched, its block index
    has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not (unfetched, its block index
    has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not (unfetched, its block index
    has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data: the arrays as found; after the body each input buffer at its block, the output buffer at `o2` of the
    input blocks; nothing owed; the invariant the untouched scoped rest and the generator register; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => o2 (iblk2 V c 0 t) (iblk2 V c 1 t) (iblk2 V c 2 t)
  Φ _ := Pipeline.ΦA spec2 c
  q _ := fullShare
  owed _ := 0

theorem A_eq2 (c : Dev nD) (w : Fin cfg2.W) : (dat2 V o2 c).A w = V c (Pipeline.arrRef spec2 w) := by
  dsimp only [dat2]

theorem after2_0 (c : Dev nD) (t : Fin cfg2.N) : (dat2 V o2 c).after 0 t = iblk2 V c 0 t := by dsimp only [dat2]
theorem after2_1 (c : Dev nD) (t : Fin cfg2.N) : (dat2 V o2 c).after 1 t = iblk2 V c 1 t := by dsimp only [dat2]
theorem after2_2 (c : Dev nD) (t : Fin cfg2.N) : (dat2 V o2 c).after 2 t = iblk2 V c 2 t := by dsimp only [dat2]
theorem after2_3 (c : Dev nD) (t : Fin cfg2.N) : (dat2 V o2 c).after 3 t = o2 (iblk2 V c 0 t) (iblk2 V c 1 t) (iblk2 V c 2 t) := by dsimp only [dat2]

theorem before2_0 (c : Dev nD) (t : Fin cfg2.N) (d) : (dat2 V o2 c).before 0 t d = iblk2 V c 0 t :=
  before2_0_of V (dat2 V o2 c) (A_eq2 V o2 c 0) (after2_0 V o2 c) t d
theorem before2_1 (c : Dev nD) (t : Fin cfg2.N) (d) : (dat2 V o2 c).before 1 t d = iblk2 V c 1 t :=
  before2_1_of V (dat2 V o2 c) (A_eq2 V o2 c 1) (after2_1 V o2 c) t d
theorem before2_2 (c : Dev nD) (t : Fin cfg2.N) (d) : (dat2 V o2 c).before 2 t d = iblk2 V c 2 t :=
  before2_2_of V (dat2 V o2 c) (A_eq2 V o2 c 2) (after2_2 V o2 c) t d

/-- What the body is called with at point `t`, the windows one by one, -/
def bodyPre2 (c : Dev nD) (t : Fin cfg2.N) : sProp 𝕄 :=
  iprop((dat2 V o2 c).Φ t.castSucc ∗ (dat2 V o2 c).owesAt () t.castSucc
    ∗ (∃ d, owns (c : Thread nD τ) (st2_0 t) fullShare ((dat2 V o2 c).before 0 t d))
    ∗ (∃ d, owns (c : Thread nD τ) (st2_1 t) fullShare ((dat2 V o2 c).before 1 t d))
    ∗ (∃ d, owns (c : Thread nD τ) (st2_2 t) fullShare ((dat2 V o2 c).before 2 t d))
    ∗ (∃ d, owns (c : Thread nD τ) (st2_3 t) fullShare ((dat2 V o2 c).before 3 t d)))

/-- and what it returns. -/
def bodyPost2 (c : Dev nD) (t : Fin cfg2.N) : sProp 𝕄 :=
  iprop((dat2 V o2 c).Φ t.succ ∗ (dat2 V o2 c).owesAt () t.succ
    ∗ owns (c : Thread nD τ) (st2_0 t) fullShare ((dat2 V o2 c).after 0 t)
    ∗ owns (c : Thread nD τ) (st2_1 t) fullShare ((dat2 V o2 c).after 1 t)
    ∗ owns (c : Thread nD τ) (st2_2 t) fullShare ((dat2 V o2 c).after 2 t)
    ∗ owns (c : Thread nD τ) (st2_3 t) fullShare ((dat2 V o2 c).after 3 t))

/-- The body's triple on whole staging buffers: the inputs at read contents, the output at anything, run to the inputs
    as they were and the output at `o2` of them. -/
def Triple2 : Prop :=
  ∀ (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄),
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (o2 x0 x1 x2)) -∗ K ⟨⟩))
      ⊢ wp frame (wpE (defs₀ (F := F)) Variants.none c none) E (cc2__proj_bias_kernel i arg1 harg1 arg2 harg2 arg3 harg3 arg4 harg4) K

variable (hk2 : Triple2 (F := F) o2)

include hk2 in
/-- The body at any point: the inputs' buffers hold their blocks, so the triple applies; the invariant and the core's
    dues pass through unread. -/
theorem sound_body2 (c : Dev nD) (t : Fin cfg2.N) :
    bodyPre2 V o2 c t ⊢ wp frame (wpE (defs₀ (F := F)) Variants.none c none) Set.univ (bodyAt2 t) (fun _ => bodyPost2 V o2 c t) := by
  unfold bodyPre2 bodyPost2 bodyAt2
  simp only [before2_0, before2_1, before2_2]
  rw [show (dat2 V o2 c).Φ t.succ = (dat2 V o2 c).Φ t.castSucc from rfl,
    show (dat2 V o2 c).owesAt () t.succ = (dat2 V o2 c).owesAt () t.castSucc from rfl,
    after2_0, after2_1, after2_2, after2_3]
  iintro ⟨HΦ, Ho, ⟨%d0, H0⟩, ⟨%d1, H1⟩, ⟨%d2, H2⟩, ⟨%d3, H3⟩⟩
  iapply (hk2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

include hk2 in
/-- The pipeline's body obligation, at every point. -/
theorem body_obligation2 (c : Dev nD) : BodyObligation (dat2 (F := F) V o2 c) (defs₀ (F := F)) Variants.none () Set.univ := fun t => by
  rw [bigSep_W2, bigSep_W2]
  exact sound_body2 V o2 hk2 c t

end Call2

end Cert.KernelIdeal.Hand

end
-- ==== Proof.BodyIdeal0.lean ====
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of pallas_call 0: what it leaves in its output buffer, and its triple

The body reads its two input buffers whole, forms one matrix product rounded to bf16, and writes
it over the whole output buffer. So the output buffer afterwards is one whole-buffer piece, a pure
function of the two inputs; the triple says the inputs are left as they were. -/

-- membership in a whole-buffer rectangle: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer as one whole rectangle -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0

/-! ## What the body leaves in the output buffer -/

/-- The output buffer after the body, from the two inputs' contents: its one store as a piece. -/
def out0_2 (x0 : Vec F S512x1024 .bf16) (x1 : Vec F S1024x1024 .bf16) : Vec F S512x1024 .bf16 :=
  View.canon [⟨r0_0, k0_pay1 (View.ld x0 r0_0) (View.ld x1 r0_1)⟩]

/-- The one store is of the whole buffer, so it covers every index. -/
theorem cover0_2 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- On whole buffers, the inputs at contents `x0`, `x1` and the output at anything, the body runs to the
    continuation holding the inputs unchanged and the output at `out0_2 x0 x1`. -/
theorem sound_kernel0 (c : Dev nD) (E : Set ℕ) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .bf16) (harg4 : arg4.IsWhole)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Hand

end
-- ==== Proof.BodyIdeal1.lean ====
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of pallas_call 1: what it leaves in its output buffer, and its triple

The body reads its seven input buffers whole (the query block, the key and value blocks, and the four
rotary tables), applies the rotary embedding to the two halves of the query and key, forms the two
heads' softmax attention, and writes the result rounded to bf16 over the whole output buffer. So the
output buffer afterwards is one whole-buffer piece, a pure function of the seven inputs; the triple
says the inputs are left as they were. -/

-- membership in a whole-buffer rectangle: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer as one whole rectangle -/

abbrev r1_0 : Rect S256x128 := Rect.unit (s := S256x128) ![0, 0] S256x128.size inb_S256x128_S256x128_0_0
abbrev r1_1 : Rect S2048x128 := Rect.unit (s := S2048x128) ![0, 0] S2048x128.size inb_S2048x128_S2048x128_0_0
abbrev r1_2 : Rect S256x64 := Rect.unit (s := S256x64) ![0, 0] S256x64.size inb_S256x64_S256x64_0_0
abbrev r1_3 : Rect S2048x64 := Rect.unit (s := S2048x64) ![0, 0] S2048x64.size inb_S2048x64_S2048x64_0_0

/-! ## What the body leaves in the output buffer -/

/-- The output buffer after the body, from the seven inputs' contents: its one store as a piece. -/
def out1_7 (x0 : Vec F S256x128 .bf16) (x1 x2 : Vec F S2048x128 .bf16) (x3 x4 : Vec F S256x64 .f32) (x5 x6 : Vec F S2048x64 .f32) : Vec F S256x128 .bf16 :=
  View.canon [⟨r1_0, k1_pay12 (k1_pay2 (View.ld x1 r1_1)) (k1_pay3 (View.ld x2 r1_1)) (k1_pay6 (View.ld x5 r1_3)) (k1_pay7 (View.ld x6 r1_3))
    (k1_pay8 (View.ld x0 r1_0) (View.ld x3 r1_2) (View.ld x4 r1_2)) (k1_pay9 (View.ld x0 r1_0) (View.ld x3 r1_2) (View.ld x4 r1_2))
    (k1_pay10 (View.ld x1 r1_1)) (k1_pay11 (View.ld x1 r1_1))⟩]

/-- The one store is of the whole buffer, so it covers every index. -/
theorem cover1_7 (p0 : Vec F S256x128 .bf16) (y : S256x128.Idx) :
    ∃ pc ∈ ([⟨r1_0, p0⟩] : List (View.Piece (Elt F) S256x128 .bf16)), y ∈ pc.1.set :=
  View.cover_of_tiled [⟨r1_0, p0⟩] S256x128.size (by rfl) y

/-! ## The body's triple -/

set_option maxHeartbeats 1000000 in
/-- On whole buffers, the inputs at contents `x0` … `x6` and the output at anything, the body runs to the
    continuation holding the inputs unchanged and the output at `out1_7 x0 x1 x2 x3 x4 x5 x6`. -/
theorem sound_kernel1 (c : Dev nD) (E : Set ℕ) (i : grid1.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x64 .f32) (harg6 : arg6.IsWhole) (arg7 : Memref sig .tc .vmem S256x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S256x128 .bf16) (harg10 : arg10.IsWhole)
    (x0 : Vec F S256x128 .bf16) (x1 : Vec F S2048x128 .bf16) (x2 : Vec F S2048x128 .bf16) (x3 : Vec F S256x64 .f32) (x4 : Vec F S256x64 .f32) (x5 : Vec F S2048x64 .f32) (x6 : Vec F S2048x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out1_7 x0 x1 x2 x3 x4 x5 x6)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

end Cert.KernelIdeal.Hand

end
-- ==== Proof.BodyIdeal2.lean ====
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of pallas_call 2: what it leaves in its output buffer, and its triple

The body reads its three input buffers whole (two matrices and a one-row bias), forms the matrix
product plus the bias broadcast along the rows, and writes it over the whole output buffer. So the
output buffer afterwards is one whole-buffer piece, a pure function of the three inputs; the triple
says the inputs are left as they were. -/

-- membership in a whole-buffer rectangle: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer as one whole rectangle -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output buffer -/

/-- The output buffer after the body, from the three inputs' contents: its one store as a piece. -/
def out2_3 (x0 : Vec F S512x1024 .bf16) (x1 : Vec F S1024x1024 .bf16) (x2 : Vec F S1x1024 .f32) : Vec F S512x1024 .f32 :=
  View.canon [⟨r2_0, k2_pay1 (View.ld x0 r2_0) (View.ld x1 r2_1) (View.ld x2 r2_2)⟩]

/-- The one store is of the whole buffer, so it covers every index. -/
theorem cover2_3 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- On whole buffers, the inputs at contents `x0`, `x1`, `x2` and the output at anything, the body runs to
    the continuation holding the inputs unchanged and the output at `out2_3 x0 x1 x2`. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__proj_bias_kernel i arg1 harg1 arg2 harg2 arg3 harg3 arg4 harg4) K := by
  simp only [cc2__proj_bias_kernel_eq_skeleton]; unfold cc2__proj_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.KernelIdeal.Hand

end
-- ==== Proof.RunIdealA.lean ====
/-
  The contents of the core's buffers at each boundary of the program — launch, then alternately a stretch of host
  operations and a pallas_call, eight boundaries in all — as a fold from the launch memory: a host stretch changes the
  buffers its operations write; the projection call changes only its output array, to what its write-backs leave
  (the proof data's final array); likewise the attention call and the output projection. No stretch and no call writes
  an argument array, so each argument read through the fold is the launch memory's.
-/
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import proofs.«130407_j90417651516253_2_alg».proof.Proof.FrameIdeal0
import proofs.«130407_j90417651516253_2_alg».proof.Proof.FrameIdeal1
import proofs.«130407_j90417651516253_2_alg».proof.Proof.FrameIdeal2
import proofs.«130407_j90417651516253_2_alg».proof.Proof.BodyIdeal0
import proofs.«130407_j90417651516253_2_alg».proof.Proof.BodyIdeal1
import proofs.«130407_j90417651516253_2_alg».proof.Proof.BodyIdeal2
import proofs.«130407_j90417651516253_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three bodies' triples, at the block functions they compute. -/
theorem hk0 : Triple0 (F := F) out0_2 := fun c E i a2 h2 a3 h3 a4 h4 x0 x1 K => sound_kernel0 c E i a2 h2 a3 h3 a4 h4 x0 x1 K
theorem hk1 : Triple1 (F := F) out1_7 := fun c E i a3 h3 a4 h4 a5 h5 a6 h6 a7 h7 a8 h8 a9 h9 a10 h10 x0 x1 x2 x3 x4 x5 x6 K =>
  sound_kernel1 c E i a3 h3 a4 h4 a5 h5 a6 h6 a7 h7 a8 h8 a9 h9 a10 h10 x0 x1 x2 x3 x4 x5 x6 K
theorem hk2 : Triple2 (F := F) out2_3 := fun c E i a1 h1 a2 h2 a3 h3 a4 h4 x0 x1 x2 K => sound_kernel2 c E i a1 h1 a2 h2 a3 h3 a4 h4 x0 x1 x2 K

section Fold

variable (m : (ℓ : Loc nD τ sig) → Buf (Elt F) ℓ)

/-- Core `c`'s buffers at launch. -/
abbrev W0 : Dev nD → Valuation τ sig (Elt F) := fun c b => m (c, b)
/-- After the first host stretch (the projection call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection call's exit: its arrays at what the pipeline leaves, every other buffer as entered. -/
def W2 (c : Dev nD) : Valuation τ sig (Elt F) :=
  Pipeline.withArrays spec0 c (W1 m c) fun w => (dat0 (V1 m) out0_2 c).arrAt w cfg0.N
theorem W2_arr (c : Dev nD) (w : Fin cfg0.W) :
    W2 m c (Proc.devRef .tc (Pipeline.arrRef spec0 w)) = (dat0 (V1 m) out0_2 c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) out0_2 c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention call's exit: its output array at what the pipeline leaves, every other buffer as entered (its seven
    input windows read three arrays, none of which it changes). -/
def W4 (c : Dev nD) : Valuation τ sig (Elt F) :=
  Function.update (W3 m c) (Proc.devRef .tc main_v6) ((dat1 (V3 m) out1_7 c).arrAt 7 cfg1.N)
theorem W4_out (c : Dev nD) : W4 m c (Proc.devRef .tc main_v6) = (dat1 (V3 m) out1_7 c).arrAt 7 cfg1.N := by
  unfold W4; exact Function.update_self ..
theorem W4_of_ne (c : Dev nD) (b : Ref sig .tc) (hb : b ≠ main_v6) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-- After the third host stretch (the output projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the output projection's exit. -/
def W6 (c : Dev nD) : Valuation τ sig (Elt F) :=
  Pipeline.withArrays spec2 c (W5 m c) fun w => (dat2 (V5 m) out2_3 c).arrAt w cfg2.N
theorem W6_arr (c : Dev nD) (w : Fin cfg2.W) :
    W6 m c (Proc.devRef .tc (Pipeline.arrRef spec2 w)) = (dat2 (V5 m) out2_3 c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) out2_3 c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch: the return. -/
abbrev W7 : Dev nD → Valuation τ sig (Elt F) := fun c => StableHlo.after hostOps3 (W6 m c)

/-- A buffer that no host stretch writes and that is no call's output keeps its launch contents to the end. -/
theorem W7_of_kept (c : Dev nD) (r : Ref sig .tc) (h0 : r ∉ hostOps0_W) (h1 : r ∉ hostOps1_W) (h2 : r ∉ hostOps2_W) (h3 : r ∉ hostOps3_W)
    (ha0 : ∀ w, Pipeline.arrRef spec0 w ≠ r) (ha1 : r ≠ main_v6) (ha2 : ∀ w, Pipeline.arrRef spec2 w ≠ r) :
    W7 m c (Proc.devRef .tc r) = m ((c : Thread nD τ).loc r) :=
  calc W7 m c (Proc.devRef .tc r)
    _ = W6 m c (Proc.devRef .tc r) := StableHlo.after_of_writes_sub hostOps3 _ hostOps3_writes h3
    _ = W5 m c (Proc.devRef .tc r) := W6_of_ne m c r ha2
    _ = W4 m c (Proc.devRef .tc r) := StableHlo.after_of_writes_sub hostOps2 _ hostOps2_writes h2
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

theorem W7_main_arg0 (c : Dev nD) : W7 m c (Proc.devRef .tc main_arg0) = m ((c : Thread nD τ).loc main_arg0) :=
  W7_of_kept m c main_arg0 (by decide) (by decide) (by decide) (by decide) (by decide) (by decide) (by decide)
theorem W7_main_arg1 (c : Dev nD) : W7 m c (Proc.devRef .tc main_arg1) = m ((c : Thread nD τ).loc main_arg1) :=
  W7_of_kept m c main_arg1 (by decide) (by decide) (by decide) (by decide) (by decide) (by decide) (by decide)
theorem W7_main_arg2 (c : Dev nD) : W7 m c (Proc.devRef .tc main_arg2) = m ((c : Thread nD τ).loc main_arg2) :=
  W7_of_kept m c main_arg2 (by decide) (by decide) (by decide) (by decide) (by decide) (by decide) (by decide)
theorem W7_main_arg3 (c : Dev nD) : W7 m c (Proc.devRef .tc main_arg3) = m ((c : Thread nD τ).loc main_arg3) :=
  W7_of_kept m c main_arg3 (by decide) (by decide) (by decide) (by decide) (by decide) (by decide) (by decide)
theorem W7_main_arg4 (c : Dev nD) : W7 m c (Proc.devRef .tc main_arg4) = m ((c : Thread nD τ).loc main_arg4) :=
  W7_of_kept m c main_arg4 (by decide) (by decide) (by decide) (by decide) (by decide) (by decide) (by decide)

end Fold

end Cert.KernelIdeal.Hand

end
-- ==== Proof.Share1Ideal.lean ====
/-
  The attention call reads ONE array — the projection's output — through three windows (queries, keys, values), and
  each rotary table through two (the tile's rows, and the whole table). Its pipeline therefore holds those arrays at
  parts of the full share: a half, a quarter and a quarter; and two halves. Here: the four distinct buffers behind the
  call's eight windows, each whole at the full share, ARE the pipeline's arrays at entry (splitting the shares), and at
  the end — the seven input windows' arrays unchanged, the output window's at what its write-backs leave — they are the
  four buffers again at the full share (joining the shares back).
-/
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import proofs.«130407_j90417651516253_2_alg».proof.Proof.FrameIdeal1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares1

variable (V : (c : Dev nD) → (b : Ref sig .tc) → Buf (Elt F) ((c : Thread nD τ).loc b))
variable (o1 : Vec F S256x128 .bf16 → Vec F S2048x128 .bf16 → Vec F S2048x128 .bf16 → Vec F S256x64 .f32 → Vec F S256x64 .f32 → Vec F S2048x64 .f32 → Vec F S2048x64 .f32 → Vec F S256x128 .bf16)

/-- The distinct buffers behind the call's eight windows are four: the projection's output, the two tables, the result. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v3) ↦{fullShare} V' main_v3) ∗ (((c : Thread nD τ).loc main_v4) ↦{fullShare} V' main_v4)
          ∗ (((c : Thread nD τ).loc main_v5) ↦{fullShare} V' main_v5) ∗ (((c : Thread nD τ).loc main_v6) ↦{fullShare} V' main_v6)) := by
  unfold Pipeline.arrBufs
  exact bigSep_eq_bigSepL_of_eq [main_v3, main_v4, main_v5, main_v6] (by decide) (by decide) _

/-- The pipeline's arrays, window by window, each at its share. -/
theorem arrays1_eq (c : Dev nD) (G : (w : Fin cfg1.W) → Buf (Elt F) ((cfg1.win w).arr.view.loc (c : Thread nD τ))) :
    ((dat1 V o1 c).arrays G : sProp 𝕄)
      = iprop((((c : Thread nD τ).loc main_v3) ↦{fullShare.left} G 0) ∗ (((c : Thread nD τ).loc main_v3) ↦{fullShare.right.left} G 1)
          ∗ (((c : Thread nD τ).loc main_v3) ↦{fullShare.right.right} G 2) ∗ (((c : Thread nD τ).loc main_v4) ↦{fullShare.left} G 3)
          ∗ (((c : Thread nD τ).loc main_v5) ↦{fullShare.left} G 4) ∗ (((c : Thread nD τ).loc main_v4) ↦{fullShare.right} G 5)
          ∗ (((c : Thread nD τ).loc main_v5) ↦{fullShare.right} G 6) ∗ (((c : Thread nD τ).loc main_v6) ↦{fullShare} G 7)) := by
  unfold Dat.arrays
  have h : ∀ w : Fin cfg1.W, (((cfg1.win w).arr.view.loc (c : Thread nD τ)) ↦[(cfg1.win w).arr.view.set]{(dat1 V o1 c).share w} G w : sProp 𝕄)
      = (((cfg1.win w).arr.view.loc (c : Thread nD τ)) ↦{(dat1 V o1 c).share w} G w) := fun w => by rw [(arr_whole1 w).set_eq_univ]
  rw [bigSep_congr fun w _ => h w, bigSep_W1]
  rfl

/-- ENTRY: the four buffers whole at the full share make the pipeline's arrays at their entry contents — the projection's
    output split a half, a quarter, a quarter among the three windows on it, each table split in two halves. -/
theorem entry1 (c : Dev nD) :
    (Pipeline.arrBufs (Ix := Unit) (Name := ℕ) (U := UR sig nD τ) (Lvl := ℕ) spec1 c (V c) : sProp 𝕄)
      ⊢ (dat1 V o1 c).arrays ((dat1 V o1 c).arrAt · 0) := by
  rw [arrBufs1_eq, arrays1_eq]
  iintro ⟨H3, H4, H5, H6⟩
  ihave H3' := (pointsTo_share (PosShare.mem_left_op_right fullShare)).1 $$ H3
  icases H3' with ⟨H3a, H3r⟩
  ihave H3r' := (pointsTo_share (PosShare.mem_left_op_right fullShare.right)).1 $$ H3r
  icases H3r' with ⟨H3b, H3c⟩
  ihave H4' := (pointsTo_share (PosShare.mem_left_op_right fullShare)).1 $$ H4
  icases H4' with ⟨H4a, H4b⟩
  ihave H5' := (pointsTo_share (PosShare.mem_left_op_right fullShare)).1 $$ H5
  icases H5' with ⟨H5a, H5b⟩
  isplitl [H3a]; · iexact H3a
  isplitl [H3b]; · iexact H3b
  isplitl [H3c]; · iexact H3c
  isplitl [H4a]; · iexact H4a
  isplitl [H5a]; · iexact H5a
  isplitl [H4b]; · iexact H4b
  isplitl [H5b]; · iexact H5b
  iexact H6

/-- EXIT: the pipeline's arrays at their final contents — the seven input windows' as entered, the output window's at
    what its write-backs leave — are the four buffers whole at the full share again, at any contents `V'` that agree
    with the entry contents on the three arrays read and hold the final output array at the fourth. -/
theorem exit1 (c : Dev nD) (V' : (b : Ref sig .tc) → Buf (Elt F) ((c : Thread nD τ).loc b))
    (h3 : V' main_v3 = V c main_v3) (h4 : V' main_v4 = V c main_v4) (h5 : V' main_v5 = V c main_v5)
    (h6 : V' main_v6 = (dat1 V o1 c).arrAt 7 cfg1.N) :
    ((dat1 V o1 c).arrays ((dat1 V o1 c).arrAt · cfg1.N) : sProp 𝕄)
      ⊢ Pipeline.arrBufs (Ix := Unit) (Name := ℕ) (U := UR sig nD τ) (Lvl := ℕ) spec1 c V' := by
  rw [arrBufs1_eq, arrays1_eq, h3, h4, h5, h6]
  have e0 : (dat1 V o1 c).arrAt 0 cfg1.N = V c main_v3 := ((dat1 V o1 c).arrAt_in 0 rfl _).trans (A_eq1 V o1 c 0)
  have e1 : (dat1 V o1 c).arrAt 1 cfg1.N = V c main_v3 := ((dat1 V o1 c).arrAt_in 1 rfl _).trans (A_eq1 V o1 c 1)
  have e2 : (dat1 V o1 c).arrAt 2 cfg1.N = V c main_v3 := ((dat1 V o1 c).arrAt_in 2 rfl _).trans (A_eq1 V o1 c 2)
  have e3 : (dat1 V o1 c).arrAt 3 cfg1.N = V c main_v4 := ((dat1 V o1 c).arrAt_in 3 rfl _).trans (A_eq1 V o1 c 3)
  have e4 : (dat1 V o1 c).arrAt 4 cfg1.N = V c main_v5 := ((dat1 V o1 c).arrAt_in 4 rfl _).trans (A_eq1 V o1 c 4)
  have e5 : (dat1 V o1 c).arrAt 5 cfg1.N = V c main_v4 := ((dat1 V o1 c).arrAt_in 5 rfl _).trans (A_eq1 V o1 c 5)
  have e6 : (dat1 V o1 c).arrAt 6 cfg1.N = V c main_v5 := ((dat1 V o1 c).arrAt_in 6 rfl _).trans (A_eq1 V o1 c 6)
  rw [e0, e1, e2, e3, e4, e5, e6]
  iintro ⟨H3a, H3b, H3c, H4a, H5a, H4b, H5b, H6⟩
  ihave H3r := (pointsTo_share (PosShare.mem_left_op_right fullShare.right)).2 $$ [H3b H3c]
  · isplitl [H3b] <;> iassumption
  ihave H3 := (pointsTo_share (PosShare.mem_left_op_right fullShare)).2 $$ [H3a H3r]
  · isplitl [H3a] <;> iassumption
  ihave H4 := (pointsTo_share (PosShare.mem_left_op_right fullShare)).2 $$ [H4a H4b]
  · isplitl [H4a] <;> iassumption
  ihave H5 := (pointsTo_share (PosShare.mem_left_op_right fullShare)).2 $$ [H5a H5b]
  · isplitl [H5a] <;> iassumption
  isplitl [H3]; · iexact H3
  isplitl [H4]; · iexact H4
  isplitl [H5]; · iexact H5
  iexact H6

end Shares1

end Cert.KernelIdeal.Hand

end
-- ==== Proof.RunIdealB.lean ====
/-
  The program's run: its seven items — four stretches of host operations and the three pallas_calls between them — as
  segments over one thread state, "every unscoped buffer at the boundary's contents, the generator register at some
  state, nothing owed". A call's segment sorts its arrays out of the unscoped buffers at entry and puts them back at the
  exit contents; for the attention call, whose windows share arrays, by splitting and joining shares. Every weakly fair
  execution of the program then terminates, faults nowhere, and ends with every unscoped buffer at the last boundary's
  contents: the arguments as launched, the result at what the last host operation makes of the output projection's array.
-/
import proofs.«130407_j90417651516253_2_alg».proof.Proof.Gen.KernelIdeal.Launch
import proofs.«130407_j90417651516253_2_alg».proof.Proof.Gen.KernelIdeal.Skeleton
import proofs.«130407_j90417651516253_2_alg».proof.Proof.Gen.KernelIdeal.Points
import proofs.«130407_j90417651516253_2_alg».proof.Proof.RunIdealA
import proofs.«130407_j90417651516253_2_alg».proof.Proof.Share1Ideal
import Idealize.ShloMosaic.Adequacy
import Idealize.ShloMosaic.Init
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m) out0_2 c
  | ⟨1, _⟩ => fun c => dat1 (V3 m) out1_7 c
  | ⟨2, _⟩ => fun c => dat2 (V5 m) out2_3 c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) out0_2 hk0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) out2_3 hk2 c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the attention call's exit the unscoped buffers that are none of its arrays hold what they held at entry. -/
theorem rest1_eq (c : Dev nD) :
    (Pipeline.unscopedRest (Ix := Unit) (Name := ℕ) (U := UR sig nD τ) (Lvl := ℕ) spec1 c (V4 m c) : sProp 𝕄)
      = Pipeline.unscopedRest (Ix := Unit) (Name := ℕ) (U := UR sig nD τ) (Lvl := ℕ) spec1 c (V3 m c) := by
  unfold Pipeline.unscopedRest
  refine bigSep_congr fun b hb => ?_
  have hne : b ≠ main_v6 := fun e => (Finset.mem_sdiff.mp hb).2 (Finset.mem_image.mpr ⟨7, Finset.mem_univ _, e.symm⟩)
  rw [show V4 m c b = V3 m c b from W4_of_ne m c b hne]

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) out1_7 hk1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest (Ix := Unit) (Name := ℕ) (U := UR sig nD τ) (Lvl := ℕ) spec1 c (V3 m c)) := by
      rw [Pipeline.unscopedBufs_split₀ cfgs (1 : Fin 3) winFacts₀1.arr_unscoped c (V3 m c)]
      exact sep_mono (entry1 (V3 m) out1_7 c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) := by
      rw [Pipeline.unscopedBufs_split₀ cfgs (1 : Fin 3) winFacts₀1.arr_unscoped c (V4 m c)]
      exact BI.sep_mono (exit1 (V3 m) out1_7 c (V4 m c) (W4_of_ne m c main_v3 (by decide)) (W4_of_ne m c main_v4 (by decide))
        (W4_of_ne m c main_v5 (by decide)) (W4_out m c)) (Entails.of_eq (rest1_eq m c).symm)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program IS the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of the program
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Run

end Cert.KernelIdeal.Hand

end
-- ==== Proof.Spec.lean ====
/-
  Multi-head attention with rotary position embedding, as index-by-index functions of its five argument
  arrays over the extended reals: x : [2, 2048, 1024], pos : [2048, 64], w_qkv : [3072, 1024], w_out : [1024, 1024],
  bias : [1024].

  Every stage is a function of the previous stages' arrays, read at literal coordinates (batch b < 2, head h < 16,
  row n < 2048, feature f < 64). Sums keep the order and the grouping of the computation they describe, and the three
  float constants (the scale 1/8, minus infinity, zero) stay the words they are written as: nothing here evaluates one,
  and no law of arithmetic is used.

    qkv b n e        = sum over d of x[b, n, d] * w_qkv[e, d]
    q, k, v          = the three 1024-wide thirds of qkv's columns, column h * 64 + f of a third being head h, feature f
    rotHalf t        = the two halves of the feature axis exchanged, the upper one negated
    rope t pos       = t * cos pos + rotHalf t * sin pos
    scores q k       = (sum over f of q[b, h, i, f] * k[b, h, j, f]) * (1/8)
    rowmax s         = max(-inf, max over j of s[b, h, i, j] folded from -inf)
    expo s m         = exp (s[b, h, i, j] - m[b, h, i])
    rowsum p         = 0 + sum over j of p[b, h, i, j]
    attn p l         = p[b, h, i, j] / l[b, h, i]
    attnOut a v      = sum over j of a[b, h, i, j] * v[b, h, j, f]
    merge o          = o[b, e / 64, n, e % 64]
    proj y w c       = (sum over e of y[b, n, e] * w[d, e]) + c[d]
-/
import Idealize.ShloMosaic.PureOps.Ideal
import Idealize.ShloMosaic.Lib.ValueIdx

noncomputable section

open scoped BigOperators

namespace Cert.Attn

open Idealize.ShloMosaic Idealize.ShloMosaic.ValueIdx

/-- One value per batch, head, row and feature. -/
abbrev Heads : Type := Fin 2 → Fin 16 → Fin 2048 → Fin 64 → EReal
/-- One value per batch, head, query row and key row. -/
abbrev Sq : Type := Fin 2 → Fin 16 → Fin 2048 → Fin 2048 → EReal
/-- One value per batch, head and row. -/
abbrev Rows : Type := Fin 2 → Fin 16 → Fin 2048 → EReal
/-- One value per batch, row and column of a 3072-wide array. -/
abbrev Wide : Type := Fin 2 → Fin 2048 → Fin 3072 → EReal
/-- One value per batch, row and column of a 1024-wide array. -/
abbrev Flat : Type := Fin 2 → Fin 2048 → Fin 1024 → EReal

/-- The joint projection: `qkv[b, n, e] = ∑ d, x[b, n, d] * w[e, d]`. -/
def qkv (x : FVec Ideal ⟨3, ![2, 2048, 1024]⟩ .f32) (w : FVec Ideal ⟨2, ![3072, 1024]⟩ .f32) : Wide :=
  fun b n e => ∑ d : Fin 1024, x (ix3 b n d) * w (ix2 e d)

/-- The first third of the columns, by heads: head `h`, feature `f` is column `h * 64 + f`. -/
def thirdQ (a : Wide) : Heads :=
  fun b h n f => a b n ⟨h.val * 64 + f.val, by have := h.isLt; have := f.isLt; omega⟩
/-- The second third of the columns, by heads: column `1024 + (h * 64 + f)`. -/
def thirdK (a : Wide) : Heads :=
  fun b h n f => a b n ⟨1024 + (h.val * 64 + f.val), by have := h.isLt; have := f.isLt; omega⟩
/-- The last third of the columns, by heads: column `2048 + (h * 64 + f)`. -/
def thirdV (a : Wide) : Heads :=
  fun b h n f => a b n ⟨2048 + (h.val * 64 + f.val), by have := h.isLt; have := f.isLt; omega⟩

/-- The feature axis's halves exchanged, the upper half negated: `-t[f + 32]` below 32, `t[f - 32]` from 32 on. -/
def rotHalf (t : Heads) : Heads :=
  fun b h n f =>
    if hf : f.val < 32 then -(t b h n ⟨32 + f.val, by omega⟩)
    else t b h n ⟨f.val - 32, by have := f.isLt; omega⟩

/-- The rotary embedding: `t * cos pos + rotHalf t * sin pos`, the angle `pos[n, f]` shared by batches and heads. -/
def rope (t : Heads) (pos : FVec Ideal ⟨2, ![2048, 64]⟩ .f32) : Heads :=
  fun b h n f => t b h n f * Ideal.cos (pos (ix2 n f)) + rotHalf t b h n f * Ideal.sin (pos (ix2 n f))

/-- The scaled scores: `(∑ f, q[b, h, i, f] * k[b, h, j, f]) * (1/8)`, the scale the f32 word `0x3E000000`. -/
def scores (q k : Heads) : Sq :=
  fun b h i j => (∑ f : Fin 64, q b h i f * k b h j f) * Ideal.ofBits .f32 0x3E000000#32

/-- A row's maximum: the maximum over the key rows folded from the f32 word `0xFF800000` (minus infinity), and the
    maximum of that word and the fold once more. -/
def rowmax (s : Sq) : Rows :=
  fun b h i => max (Ideal.ofBits .f32 0xFF800000#32)
    ((Finset.univ : Finset (Fin 2048)).fold max (Ideal.ofBits .f32 0xFF800000#32) fun j => s b h i j)

/-- The exponentials of the scores less their row's maximum. -/
def expo (s : Sq) (m : Rows) : Sq :=
  fun b h i j => Ideal.exp (s b h i j - m b h i)

/-- A row's sum, from the f32 word zero: `0 + ∑ j, p[b, h, i, j]`. -/
def rowsum (p : Sq) : Rows :=
  fun b h i => Ideal.ofBits .f32 0x00000000#32 + ∑ j : Fin 2048, p b h i j

/-- The weights: each exponential divided by its row's sum. -/
def attn (p : Sq) (l : Rows) : Sq :=
  fun b h i j => Ideal.div (p b h i j) (l b h i)

/-- The weighted values: `∑ j, a[b, h, i, j] * v[b, h, j, f]`. -/
def attnOut (a : Sq) (v : Heads) : Heads :=
  fun b h i f => ∑ j : Fin 2048, a b h i j * v b h j f

/-- The heads laid side by side again: column `e` is head `e / 64`, feature `e % 64`. -/
def merge (o : Heads) : Flat :=
  fun b n e => o b ⟨e.val / 64, by have := e.isLt; omega⟩ n ⟨e.val % 64, Nat.mod_lt _ (by decide)⟩

/-- The output projection with its bias: `(∑ e, y[b, n, e] * w[d, e]) + c[d]`. -/
def proj (y : Flat) (w : FVec Ideal ⟨2, ![1024, 1024]⟩ .f32) (c : FVec Ideal ⟨1, ![1024]⟩ .f32) : Flat :=
  fun b n d => (∑ e : Fin 1024, y b n e * w (ix2 d e)) + c (ix1 d)

/-- The rotated queries. -/
def ropeQ (x : FVec Ideal ⟨3, ![2, 2048, 1024]⟩ .f32) (pos : FVec Ideal ⟨2, ![2048, 64]⟩ .f32)
    (wqkv : FVec Ideal ⟨2, ![3072, 1024]⟩ .f32) : Heads := rope (thirdQ (qkv x wqkv)) pos
/-- The rotated keys. -/
def ropeK (x : FVec Ideal ⟨3, ![2, 2048, 1024]⟩ .f32) (pos : FVec Ideal ⟨2, ![2048, 64]⟩ .f32)
    (wqkv : FVec Ideal ⟨2, ![3072, 1024]⟩ .f32) : Heads := rope (thirdK (qkv x wqkv)) pos
/-- The values. -/
def valV (x : FVec Ideal ⟨3, ![2, 2048, 1024]⟩ .f32) (wqkv : FVec Ideal ⟨2, ![3072, 1024]⟩ .f32) : Heads :=
  thirdV (qkv x wqkv)

/-- The softmax weights of the scaled scores `s`: exponentials less the row maximum, over their row sums. -/
def softmax (s : Sq) : Sq := attn (expo s (rowmax s)) (rowsum (expo s (rowmax s)))

/-- The attention output by heads, before the heads are merged. -/
def headsOut (x : FVec Ideal ⟨3, ![2, 2048, 1024]⟩ .f32) (pos : FVec Ideal ⟨2, ![2048, 64]⟩ .f32)
    (wqkv : FVec Ideal ⟨2, ![3072, 1024]⟩ .f32) : Heads :=
  attnOut (softmax (scores (ropeQ x pos wqkv) (ropeK x pos wqkv))) (valV x wqkv)

/-- The whole computation by coordinates. -/
def finalAt (x : FVec Ideal ⟨3, ![2, 2048, 1024]⟩ .f32) (pos : FVec Ideal ⟨2, ![2048, 64]⟩ .f32)
    (wqkv : FVec Ideal ⟨2, ![3072, 1024]⟩ .f32) (wout : FVec Ideal ⟨2, ![1024, 1024]⟩ .f32)
    (bias : FVec Ideal ⟨1, ![1024]⟩ .f32) : Flat :=
  proj (merge (headsOut x pos wqkv)) wout bias

/-- The whole computation as an array: the result at index `i` is `finalAt` at `i`'s three coordinates. -/
def final (x : FVec Ideal ⟨3, ![2, 2048, 1024]⟩ .f32) (pos : FVec Ideal ⟨2, ![2048, 64]⟩ .f32)
    (wqkv : FVec Ideal ⟨2, ![3072, 1024]⟩ .f32) (wout : FVec Ideal ⟨2, ![1024, 1024]⟩ .f32)
    (bias : FVec Ideal ⟨1, ![1024]⟩ .f32) : FVec Ideal ⟨3, ![2, 2048, 1024]⟩ .f32 :=
  fun i => finalAt x pos wqkv wout bias (i 0) (i 1) (i 2)

/-- The result at an index given by its coordinates. -/
theorem final_ix3 (x : FVec Ideal ⟨3, ![2, 2048, 1024]⟩ .f32) (pos : FVec Ideal ⟨2, ![2048, 64]⟩ .f32)
    (wqkv : FVec Ideal ⟨2, ![3072, 1024]⟩ .f32) (wout : FVec Ideal ⟨2, ![1024, 1024]⟩ .f32)
    (bias : FVec Ideal ⟨1, ![1024]⟩ .f32) (b : Fin 2) (n : Fin 2048) (d : Fin 1024) :
    final x pos wqkv wout bias (ix3 b n d) = finalAt x pos wqkv wout bias b n d := rfl

end Cert.Attn

end
-- ==== Proof.RefQkv.lean ====
/-
  The reference's joint projection and its three thirds by heads, read at an index.

  The projection is a contraction over the 1024 input columns. A third of its 3072 result columns is a slice; the
  reshape to [2, 2048, 16, 64] sends column c of the third to head c / 64, feature c % 64, and the transpose brings the head
  axis in front of the row axis. Read backwards from (b, h, n, f): the element is the projection at row (b, n), column
  h * 64 + f of the third.
-/
import proofs.«130407_j90417651516253_2_alg».proof.Proof.Gen.ReferenceIdeal.Read
import proofs.«130407_j90417651516253_2_alg».proof.Proof.Spec

noncomputable section

open scoped BigOperators

namespace Cert.Attn.Ref

open Cert.ReferenceIdeal Cert.ReferenceIdeal.Gen Cert.ReferenceIdeal.Read Idealize.ShloMosaic Idealize.ShloMosaic.ValueIdx

/-- The projection at (b, n, e) is the sum over the input columns. -/
theorem v0_at (x0 : FVec Ideal S2x2048x1024 .f32) (x2 : FVec Ideal S3072x1024 .f32) (b : Fin 2) (n : Fin 2048) (e : Fin 3072) :
    val_main_v0 (F := Ideal) x0 x2 (ix3 b n e) = qkv x0 x2 b n e := by
  rw [val_main_v0_apply]
  have el : ∀ k : Fin 1024, lidx_main_v0 (ix3 b n e) k = ix3 b n k := fun k => funext fun a => Fin.ext (by
    match a with | ⟨0, _⟩ => rfl | ⟨1, _⟩ => rfl | ⟨2, _⟩ => rfl)
  have er : ∀ k : Fin 1024, ridx_main_v0 (ix3 b n e) k = ix2 e k := fun k => funext fun a => Fin.ext (by
    match a with | ⟨0, _⟩ => rfl | ⟨1, _⟩ => rfl)
  simp only [el, er]
  rfl

/-- Row-major position of (b, n, h, f) in [2, 2048, 16, 64], split as a position in [2, 2048, 1024]. -/
theorem split_pos (b h n f : Nat) (hb : b < 2) (hh : h < 16) (hn : n < 2048) (hf : f < 64) :
    (((b * 2048 + n) * 16 + h) * 64 + f) / 2097152 = b
      ∧ (((b * 2048 + n) * 16 + h) * 64 + f) / 1024 % 2048 = n
      ∧ (((b * 2048 + n) * 16 + h) * 64 + f) % 1024 = h * 64 + f := by
  omega

/-- The queries' third by heads. -/
theorem v5_at (x0 : FVec Ideal S2x2048x1024 .f32) (x2 : FVec Ideal S3072x1024 .f32) (b : Fin 2) (h : Fin 16) (n : Fin 2048) (f : Fin 64) :
    val_main_v5 (F := Ideal) x0 x2 (ix4 b h n f) = thirdQ (qkv x0 x2) b h n f := by
  rw [val_main_v5_apply, val_main_v4_apply, val_main_v1_apply]
  obtain ⟨e0, e1, e2⟩ := split_pos b.val h.val n.val f.val b.isLt h.isLt n.isLt f.isLt
  have e : idx_main_v1 (idx_main_v4 (idx_main_v5 (ix4 b h n f)))
      = ix3 b n (⟨h.val * 64 + f.val, by have := h.isLt; have := f.isLt; omega⟩ : Fin 3072) := funext fun a => Fin.ext (by
    match a with
    | ⟨0, _⟩ => exact e0
    | ⟨1, _⟩ => exact e1
    | ⟨2, _⟩ => exact e2)
  rw [e, v0_at]
  rfl

/-- The keys' third by heads. -/
theorem v7_at (x0 : FVec Ideal S2x2048x1024 .f32) (x2 : FVec Ideal S3072x1024 .f32) (b : Fin 2) (h : Fin 16) (n : Fin 2048) (f : Fin 64) :
    val_main_v7 (F := Ideal) x0 x2 (ix4 b h n f) = thirdK (qkv x0 x2) b h n f := by
  rw [val_main_v7_apply, val_main_v6_apply, val_main_v2_apply]
  obtain ⟨e0, e1, e2⟩ := split_pos b.val h.val n.val f.val b.isLt h.isLt n.isLt f.isLt
  have e : idx_main_v2 (idx_main_v6 (idx_main_v7 (ix4 b h n f)))
      = ix3 b n (⟨1024 + (h.val * 64 + f.val), by have := h.isLt; have := f.isLt; omega⟩ : Fin 3072) := funext fun a => Fin.ext (by
    match a with
    | ⟨0, _⟩ => exact e0
    | ⟨1, _⟩ => exact e1
    | ⟨2, _⟩ => exact congrArg (1024 + ·) e2)
  rw [e, v0_at]
  rfl

/-- The values' third by heads. -/
theorem v9_at (x0 : FVec Ideal S2x2048x1024 .f32) (x2 : FVec Ideal S3072x1024 .f32) (b : Fin 2) (h : Fin 16) (n : Fin 2048) (f : Fin 64) :
    val_main_v9 (F := Ideal) x0 x2 (ix4 b h n f) = thirdV (qkv x0 x2) b h n f := by
  rw [val_main_v9_apply, val_main_v8_apply, val_main_v3_apply]
  obtain ⟨e0, e1, e2⟩ := split_pos b.val h.val n.val f.val b.isLt h.isLt n.isLt f.isLt
  have e : idx_main_v3 (idx_main_v8 (idx_main_v9 (ix4 b h n f)))
      = ix3 b n (⟨2048 + (h.val * 64 + f.val), by have := h.isLt; have := f.isLt; omega⟩ : Fin 3072) := funext fun a => Fin.ext (by
    match a with
    | ⟨0, _⟩ => exact e0
    | ⟨1, _⟩ => exact e1
    | ⟨2, _⟩ => exact congrArg (2048 + ·) e2)
  rw [e, v0_at]
  rfl

end Cert.Attn.Ref

end
-- ==== Proof.RefRope.lean ====
/-
  The reference's rotary embedding of the queries and of the keys, read at an index.

  The angle tables cos pos and sin pos are broadcast over batches and heads. The rotated half is the concatenation,
  along the feature axis, of the negated upper half (features 32 to 63) and the lower half (features 0 to 31): at a
  feature below 32 it is minus the element 32 further on, from 32 on it is the element 32 before.
-/
import proofs.«130407_j90417651516253_2_alg».proof.Proof.RefQkv

noncomputable section

open scoped BigOperators

namespace Cert.Attn.Ref

open Cert.ReferenceIdeal Cert.ReferenceIdeal.Gen Cert.ReferenceIdeal.Read Idealize.ShloMosaic Idealize.ShloMosaic.ValueIdx

/-- The cosine table broadcast over batches and heads (queries' copy). -/
theorem v12_at (x1 : FVec Ideal S2048x64 .f32) (b : Fin 2) (h : Fin 16) (n : Fin 2048) (f : Fin 64) :
    val_main_v12 (F := Ideal) x1 (ix4 b h n f) = Ideal.cos (x1 (ix2 n f)) := by
  rw [val_main_v12_apply, val_main_v11_apply, val_main_v10_apply, Ideal.hostUnary_cos_def]
  exact congrArg (fun i => Ideal.cos (x1 i)) (funext fun a => Fin.ext (by match a with | ⟨0, _⟩ => rfl | ⟨1, _⟩ => rfl))

/-- The sine table broadcast over batches and heads (queries' copy). -/
theorem v20_at (x1 : FVec Ideal S2048x64 .f32) (b : Fin 2) (h : Fin 16) (n : Fin 2048) (f : Fin 64) :
    val_main_v20 (F := Ideal) x1 (ix4 b h n f) = Ideal.sin (x1 (ix2 n f)) := by
  rw [val_main_v20_apply, val_main_v19_apply, val_main_v18_apply, Ideal.hostUnary_sin_def]
  exact congrArg (fun i => Ideal.sin (x1 i)) (funext fun a => Fin.ext (by match a with | ⟨0, _⟩ => rfl | ⟨1, _⟩ => rfl))

/-- The cosine table broadcast over batches and heads (keys' copy). -/
theorem v25_at (x1 : FVec Ideal S2048x64 .f32) (b : Fin 2) (h : Fin 16) (n : Fin 2048) (f : Fin 64) :
    val_main_v25 (F := Ideal) x1 (ix4 b h n f) = Ideal.cos (x1 (ix2 n f)) := by
  rw [val_main_v25_apply, val_main_v24_apply, val_main_v23_apply, Ideal.hostUnary_cos_def]
  exact congrArg (fun i => Ideal.cos (x1 i)) (funext fun a => Fin.ext (by match a with | ⟨0, _⟩ => rfl | ⟨1, _⟩ => rfl))

/-- The sine table broadcast over batches and heads (keys' copy). -/
theorem v33_at (x1 : FVec Ideal S2048x64 .f32) (b : Fin 2) (h : Fin 16) (n : Fin 2048) (f : Fin 64) :
    val_main_v33 (F := Ideal) x1 (ix4 b h n f) = Ideal.sin (x1 (ix2 n f)) := by
  rw [val_main_v33_apply, val_main_v32_apply, val_main_v31_apply, Ideal.hostUnary_sin_def]
  exact congrArg (fun i => Ideal.sin (x1 i)) (funext fun a => Fin.ext (by match a with | ⟨0, _⟩ => rfl | ⟨1, _⟩ => rfl))

/-- The rotated half of any array of heads: the negated upper half of the feature axis joined in front of the lower
    half, read at (b, h, n, f). -/
theorem rot_read (t : FVec Ideal S2x16x2048x64 .f32) (b : Fin 2) (h : Fin 16) (n : Fin 2048) (f : Fin 64) :
    concatenate S2x16x2048x64 3
        [⟨S2x16x2048x32, Host.negf (F := Ideal) (extractStridedSlice S2x16x2048x32 ![0, 0, 0, 32] t slices_S2x16x2048x64_S2x16x2048x32_0_0_0_32)⟩,
         ⟨S2x16x2048x32, extractStridedSlice S2x16x2048x32 ![0, 0, 0, 0] t slices_S2x16x2048x64_S2x16x2048x32_0_0_0_0⟩]
        concatenates_S2x16x2048x32_S2x16x2048x32_S2x16x2048x64_d3 (ix4 b h n f)
      = if hf : f.val < 32 then -(t (ix4 b h n (⟨32 + f.val, by omega⟩ : Fin 64)))
        else t (ix4 b h n (⟨f.val - 32, by have := f.isLt; omega⟩ : Fin 64)) := by
  by_cases hf : f.val < 32
  · rw [dif_pos hf]
    refine (concatenate_pair_apply_left (t := S2x16x2048x64) (s₁ := S2x16x2048x32) (s₂ := S2x16x2048x32) (3 : Fin 4) _ _ concatenates_S2x16x2048x32_S2x16x2048x32_S2x16x2048x64_d3
      (ix4 b h n f) rfl (ix4 b h n (⟨f.val, hf⟩ : Fin 32)) (fun c => by
        match c with | ⟨0, _⟩ => rfl | ⟨1, _⟩ => rfl | ⟨2, _⟩ => rfl | ⟨3, _⟩ => rfl)).trans ?_
    show FloatOps.hostNegf (extractStridedSlice S2x16x2048x32 ![0, 0, 0, 32] t slices_S2x16x2048x64_S2x16x2048x32_0_0_0_32
      (ix4 b h n (⟨f.val, hf⟩ : Fin 32))) = _
    rw [Ideal.hostNegf_def, Ideal.negf_def]
    refine congrArg (fun z : EReal => -z) ?_
    exact extractStridedSlice_apply ![0, 0, 0, 32] t slices_S2x16x2048x64_S2x16x2048x32_0_0_0_32 _
      (ix4 b h n (⟨32 + f.val, by omega⟩ : Fin 64)) (fun a => by
        match a with
        | ⟨0, _⟩ => show b.val = 0 + b.val; omega
        | ⟨1, _⟩ => show h.val = 0 + h.val; omega
        | ⟨2, _⟩ => show n.val = 0 + n.val; omega
        | ⟨3, _⟩ => rfl)
  · rw [dif_neg hf]
    refine (concatenate_pair_apply_right (t := S2x16x2048x64) (s₁ := S2x16x2048x32) (s₂ := S2x16x2048x32) (3 : Fin 4) _ _ concatenates_S2x16x2048x32_S2x16x2048x32_S2x16x2048x64_d3
      (ix4 b h n f) rfl rfl (ix4 b h n (⟨f.val - 32, by have := f.isLt; omega⟩ : Fin 32)) (fun c hc => by
        match c with
        | ⟨0, _⟩ => rfl | ⟨1, _⟩ => rfl | ⟨2, _⟩ => rfl
        | ⟨3, _⟩ => exact absurd rfl hc)
      (by show (f.val - 32) + 32 = f.val; omega)).trans ?_
    exact extractStridedSlice_apply ![0, 0, 0, 0] t slices_S2x16x2048x64_S2x16x2048x32_0_0_0_0 _
      (ix4 b h n (⟨f.val - 32, by have := f.isLt; omega⟩ : Fin 64)) (fun a => by
        match a with
        | ⟨0, _⟩ => show b.val = 0 + b.val; omega
        | ⟨1, _⟩ => show h.val = 0 + h.val; omega
        | ⟨2, _⟩ => show n.val = 0 + n.val; omega
        | ⟨3, _⟩ => show f.val - 32 = 0 + (f.val - 32); omega)

/-- The queries' rotated half. -/
theorem v17_at (x0 : FVec Ideal S2x2048x1024 .f32) (x2 : FVec Ideal S3072x1024 .f32) (b : Fin 2) (h : Fin 16) (n : Fin 2048) (f : Fin 64) :
    val_main_v17 (F := Ideal) x0 x2 (ix4 b h n f) = rotHalf (thirdQ (qkv x0 x2)) b h n f := by
  unfold val_main_v17 val_main_v16 val_main_v15 val_main_v14
  refine (rot_read (val_main_v5 (F := Ideal) x0 x2) b h n f).trans ?_
  unfold rotHalf
  by_cases hf : f.val < 32
  · rw [dif_pos hf, dif_pos hf, v5_at]
  · rw [dif_neg hf, dif_neg hf, v5_at]

/-- The keys' rotated half. -/
theorem v30_at (x0 : FVec Ideal S2x2048x1024 .f32) (x2 : FVec Ideal S3072x1024 .f32) (b : Fin 2) (h : Fin 16) (n : Fin 2048) (f : Fin 64) :
    val_main_v30 (F := Ideal) x0 x2 (ix4 b h n f) = rotHalf (thirdK (qkv x0 x2)) b h n f := by
  unfold val_main_v30 val_main_v29 val_main_v28 val_main_v27
  refine (rot_read (val_main_v7 (F := Ideal) x0 x2) b h n f).trans ?_
  unfold rotHalf
  by_cases hf : f.val < 32
  · rw [dif_pos hf, dif_pos hf, v7_at]
  · rw [dif_neg hf, dif_neg hf, v7_at]

/-- The rotated queries. -/
theorem v22_at (x0 : FVec Ideal S2x2048x1024 .f32) (x1 : FVec Ideal S2048x64 .f32) (x2 : FVec Ideal S3072x1024 .f32)
    (b : Fin 2) (h : Fin 16) (n : Fin 2048) (f : Fin 64) :
    val_main_v22 (F := Ideal) x0 x1 x2 (ix4 b h n f) = ropeQ x0 x1 x2 b h n f := by
  rw [val_main_v22_apply, val_main_v13_apply, val_main_v21_apply, v5_at, v12_at, v17_at, v20_at]
  rfl

/-- The rotated keys. -/
theorem v35_at (x0 : FVec Ideal S2x2048x1024 .f32) (x1 : FVec Ideal S2048x64 .f32) (x2 : FVec Ideal S3072x1024 .f32)
    (b : Fin 2) (h : Fin 16) (n : Fin 2048) (f : Fin 64) :
    val_main_v35 (F := Ideal) x0 x1 x2 (ix4 b h n f) = ropeK x0 x1 x2 b h n f := by
  rw [val_main_v35_apply, val_main_v26_apply, val_main_v34_apply, v7_at, v25_at, v30_at, v33_at]
  rfl

end Cert.Attn.Ref

end
-- ==== Proof.RefScores.lean ====
/-
  The reference's scaled scores and their row maxima, read at an index.

  The scores contract the rotated queries with the rotated keys over the 64 features and multiply by the scale
  (the f32 word 0x3E000000 broadcast to every entry). The row maximum is a reduction over the key axis with a
  maximum body from the f32 word 0xFF800000: at (b, h, i) it is the fold of the maximum over the key rows; the
  reference then takes the maximum of that word and the fold once more.
-/
import proofs.«130407_j90417651516253_2_alg».proof.Proof.RefRope

noncomputable section

open scoped BigOperators

namespace Cert.Attn.Ref

open Cert.ReferenceIdeal Cert.ReferenceIdeal.Gen Cert.ReferenceIdeal.Read Idealize.ShloMosaic Idealize.ShloMosaic.ValueIdx

/-- The scaled scores. -/
theorem v38_at (x0 : FVec Ideal S2x2048x1024 .f32) (x1 : FVec Ideal S2048x64 .f32) (x2 : FVec Ideal S3072x1024 .f32)
    (b : Fin 2) (h : Fin 16) (i j : Fin 2048) :
    val_main_v38 (F := Ideal) x0 x1 x2 (ix4 b h i j) = scores (ropeQ x0 x1 x2) (ropeK x0 x1 x2) b h i j := by
  rw [val_main_v38_apply, val_main_v36_apply, val_main_v37_apply, val_main_cst_apply, Ideal.mulf_def, Ideal.ofBits_def]
  have el : ∀ k : Fin 64, lidx_main_v36 (ix4 b h i j) k = ix4 b h i k := fun k => funext fun a => Fin.ext (by
    match a with | ⟨0, _⟩ => rfl | ⟨1, _⟩ => rfl | ⟨2, _⟩ => rfl | ⟨3, _⟩ => rfl)
  have er : ∀ k : Fin 64, ridx_main_v36 (ix4 b h i j) k = ix4 b h j k := fun k => funext fun a => Fin.ext (by
    match a with | ⟨0, _⟩ => rfl | ⟨1, _⟩ => rfl | ⟨2, _⟩ => rfl | ⟨3, _⟩ => rfl)
  simp only [el, er, v22_at, v35_at]
  rfl

/-- The reduction over the key axis with a maximum body: the fold of the maximum over the key rows. -/
theorem v39_at (x0 : FVec Ideal S2x2048x1024 .f32) (x1 : FVec Ideal S2048x64 .f32) (x2 : FVec Ideal S3072x1024 .f32)
    (b : Fin 2) (h : Fin 16) (i : Fin 2048) :
    val_main_v39 (F := Ideal) x0 x1 x2 (ix3 b h i)
      = (Finset.univ : Finset (Fin 2048)).fold max (Ideal.ofBits .f32 0xFF800000#32)
          fun j => scores (ropeQ x0 x1 x2) (ropeK x0 x1 x2) b h i j := by
  unfold val_main_v39
  have hR : S2x16x2048x2048.Reduces [3] S2x16x2048 := by decide
  rw [Host.reduce_eq_fold_single FloatOps.maximumf _ _ reducesTo_S2x16x2048x2048_S2x16x2048_d3 hR h_S_]
  have hf : (val_main_v38 (F := Ideal) x0 x1 x2 ∘ hR.lift (ix3 b h i))
      = fun j : Fin 2048 => scores (ropeQ x0 x1 x2) (ropeK x0 x1 x2) b h i j := funext fun k => by
    show val_main_v38 (F := Ideal) x0 x1 x2 (hR.lift (ix3 b h i) k) = _
    rw [show hR.lift (ix3 b h i) k = ix4 b h i (⟨k.val, k.isLt⟩ : Fin 2048) from funext fun c => Fin.ext (by
      match c with | ⟨0, _⟩ => rfl | ⟨1, _⟩ => rfl | ⟨2, _⟩ => rfl | ⟨3, _⟩ => rfl), v38_at]
    rfl
  exact congrArg (fun g => Finset.fold max (Ideal.ofBits .f32 0xFF800000#32) g (Finset.univ : Finset (Fin 2048))) hf

/-- The row maximum as the reference takes it. -/
theorem v41_at (x0 : FVec Ideal S2x2048x1024 .f32) (x1 : FVec Ideal S2048x64 .f32) (x2 : FVec Ideal S3072x1024 .f32)
    (b : Fin 2) (h : Fin 16) (i : Fin 2048) :
    val_main_v41 (F := Ideal) x0 x1 x2 (ix3 b h i) = rowmax (scores (ropeQ x0 x1 x2) (ropeK x0 x1 x2)) b h i := by
  rw [val_main_v41_apply, val_main_v40_apply, val_main_cst_1_apply, Ideal.maximumf_def, Ideal.ofBits_def, v39_at]
  rfl

end Cert.Attn.Ref

end
-- ==== Proof.RefSoftmax.lean ====
/-
  The reference's softmax weights, read at an index.

  The row maximum is broadcast along the key axis and subtracted, the difference is exponentiated; the row sum is a
  float sum over the key axis from the f32 word zero; it is broadcast along the key axis and divides the exponentials.
-/
import proofs.«130407_j90417651516253_2_alg».proof.Proof.RefScores

noncomputable section

open scoped BigOperators

namespace Cert.Attn.Ref

open Cert.ReferenceIdeal Cert.ReferenceIdeal.Gen Cert.ReferenceIdeal.Read Idealize.ShloMosaic Idealize.ShloMosaic.ValueIdx

/-- The row maximum broadcast along the key axis. -/
theorem v43_at (x0 : FVec Ideal S2x2048x1024 .f32) (x1 : FVec Ideal S2048x64 .f32) (x2 : FVec Ideal S3072x1024 .f32)
    (b : Fin 2) (h : Fin 16) (i j : Fin 2048) :
    val_main_v43 (F := Ideal) x0 x1 x2 (ix4 b h i j) = rowmax (scores (ropeQ x0 x1 x2) (ropeK x0 x1 x2)) b h i := by
  rw [val_main_v43_apply, val_main_v42_apply]
  have e : idx_main_v42 (idx_main_v43 (ix4 b h i j)) = ix3 b h i := funext fun a => Fin.ext (by
    match a with | ⟨0, _⟩ => rfl | ⟨1, _⟩ => rfl | ⟨2, _⟩ => rfl)
  rw [e, v41_at]

/-- The exponentials of the scores less their row maximum. -/
theorem v45_at (x0 : FVec Ideal S2x2048x1024 .f32) (x1 : FVec Ideal S2048x64 .f32) (x2 : FVec Ideal S3072x1024 .f32)
    (b : Fin 2) (h : Fin 16) (i j : Fin 2048) :
    val_main_v45 (F := Ideal) x0 x1 x2 (ix4 b h i j) = expo (scores (ropeQ x0 x1 x2) (ropeK x0 x1 x2)) (rowmax (scores (ropeQ x0 x1 x2) (ropeK x0 x1 x2))) b h i j := by
  rw [val_main_v45_apply, val_main_v44_apply, v38_at, v43_at, Ideal.hostUnary_exp_def, Ideal.subf_def]
  rfl

/-- The row sums of the exponentials. -/
theorem v46_at (x0 : FVec Ideal S2x2048x1024 .f32) (x1 : FVec Ideal S2048x64 .f32) (x2 : FVec Ideal S3072x1024 .f32)
    (b : Fin 2) (h : Fin 16) (i : Fin 2048) :
    val_main_v46 (F := Ideal) x0 x1 x2 (ix3 b h i) = rowsum (expo (scores (ropeQ x0 x1 x2) (ropeK x0 x1 x2)) (rowmax (scores (ropeQ x0 x1 x2) (ropeK x0 x1 x2)))) b h i := by
  rw [val_main_v46_apply, val_main_cst_2_apply, Ideal.ofBits_def]
  unfold rowsum
  refine congrArg (_ + ·) (Finset.sum_congr rfl fun k _ => ?_)
  have e : idx_main_v46 (ix3 b h i) k = ix4 b h i k := funext fun a => Fin.ext (by
    match a with | ⟨0, _⟩ => rfl | ⟨1, _⟩ => rfl | ⟨2, _⟩ => rfl | ⟨3, _⟩ => rfl)
  rw [e, v45_at]

/-- The softmax weights. -/
theorem v49_at (x0 : FVec Ideal S2x2048x1024 .f32) (x1 : FVec Ideal S2048x64 .f32) (x2 : FVec Ideal S3072x1024 .f32)
    (b : Fin 2) (h : Fin 16) (i j : Fin 2048) :
    val_main_v49 (F := Ideal) x0 x1 x2 (ix4 b h i j) = softmax (scores (ropeQ x0 x1 x2) (ropeK x0 x1 x2)) b h i j := by
  rw [val_main_v49_apply, val_main_v48_apply, val_main_v47_apply]
  have e : idx_main_v47 (idx_main_v48 (ix4 b h i j)) = ix3 b h i := funext fun a => Fin.ext (by
    match a with | ⟨0, _⟩ => rfl | ⟨1, _⟩ => rfl | ⟨2, _⟩ => rfl)
  rw [e, v45_at, v46_at, Ideal.hostDivf_def]
  rfl

end Cert.Attn.Ref

end
-- ==== Proof.RefOut.lean ====
/-
  The reference's weighted values, the merge of the heads and the output projection, read at an index.

  The weighted values contract the softmax weights with the values over the key rows. The transpose puts the row axis
  back in front of the head axis and the reshape joins head and feature into one column e = h * 64 + f, so column e of
  the merged array is head e / 64, feature e % 64. The projection contracts the merged columns with the output weights;
  the bias is broadcast over batches and rows and added.
-/
import proofs.«130407_j90417651516253_2_alg».proof.Proof.RefSoftmax

noncomputable section

open scoped BigOperators

namespace Cert.Attn.Ref

open Cert.ReferenceIdeal Cert.ReferenceIdeal.Gen Cert.ReferenceIdeal.Read Idealize.ShloMosaic Idealize.ShloMosaic.ValueIdx

/-- The weighted values by heads. -/
theorem v50_at (x0 : FVec Ideal S2x2048x1024 .f32) (x1 : FVec Ideal S2048x64 .f32) (x2 : FVec Ideal S3072x1024 .f32)
    (b : Fin 2) (h : Fin 16) (i : Fin 2048) (f : Fin 64) :
    val_main_v50 (F := Ideal) x0 x1 x2 (ix4 b h i f) = headsOut x0 x1 x2 b h i f := by
  rw [val_main_v50_apply]
  have el : ∀ k : Fin 2048, lidx_main_v50 (ix4 b h i f) k = ix4 b h i k := fun k => funext fun a => Fin.ext (by
    match a with | ⟨0, _⟩ => rfl | ⟨1, _⟩ => rfl | ⟨2, _⟩ => rfl | ⟨3, _⟩ => rfl)
  have er : ∀ k : Fin 2048, ridx_main_v50 (ix4 b h i f) k = ix4 b h k f := fun k => funext fun a => Fin.ext (by
    match a with | ⟨0, _⟩ => rfl | ⟨1, _⟩ => rfl | ⟨2, _⟩ => rfl | ⟨3, _⟩ => rfl)
  simp only [el, er, v49_at, v9_at]
  rfl

/-- Row-major position of (b, n, e) in [2, 2048, 1024], split as a position in [2, 2048, 16, 64]. -/
theorem merge_pos (b n e : Nat) (hb : b < 2) (hn : n < 2048) (he : e < 1024) :
    ((b * 2048 + n) * 1024 + e) / 2097152 = b
      ∧ ((b * 2048 + n) * 1024 + e) / 1024 % 2048 = n
      ∧ ((b * 2048 + n) * 1024 + e) / 64 % 16 = e / 64
      ∧ ((b * 2048 + n) * 1024 + e) % 64 = e % 64 := by
  omega

/-- The heads merged into 1024 columns. -/
theorem v52_at (x0 : FVec Ideal S2x2048x1024 .f32) (x1 : FVec Ideal S2048x64 .f32) (x2 : FVec Ideal S3072x1024 .f32)
    (b : Fin 2) (n : Fin 2048) (e : Fin 1024) :
    val_main_v52 (F := Ideal) x0 x1 x2 (ix3 b n e) = merge (headsOut x0 x1 x2) b n e := by
  rw [val_main_v52_apply, val_main_v51_apply]
  obtain ⟨e0, e1, e2, e3⟩ := merge_pos b.val n.val e.val b.isLt n.isLt e.isLt
  have hi : idx_main_v51 (idx_main_v52 (ix3 b n e))
      = ix4 b (⟨e.val / 64, by have := e.isLt; omega⟩ : Fin 16) n (⟨e.val % 64, Nat.mod_lt _ (by decide)⟩ : Fin 64) :=
    funext fun a => Fin.ext (by
      match a with
      | ⟨0, _⟩ => exact e0
      | ⟨1, _⟩ => exact e2
      | ⟨2, _⟩ => exact e1
      | ⟨3, _⟩ => exact e3)
  rw [hi, v50_at]
  rfl

/-- The result: the output projection plus the bias. -/
theorem v56_at (x0 : FVec Ideal S2x2048x1024 .f32) (x1 : FVec Ideal S2048x64 .f32) (x2 : FVec Ideal S3072x1024 .f32)
    (x3 : FVec Ideal S1024x1024 .f32) (x4 : FVec Ideal S1024 .f32) (b : Fin 2) (n : Fin 2048) (d : Fin 1024) :
    val_main_v56 (F := Ideal) x0 x1 x2 x3 x4 (ix3 b n d) = finalAt x0 x1 x2 x3 x4 b n d := by
  rw [val_main_v56_apply, val_main_v53_apply, val_main_v55_apply, val_main_v54_apply, Ideal.addf_def]
  have el : ∀ k : Fin 1024, lidx_main_v53 (ix3 b n d) k = ix3 b n k := fun k => funext fun a => Fin.ext (by
    match a with | ⟨0, _⟩ => rfl | ⟨1, _⟩ => rfl | ⟨2, _⟩ => rfl)
  have er : ∀ k : Fin 1024, ridx_main_v53 (ix3 b n d) k = ix2 d k := fun k => funext fun a => Fin.ext (by
    match a with | ⟨0, _⟩ => rfl | ⟨1, _⟩ => rfl)
  have eb : idx_main_v54 (idx_main_v55 (ix3 b n d)) = ix1 d := funext fun a => Fin.ext (by
    match a with | ⟨0, _⟩ => rfl)
  simp only [el, er, eb, v52_at]
  rfl

end Cert.Attn.Ref

end
-- ==== Proof.RefIsSpec.lean ====
/-
  The reference's run ends with the attention specification.

  Every stage of the reference, read at an index given by its coordinates, is the corresponding stage of
  `Cert.Attn` (the modules this one imports); at the last stage that says the whole result array is
  `Cert.Attn.final` of the five argument arrays. The reference's run names its result by the composed term of the
  arguments; that term is the last stage, so every weakly fair execution of the reference terminates with its result
  buffer holding `Cert.Attn.final` of the launch contents of the arguments, and the arguments unchanged.
-/
import proofs.«130407_j90417651516253_2_alg».proof.Proof.RefOut

noncomputable section

namespace Cert.Attn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's last stage is the specification, as whole arrays. -/
theorem val_eq (x : FVec Ideal S2x2048x1024 .f32) (pos : FVec Ideal S2048x64 .f32) (wqkv : FVec Ideal S3072x1024 .f32)
    (wout : FVec Ideal S1024x1024 .f32) (bias : FVec Ideal S1024 .f32) :
    val_main_v56 (F := Ideal) x pos wqkv wout bias = Cert.Attn.final x pos wqkv wout bias := by
  funext i
  obtain ⟨b, n, d, rfl⟩ : ∃ (b : Fin 2) (n : Fin 2048) (d : Fin 1024), i = ix3 b n d := ⟨i 0, i 1, i 2, eq_ix3 i⟩
  rw [v56_at]
  rfl

/-- The term the reference's run states for its result is the specification of the arguments' launch contents. -/
theorem ref_eq (m : (ℓ : Loc nD τ sig) → Buf (Elt Ideal) ℓ) (c : Dev nD) :
    Cert.ReferenceIdeal.Value.res_main_v56 (F := Ideal) m c
      = Cert.Attn.final (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v56_eq (F := Ideal) m c).trans (val_eq _ _ _ _ _)

/-- Every weakly fair execution of the reference terminates with its result the specification of the arguments'
    launch contents, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
          = Cert.Attn.final (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_eq m c), (h c).2⟩)
    (Cert.ReferenceIdeal.Value.run (F := Ideal) m ρ)

end Cert.Attn.Ref

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.ValHost.lean ====
/-
  The kernel program's host operations, read at an index. Before the projection call the activations are flattened to
  4096 rows (row 2048 * b + n is row (b, n)) and both operands change format, which at the extended reals is the
  identity; before the attention call the cosine and the sine of the angle table are taken entrywise; before the output
  projection the output weights change format and the bias becomes a one-row matrix. No call and no earlier host
  operation writes an argument array, so each of these reads the launch memory's.
-/
import proofs.«130407_j90417651516253_2_alg».proof.Proof.RunIdealA
import proofs.«130407_j90417651516253_2_alg».proof.Proof.LibFlatten
import proofs.«130407_j90417651516253_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.Attn.Val

open Cert.KernelIdeal Cert.Attn
open Cert.KernelIdeal.Gen (hostOps0 hostOps1 hostOps2 hostOps3 hostOps0_W hostOps1_W hostOps2_W hostOps3_W
  hostOps0_writes hostOps1_writes hostOps2_writes hostOps3_writes shapeCasts_S2x2048x1024_S4096x1024 bitsLt_bf16_f32
  shapeCasts_S1024_S1x1024 shapeCasts_S4096x1024_S2x2048x1024)
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The five argument arrays of the launch memory. -/
abbrev ax : FVec Ideal ⟨3, ![2, 2048, 1024]⟩ .f32 := m ((c : Thread nD τ).loc main_arg0)
abbrev apos : FVec Ideal ⟨2, ![2048, 64]⟩ .f32 := m ((c : Thread nD τ).loc main_arg1)
abbrev awqkv : FVec Ideal ⟨2, ![3072, 1024]⟩ .f32 := m ((c : Thread nD τ).loc main_arg2)
abbrev awout : FVec Ideal ⟨2, ![1024, 1024]⟩ .f32 := m ((c : Thread nD τ).loc main_arg3)
abbrev abias : FVec Ideal ⟨1, ![1024]⟩ .f32 := m ((c : Thread nD τ).loc main_arg4)

/-- The flattened activations: row `2048 * b + n` is row `(b, n)` of the argument. -/
theorem v1_at (b : Fin 2) (n : Fin 2048) (d : Fin 1024) (R : Fin 4096) (hR : R.val = 2048 * b.val + n.val) :
    (Hand.V1 (F := Ideal) m c main_v1 : S4096x1024.Idx → EReal) (ix2 R d) = ax m c (ix3 b n d) := by
  have e : (Hand.V1 (F := Ideal) m c main_v1 : S4096x1024.Idx → EReal)
      = (truncf (F := Ideal) .bf16 (shapeCast S4096x1024 (ax m c) shapeCasts_S2x2048x1024_S4096x1024) bitsLt_bf16_f32
          : FVec Ideal S4096x1024 .bf16) := by
    dsimp only [Hand.V1, Hand.W1, Hand.W0, hostOps0]; after_results <;> rfl
  rw [e, truncf_apply]
  exact Cert.LibFlatten.merge_apply _ _ b n d R hR

/-- The joint weights as they are. -/
theorem v2_at (e : Fin 3072) (d : Fin 1024) :
    (Hand.V1 (F := Ideal) m c main_v2 : S3072x1024.Idx → EReal) (ix2 e d) = awqkv m c (ix2 e d) := by
  have h : (Hand.V1 (F := Ideal) m c main_v2 : S3072x1024.Idx → EReal)
      = (truncf (F := Ideal) .bf16 (awqkv m c) bitsLt_bf16_f32 : FVec Ideal S3072x1024 .bf16) := by
    dsimp only [Hand.V1, Hand.W1, Hand.W0, hostOps0]; after_results <;> rfl
  rw [h, truncf_apply]

/-- The angle table at the attention call's entry is the launch memory's. -/
theorem w2_arg1 : Hand.W2 m c (Proc.devRef .tc main_arg1) = m ((c : Thread nD τ).loc main_arg1) :=
  calc Hand.W2 m c (Proc.devRef .tc main_arg1)
    _ = Hand.W1 m c (Proc.devRef .tc main_arg1) := Hand.W2_of_ne m c main_arg1 (by decide)
    _ = Hand.W0 m c (Proc.devRef .tc main_arg1) := StableHlo.after_of_writes_sub hostOps0 _ hostOps0_writes (by decide)
    _ = m ((c : Thread nD τ).loc main_arg1) := rfl

/-- The cosines of the angle table. -/
theorem v4_at (n : Fin 2048) (f : Fin 64) :
    (Hand.V3 (F := Ideal) m c main_v4 : S2048x64.Idx → EReal) (ix2 n f) = Ideal.cos (apos m c (ix2 n f)) := by
  have h : (Hand.V3 (F := Ideal) m c main_v4 : S2048x64.Idx → EReal)
      = (Host.cos (F := Ideal) (Hand.W2 m c (Proc.devRef .tc main_arg1)) : FVec Ideal S2048x64 .f32) := by
    dsimp only [Hand.V3, Hand.W3, hostOps1]; after_results <;> rfl
  rw [h, w2_arg1]
  rfl

/-- The sines of the angle table. -/
theorem v5_at (n : Fin 2048) (f : Fin 64) :
    (Hand.V3 (F := Ideal) m c main_v5 : S2048x64.Idx → EReal) (ix2 n f) = Ideal.sin (apos m c (ix2 n f)) := by
  have h : (Hand.V3 (F := Ideal) m c main_v5 : S2048x64.Idx → EReal)
      = (Host.sin (F := Ideal) (Hand.W2 m c (Proc.devRef .tc main_arg1)) : FVec Ideal S2048x64 .f32) := by
    dsimp only [Hand.V3, Hand.W3, hostOps1]; after_results <;> rfl
  rw [h, w2_arg1]
  rfl

/-- An argument array that nothing writes before the output projection's entry is the launch memory's there. -/
theorem w4_of_kept (r : Ref sig .tc) (h0 : r ∉ hostOps0_W) (h1 : r ∉ hostOps1_W)
    (ha0 : ∀ w, Pipeline.arrRef spec0 w ≠ r) (ha1 : r ≠ main_v6) :
    Hand.W4 m c (Proc.devRef .tc r) = m ((c : Thread nD τ).loc r) :=
  calc Hand.W4 m c (Proc.devRef .tc r)
    _ = Hand.W3 m c (Proc.devRef .tc r) := Hand.W4_of_ne m c r ha1
    _ = Hand.W2 m c (Proc.devRef .tc r) := StableHlo.after_of_writes_sub hostOps1 _ hostOps1_writes h1
    _ = Hand.W1 m c (Proc.devRef .tc r) := Hand.W2_of_ne m c r ha0
    _ = Hand.W0 m c (Proc.devRef .tc r) := StableHlo.after_of_writes_sub hostOps0 _ hostOps0_writes h0
    _ = m ((c : Thread nD τ).loc r) := rfl

/-- The output weights as they are. -/
theorem v7_at (d e : Fin 1024) :
    (Hand.V5 (F := Ideal) m c main_v7 : S1024x1024.Idx → EReal) (ix2 d e) = awout m c (ix2 d e) := by
  have h : (Hand.V5 (F := Ideal) m c main_v7 : S1024x1024.Idx → EReal)
      = (truncf (F := Ideal) .bf16 (Hand.W4 m c (Proc.devRef .tc main_arg3)) bitsLt_bf16_f32 : FVec Ideal S1024x1024 .bf16) := by
    dsimp only [Hand.V5, Hand.W5, hostOps2]; after_results <;> rfl
  rw [h, truncf_apply, w4_of_kept m c main_arg3 (by decide) (by decide) (by decide) (by decide)]

/-- The bias as a one-row matrix. -/
theorem v8_at (d : Fin 1024) :
    (Hand.V5 (F := Ideal) m c main_v8 : S1x1024.Idx → EReal) (ix2 (0 : Fin 1) d) = abias m c (ix1 d) := by
  have h : (Hand.V5 (F := Ideal) m c main_v8 : S1x1024.Idx → EReal)
      = shapeCast S1x1024 (Hand.W4 m c (Proc.devRef .tc main_arg4) : S1024.Idx → EReal) shapeCasts_S1024_S1x1024 := by
    dsimp only [Hand.V5, Hand.W5, hostOps2]; after_results <;> rfl
  rw [h, w4_of_kept m c main_arg4 (by decide) (by decide) (by decide) (by decide)]
  exact (shapeCast_addUnit_apply ![1024] (abias m c) shapeCasts_S1024_S1x1024 (ix2 (0 : Fin 1) d)).trans
    (congrArg (abias m c) (funext fun a => by match a with | ⟨0, _⟩ => rfl))

end Cert.Attn.Val

end
-- ==== Proof.LibMatmulRows.lean ====
/-
  A general fact about a matrix product at the ideal values.

  A kernel's matrix product whose dimension numbers contract the LAST axis of both operands (an [m, k] array against
  an [n, k] array: rows against rows, no batch axis), accumulated into the zero splat, read at entry (a, b), is the
  inner product of row `a` of the left factor with row `b` of the right one: `∑ c, A a c · B b c`.
-/
import Idealize.ShloMosaic.Lib.ValueIdx
import Idealize.ShloMosaic.PureOps.Ideal.Laws

noncomputable section

open scoped BigOperators

namespace Cert.LibMatmulRows

open Idealize.ShloMosaic Idealize.ShloMosaic.ValueIdx

/-- A product contracting the last axis of both operands, accumulated into the zero splat, read at an entry: the inner
    product of a row of the left factor with a row of the right one. -/
theorem matmul_rows_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul (DotDims.transposedRhs m k n) prec A B _ (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c := by
    funext ax; apply Fin.ext
    match ax with
    | ⟨0, _⟩ => simp [DotDims.lhsIdx, DotDims.transposedRhs] <;> rfl
    | ⟨1, _⟩ => exact ((DotDims.transposedRhs m k n).lhsIdx_val_of_single (cl := (1 : Fin 2)) rfl _ _).trans hc
  have er : (DotDims.transposedRhs m k n).rhsIdx (ix2 a b) ((contrEquiv1 (DotDims.transposedRhs m k n) k rfl rfl).symm c) = ix2 b c := by
    funext ax; apply Fin.ext
    match ax with
    | ⟨0, _⟩ => simp [DotDims.rhsIdx, DotDims.transposedRhs] <;> rfl
    | ⟨1, _⟩ => exact ((DotDims.transposedRhs m k n).rhsIdx_val_of_single (cr := (1 : Fin 2)) rfl _ _).trans hc
  rw [el, er]

end Cert.LibMatmulRows

end
-- ==== Proof.KerPay0.lean ====
import proofs.«130407_j90417651516253_2_alg».proof.Proof.BodyIdeal0
import proofs.«130407_j90417651516253_2_alg».proof.Proof.Spec
import proofs.«130407_j90417651516253_2_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

/-! # The first projection's block at the ideal values

What the first body leaves in its output block, read at an entry: the inner product of a row of the
activations' block with a row of the weights' block. Rounding to bf16 is the identity on the extended
reals, a reshape to the same shape is the identity, and the product into the zero splat is the plain
sum over the contracted coordinate. -/

set_option pp.maxSteps 5000
set_option pp.deepTerms false

noncomputable section

open scoped BigOperators

namespace Cert.Attn.Ker

open Cert.KernelIdeal Cert.KernelIdeal.Gen Cert.KernelIdeal.Hand
open Idealize.ShloMosaic Idealize.ShloMosaic.ValueIdx

/-- The zero offsets of a whole-buffer rectangle, as a constant function. -/
private theorem zero_off2 : (![0, 0] : Fin 2 → Nat) = fun _ => 0 := funext fun a => by fin_cases a <;> rfl

/-- The body's one stored value at an entry: a row of the first operand against a row of the second. -/
theorem k0_pay1_apply (v0 : FVec Ideal S512x1024 .bf16) (v2 : FVec Ideal S1024x1024 .bf16) (r : Fin 512) (e : Fin 1024) :
    k0_pay1 (F := Ideal) v0 v2 (ix2 r e) = ∑ d : Fin 1024, v0 (ix2 r d) * v2 (ix2 e d) := by
  unfold k0_pay1
  simp only [shapeCast_self]
  rw [truncf_apply]
  have hD : dot_S512x1024_S1024x1024_S512x1024_1_1_0_0_n_n = DotDims.transposedRhs 512 1024 1024 := rfl
  rw [hD]
  exact LibMatmulRows.matmul_rows_zero_apply (φ₁ := .bf16) (φ₂ := .bf16) none v0 v2 r e

/-- The output block after the first body, at row `r` and column `e`. -/
theorem out0_apply (x0 : Vec Ideal S512x1024 .bf16) (x1 : Vec Ideal S1024x1024 .bf16) (r : Fin 512) (e : Fin 1024) :
    out0_2 (F := Ideal) x0 x1 (ix2 r e) = ∑ d : Fin 1024, x0 (ix2 r d) * x1 (ix2 e d) := by
  unfold out0_2
  rw [View.canon_unit_zero zero_off2]
  simp only [View.ld_unit_zero (S := S512x1024) zero_off2, View.ld_unit_zero (S := S1024x1024) zero_off2]
  exact k0_pay1_apply x0 x1 r e

end Cert.Attn.Ker

end
-- ==== Proof.ValCall0.lean ====
import proofs.«130407_j90417651516253_2_alg».proof.Proof.FrameIdeal0
import proofs.«130407_j90417651516253_2_alg».proof.Proof.BodyIdeal0
import proofs.«130407_j90417651516253_2_alg».proof.Proof.KerPay0
import Idealize.ShloMosaic.Lib.Pipeline.Value
import Idealize.ShloMosaic.Lib.ValueIdx

/-! # The joint projection: from its blocks to the whole array

The first call walks an 8 × 3 grid. At the point with coordinates `(i, j)` it reads rows `512·i … 512·i + 511` of the
activations and rows `1024·j … 1024·j + 1023` of the stacked weights, and writes the 512 × 1024 block `(i, j)` of the
result. What it writes at row `r` and column `e` of the block is the inner product of row `r` of the activations'
block with row `e` of the weights' block. Row `r` of block `i` is row `512·i + r` of the activations, row `e` of block
`j` is row `1024·j + e` of the weights, and entry `(r, e)` of block `(i, j)` is entry `(512·i + r, 1024·j + e)` of the
result. So every point writes its block of ONE function of the two arrays — row `R` of the first against row `E` of the
second — and the 24 blocks cover the 4096 × 3072 entries (entry `(R, E)` lies in block `(R / 512, E / 1024)`). Hence the
array ends holding that function. -/

noncomputable section

open scoped BigOperators

namespace Cert.Attn.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The joint projection as one function of the two arrays: at row `R` and column `E`, row `R` of the first against
    row `E` of the second. -/
def jointProj (a1 : S4096x1024.Idx → EReal) (a2 : S3072x1024.Idx → EReal) : S4096x3072.Idx → EReal :=
  fun i => ∑ d : Fin 1024, a1 (ix2 (i 0 : Fin 4096) d) * a2 (ix2 (i 1 : Fin 3072) d)

theorem jointProj_apply (a1 : S4096x1024.Idx → EReal) (a2 : S3072x1024.Idx → EReal) (R : Fin 4096) (E : Fin 3072) :
    jointProj a1 a2 (ix2 R E) = ∑ d : Fin 1024, a1 (ix2 R d) * a2 (ix2 E d) := rfl

/-- The printed index maps over the 24 points: the activations' row block is the output's row block, the weights' row
    block is the output's column block, neither input moves on its second axis, and the output's block indices stay
    below 8 and 3. -/
theorem index0 : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 2 :=
  (by decide +kernel : ∀ t : Fin grid0.N, _)

/-- Every block `(q0, q1)` of the result is some point's. -/
theorem index0_onto : ∀ (q0 : Fin 8) (q1 : Fin 3), ∃ t : Fin cfg0.N,
    win0_2.index t (0 : Fin 2) = q0.val ∧ win0_2.index t (1 : Fin 2) = q1.val :=
  (by decide +kernel : ∀ (q0 : Fin 8) (q1 : Fin 3), ∃ t : Fin grid0.N,
    win0_2.index t (0 : Fin 2) = q0.val ∧ win0_2.index t (1 : Fin 2) = q1.val)

/-- Row `r` of the activations' block at a point is row `512·i + r` of the activations, `i` the output's row block there. -/
theorem rows0_x (c : Dev nD) (t : Fin cfg0.N) (x : S512x1024.Idx) (k : S4096x1024.Idx)
    (hk0 : (k 0).val = 512 * win0_2.index t 0 + (x 0).val) (hk1 : (k 1).val = (x 1).val) :
    (iblk0 V c 0 t : Vec Ideal S512x1024 .bf16) x = (V c main_v1 : S4096x1024.Idx → EReal) k := by
  obtain ⟨h0, h1, -⟩ := index0 t
  unfold iblk0
  rw [View.read_apply]
  show (V c main_v1 : S4096x1024.Idx → EReal) _ = _
  congr 1
  funext a
  apply Fin.ext
  match a with
  | ⟨0, _⟩ => show win0_0.index t 0 * 512 + 1 * (x 0).val = (k 0).val; rw [h0, hk0]; omega
  | ⟨1, _⟩ => show win0_0.index t 1 * 1024 + 1 * (x 1).val = (k 1).val; rw [h1, hk1]; omega

/-- Row `e` of the weights' block at a point is row `1024·j + e` of the weights, `j` the output's column block there. -/
theorem rows0_w (c : Dev nD) (t : Fin cfg0.N) (x : S1024x1024.Idx) (k : S3072x1024.Idx)
    (hk0 : (k 0).val = 1024 * win0_2.index t 1 + (x 0).val) (hk1 : (k 1).val = (x 1).val) :
    (iblk0 V c 1 t : Vec Ideal S1024x1024 .bf16) x = (V c main_v2 : S3072x1024.Idx → EReal) k := by
  obtain ⟨-, -, h0, h1, -⟩ := index0 t
  unfold iblk0
  rw [View.read_apply]
  show (V c main_v2 : S3072x1024.Idx → EReal) _ = _
  congr 1
  funext a
  apply Fin.ext
  match a with
  | ⟨0, _⟩ => show win0_1.index t 0 * 1024 + 1 * (x 0).val = (k 0).val; rw [h0, hk0]; omega
  | ⟨1, _⟩ => show win0_1.index t 1 * 1024 + 1 * (x 1).val = (k 1).val; rw [h1, hk1]; omega

/-- What the body leaves at row `r`, column `e` of its output block, when row `r` of its first input is row `R` of an
    array `a1` and row `e` of its second input is row `E` of an array `a2`: the joint projection of those arrays at
    `(R, E)`. -/
theorem block0_at (x0 : Vec Ideal S512x1024 .bf16) (x1 : Vec Ideal S1024x1024 .bf16)
    (a1 : S4096x1024.Idx → EReal) (a2 : S3072x1024.Idx → EReal)
    (r : Fin 512) (e : Fin 1024) (R : Fin 4096) (E : Fin 3072)
    (h0 : ∀ d : Fin 1024, x0 (ix2 r d) = a1 (ix2 R d)) (h1 : ∀ d : Fin 1024, x1 (ix2 e d) = a2 (ix2 E d)) :
    out0_2 (F := Ideal) x0 x1 (ix2 r e) = jointProj a1 a2 (ix2 R E) := by
  rw [jointProj_apply, Cert.Attn.Ker.out0_apply]
  exact Finset.sum_congr rfl fun d _ => by rw [h0, h1]

/-- What point `t` writes back is block `t` of the joint projection of the arrays the call is entered with. -/
theorem flushed0_eq (c : Dev nD) (t : Fin cfg0.N) :
    (dat0 (F := Ideal) V out0_2 c).flushed 2 t
      = ((cfg0.win 2).blk t).view.read (Elt Ideal) (jointProj (V c main_v1) (V c main_v2)) := by
  show (cfg0.win 2).cut (grid0.coords t) ((dat0 (F := Ideal) V out0_2 c).after 2 t) = _
  rw [after0_2]
  obtain ⟨-, -, -, -, b0, b1⟩ := index0 t
  funext j
  obtain ⟨r, e, rfl⟩ : ∃ (r : Fin 512) (e : Fin 1024), j = (ix2 r e : S512x1024.Idx) := ⟨j 0, j 1, eq_ix2 (n0 := 512) (n1 := 1024) j⟩
  rw [View.read_apply]
  have hemb : ((cfg0.win 2).blk t).view.emb (ix2 r e : S512x1024.Idx)
      = (ix2 (⟨512 * win0_2.index t 0 + r.val, by omega⟩ : Fin 4096) (⟨1024 * win0_2.index t 1 + e.val, by omega⟩ : Fin 3072) : S4096x3072.Idx) := by
    funext a
    apply Fin.ext
    match a with
    | ⟨0, _⟩ => show win0_2.index t 0 * 512 + 1 * r.val = 512 * win0_2.index t 0 + r.val; omega
    | ⟨1, _⟩ => show win0_2.index t 1 * 1024 + 1 * e.val = 1024 * win0_2.index t 1 + e.val; omega
  rw [hemb]
  exact block0_at (iblk0 V c 0 t) (iblk0 V c 1 t) _ _ r e _ _
    (fun d => rows0_x V c t _ _ rfl rfl) (fun d => rows0_w V c t _ _ rfl rfl)

/-- An index of the result array is in point `t`'s block iff each coordinate is in the block's range on its axis. -/
theorem mem_block0 (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]
  exact Iff.rfl

/-- Every index of the result array is in some point's block: entry `(R, E)` is in block `(R / 512, E / 1024)`. -/
theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, h0, h1⟩ := index0_onto ⟨(i 0).val / 512, by omega⟩ ⟨(i 1).val / 1024, by omega⟩
  refine ⟨t, flush0_2 t, ?_⟩
  rw [mem_block0]
  intro a
  match a with
  | ⟨0, _⟩ =>
    show win0_2.index t 0 * 512 ≤ (i 0).val ∧ (i 0).val < win0_2.index t 0 * 512 + 512
    rw [h0]; show (i 0).val / 512 * 512 ≤ (i 0).val ∧ (i 0).val < (i 0).val / 512 * 512 + 512; omega
  | ⟨1, _⟩ =>
    show win0_2.index t 1 * 1024 ≤ (i 1).val ∧ (i 1).val < win0_2.index t 1 * 1024 + 1024
    rw [h1]; show (i 1).val / 1024 * 1024 ≤ (i 1).val ∧ (i 1).val < (i 1).val / 1024 * 1024 + 1024; omega

/-- The result array after the call is the joint projection of the arrays the call is entered with. -/
theorem final0 (c : Dev nD) :
    (dat0 (F := Ideal) V out0_2 c).arrAt 2 cfg0.N = jointProj (V c main_v1) (V c main_v2) :=
  (dat0 (F := Ideal) V out0_2 c).arrAt_eq_of_cover 2 (jointProj (V c main_v1) (V c main_v2))
    (fun t _ => flushed0_eq V c t) cover0

/-- The result array after the call, entry by entry, in terms of the two arrays the call is entered with (named as
    functions to the extended reals): row `R` of the activations against row `E` of the weights. -/
theorem arr0 (c : Dev nD) (a1 : S4096x1024.Idx → EReal) (a2 : S3072x1024.Idx → EReal)
    (h1 : (V c main_v1 : S4096x1024.Idx → EReal) = a1) (h2 : (V c main_v2 : S3072x1024.Idx → EReal) = a2)
    (R : Fin 4096) (E : Fin 3072) :
    ((dat0 (F := Ideal) V out0_2 c).arrAt 2 cfg0.N : S4096x3072.Idx → EReal) (ix2 R E)
      = ∑ d : Fin 1024, a1 (ix2 R d) * a2 (ix2 E d) := by
  subst h1 h2
  rw [final0]
  rfl

end Cert.Attn.Val

end
-- ==== Proof.ValCall1Idx.lean ====
import proofs.«130407_j90417651516253_2_alg».proof.Proof.FrameIdeal1
import proofs.«130407_j90417651516253_2_alg».proof.Proof.BodyIdeal1
import Idealize.ShloMosaic.Lib.Pipeline.Value
import Idealize.ShloMosaic.Lib.ValueIdx

/-! # The attention call: where each window's block sits in its array

The call's grid has 2 × 8 × 8 points: a batch row, a pair of heads, a tile of 256 queries. The output
block of a point is rows `256 · (8 · batch + tile)` and columns `128 · pair` of the result array; the
query block sits at the same block index of the projections' array, the key and value blocks at the
batch row's 2048 rows and at the columns 1024 and 2048 further on, the tile's rows of the two rotary
tables at row block `tile`, and the whole tables at block zero. These relations between the printed
index maps are decided once over the grid; from them each input block, read at an entry, is its array
read at the entry's place. -/

set_option pp.maxSteps 5000
set_option pp.deepTerms false

noncomputable section

namespace Cert.Attn.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The printed index maps, decided over the grid: against the output's block index `(p, q)`, the query
    block is at `(p, q)`, the key block at `(p / 8, 8 + q)`, the value block at `(p / 8, 16 + q)`, the
    tile's rows of the two tables at `(p % 8, 0)`, the whole tables at `(0, 0)`; and `p < 16`, `q < 8`. -/
theorem idx_facts1 : ∀ t : Fin cfg1.N,
    win1_0.index t (0 : Fin 2) = win1_7.index t (0 : Fin 2)
    ∧ win1_0.index t (1 : Fin 2) = win1_7.index t (1 : Fin 2)
    ∧ win1_1.index t (0 : Fin 2) = win1_7.index t (0 : Fin 2) / 8
    ∧ win1_1.index t (1 : Fin 2) = 8 + win1_7.index t (1 : Fin 2)
    ∧ win1_2.index t (0 : Fin 2) = win1_7.index t (0 : Fin 2) / 8
    ∧ win1_2.index t (1 : Fin 2) = 16 + win1_7.index t (1 : Fin 2)
    ∧ win1_3.index t (0 : Fin 2) = win1_7.index t (0 : Fin 2) % 8
    ∧ win1_3.index t (1 : Fin 2) = 0
    ∧ win1_4.index t (0 : Fin 2) = win1_7.index t (0 : Fin 2) % 8
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) ≤ 15
    ∧ win1_7.index t (1 : Fin 2) ≤ 7 :=
  (by decide +kernel : ∀ t : Fin grid1.N, _)

/-- Every block of the result array is some point's. -/
theorem idx_onto1 : ∀ (p : Fin 16) (q : Fin 8), ∃ t : Fin cfg1.N, win1_7.index t = ![p.val, q.val] :=
  (by decide +kernel : ∀ (p : Fin 16) (q : Fin 8), ∃ t : Fin grid1.N, win1_7.index t = ![p.val, q.val])

end Cert.Attn.Val

end
-- ==== Proof.ValCall1Blk.lean ====
import proofs.«130407_j90417651516253_2_alg».proof.Proof.ValCall1Idx

/-! # The attention call: each input block read at an entry

A window's block at a grid point is its array read through the block's rectangle: the entry at
block coordinates `(y₀, y₁)` is the array's entry at `(block index₀ × rows + y₀, block index₁ × columns + y₁)`.
With the decided relations between the index maps, each of the seven input blocks of a point is read
here at an entry as its array at a place named from the OUTPUT's block index at that point. -/

set_option pp.maxSteps 5000
set_option pp.deepTerms false

noncomputable section

namespace Cert.Attn.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The query block at output block index `(p, q)`: rows `256 p + y₀`, columns `128 q + y₁` of the projections' array. -/
theorem iblk1_0_apply (c : Dev nD) (t : Fin cfg1.N) (x : S256x128.Idx) (k : S4096x3072.Idx)
    (hk0 : (k 0).val = win1_7.index t (0 : Fin 2) * 256 + (x 0).val)
    (hk1 : (k 1).val = win1_7.index t (1 : Fin 2) * 128 + (x 1).val) :
    (iblk1 V c 0 t : Vec Ideal S256x128 .bf16) x = (V c main_v3 : S4096x3072.Idx → EReal) k := by
  obtain ⟨e00, e01, e10, e11, e20, e21, e30, e31, e40, e41, e50, e51, e60, e61, b0, b1⟩ := idx_facts1 t
  unfold iblk1
  rw [View.read_apply]
  show V c main_v3 _ = V c main_v3 _
  refine congrArg (V c main_v3) ?_
  funext a
  apply Fin.ext
  match a with
  | ⟨0, _⟩ => show win1_0.index t (0 : Fin 2) * 256 + 1 * (x 0).val = (k 0).val; rw [hk0, e00]; omega
  | ⟨1, _⟩ => show win1_0.index t (1 : Fin 2) * 128 + 1 * (x 1).val = (k 1).val; rw [hk1, e01]; omega

/-- The key block: the batch row's 2048 rows `2048 (p / 8) + y₀`, columns `1024 + 128 q + y₁`. -/
theorem iblk1_1_apply (c : Dev nD) (t : Fin cfg1.N) (x : S2048x128.Idx) (k : S4096x3072.Idx)
    (hk0 : (k 0).val = win1_7.index t (0 : Fin 2) / 8 * 2048 + (x 0).val)
    (hk1 : (k 1).val = 1024 + (win1_7.index t (1 : Fin 2) * 128 + (x 1).val)) :
    (iblk1 V c 1 t : Vec Ideal S2048x128 .bf16) x = (V c main_v3 : S4096x3072.Idx → EReal) k := by
  obtain ⟨e00, e01, e10, e11, e20, e21, e30, e31, e40, e41, e50, e51, e60, e61, b0, b1⟩ := idx_facts1 t
  unfold iblk1
  rw [View.read_apply]
  show V c main_v3 _ = V c main_v3 _
  refine congrArg (V c main_v3) ?_
  funext a
  apply Fin.ext
  match a with
  | ⟨0, _⟩ => show win1_1.index t (0 : Fin 2) * 2048 + 1 * (x 0).val = (k 0).val; rw [hk0, e10]; omega
  | ⟨1, _⟩ => show win1_1.index t (1 : Fin 2) * 128 + 1 * (x 1).val = (k 1).val; rw [hk1, e11]; omega

/-- The value block: the batch row's 2048 rows `2048 (p / 8) + y₀`, columns `2048 + 128 q + y₁`. -/
theorem iblk1_2_apply (c : Dev nD) (t : Fin cfg1.N) (x : S2048x128.Idx) (k : S4096x3072.Idx)
    (hk0 : (k 0).val = win1_7.index t (0 : Fin 2) / 8 * 2048 + (x 0).val)
    (hk1 : (k 1).val = 2048 + (win1_7.index t (1 : Fin 2) * 128 + (x 1).val)) :
    (iblk1 V c 2 t : Vec Ideal S2048x128 .bf16) x = (V c main_v3 : S4096x3072.Idx → EReal) k := by
  obtain ⟨e00, e01, e10, e11, e20, e21, e30, e31, e40, e41, e50, e51, e60, e61, b0, b1⟩ := idx_facts1 t
  unfold iblk1
  rw [View.read_apply]
  show V c main_v3 _ = V c main_v3 _
  refine congrArg (V c main_v3) ?_
  funext a
  apply Fin.ext
  match a with
  | ⟨0, _⟩ => show win1_2.index t (0 : Fin 2) * 2048 + 1 * (x 0).val = (k 0).val; rw [hk0, e20]; omega
  | ⟨1, _⟩ => show win1_2.index t (1 : Fin 2) * 128 + 1 * (x 1).val = (k 1).val; rw [hk1, e21]; omega

/-- The tile's rows of the cosine table: rows `256 (p % 8) + y₀`. -/
theorem iblk1_3_apply (c : Dev nD) (t : Fin cfg1.N) (x : S256x64.Idx) (k : S2048x64.Idx)
    (hk0 : (k 0).val = win1_7.index t (0 : Fin 2) % 8 * 256 + (x 0).val)
    (hk1 : (k 1).val = (x 1).val) :
    (iblk1 V c 3 t : Vec Ideal S256x64 .f32) x = (V c main_v4 : S2048x64.Idx → EReal) k := by
  obtain ⟨e00, e01, e10, e11, e20, e21, e30, e31, e40, e41, e50, e51, e60, e61, b0, b1⟩ := idx_facts1 t
  unfold iblk1
  rw [View.read_apply]
  show V c main_v4 _ = V c main_v4 _
  refine congrArg (V c main_v4) ?_
  funext a
  apply Fin.ext
  match a with
  | ⟨0, _⟩ => show win1_3.index t (0 : Fin 2) * 256 + 1 * (x 0).val = (k 0).val; rw [hk0, e30]; omega
  | ⟨1, _⟩ => show win1_3.index t (1 : Fin 2) * 64 + 1 * (x 1).val = (k 1).val; rw [hk1, e31]; omega

/-- The tile's rows of the sine table: rows `256 (p % 8) + y₀`. -/
theorem iblk1_4_apply (c : Dev nD) (t : Fin cfg1.N) (x : S256x64.Idx) (k : S2048x64.Idx)
    (hk0 : (k 0).val = win1_7.index t (0 : Fin 2) % 8 * 256 + (x 0).val)
    (hk1 : (k 1).val = (x 1).val) :
    (iblk1 V c 4 t : Vec Ideal S256x64 .f32) x = (V c main_v5 : S2048x64.Idx → EReal) k := by
  obtain ⟨e00, e01, e10, e11, e20, e21, e30, e31, e40, e41, e50, e51, e60, e61, b0, b1⟩ := idx_facts1 t
  unfold iblk1
  rw [View.read_apply]
  show V c main_v5 _ = V c main_v5 _
  refine congrArg (V c main_v5) ?_
  funext a
  apply Fin.ext
  match a with
  | ⟨0, _⟩ => show win1_4.index t (0 : Fin 2) * 256 + 1 * (x 0).val = (k 0).val; rw [hk0, e40]; omega
  | ⟨1, _⟩ => show win1_4.index t (1 : Fin 2) * 64 + 1 * (x 1).val = (k 1).val; rw [hk1, e41]; omega

/-- The whole cosine table, read where it is. -/
theorem iblk1_5_apply (c : Dev nD) (t : Fin cfg1.N) (x : S2048x64.Idx) (k : S2048x64.Idx)
    (hk0 : (k 0).val = (x 0).val)
    (hk1 : (k 1).val = (x 1).val) :
    (iblk1 V c 5 t : Vec Ideal S2048x64 .f32) x = (V c main_v4 : S2048x64.Idx → EReal) k := by
  obtain ⟨e00, e01, e10, e11, e20, e21, e30, e31, e40, e41, e50, e51, e60, e61, b0, b1⟩ := idx_facts1 t
  unfold iblk1
  rw [View.read_apply]
  show V c main_v4 _ = V c main_v4 _
  refine congrArg (V c main_v4) ?_
  funext a
  apply Fin.ext
  match a with
  | ⟨0, _⟩ => show win1_5.index t (0 : Fin 2) * 2048 + 1 * (x 0).val = (k 0).val; rw [hk0, e50]; omega
  | ⟨1, _⟩ => show win1_5.index t (1 : Fin 2) * 64 + 1 * (x 1).val = (k 1).val; rw [hk1, e51]; omega

/-- The whole sine table, read where it is. -/
theorem iblk1_6_apply (c : Dev nD) (t : Fin cfg1.N) (x : S2048x64.Idx) (k : S2048x64.Idx)
    (hk0 : (k 0).val = (x 0).val)
    (hk1 : (k 1).val = (x 1).val) :
    (iblk1 V c 6 t : Vec Ideal S2048x64 .f32) x = (V c main_v5 : S2048x64.Idx → EReal) k := by
  obtain ⟨e00, e01, e10, e11, e20, e21, e30, e31, e40, e41, e50, e51, e60, e61, b0, b1⟩ := idx_facts1 t
  unfold iblk1
  rw [View.read_apply]
  show V c main_v5 _ = V c main_v5 _
  refine congrArg (V c main_v5) ?_
  funext a
  apply Fin.ext
  match a with
  | ⟨0, _⟩ => show win1_6.index t (0 : Fin 2) * 2048 + 1 * (x 0).val = (k 0).val; rw [hk0, e60]; omega
  | ⟨1, _⟩ => show win1_6.index t (1 : Fin 2) * 64 + 1 * (x 1).val = (k 1).val; rw [hk1, e61]; omega

end Cert.Attn.Val

end
-- ==== Proof.ValCall1Gen.lean ====
import proofs.«130407_j90417651516253_2_alg».proof.Proof.ValCall1Blk

/-! # The attention call: the result array, entry by entry

For a rotary embedding `ropeRow` of one row and an attention row `rowOut` (both taken here as
arbitrary functions), suppose the body's output block, read at row `r` and column `64 hh + f`, is
`rowOut` of the rotated query row `r` of head `hh`, of all the rotated key rows of that head, and of
column `64 hh + f` of the value block (`hpay`). Then the result array after the call is one function
of the arrays the call is entered with: at batch row `b`, position `n`, head `h`, feature `f` it is
`rowOut` of the rotated query row `(b, n)` of head `h`, of the batch row's 2048 rotated key rows of
that head, and of the batch row's value column `(h, f)`. What a grid point writes back is its block
of that function (each input block read where the output's rectangle says), the 16 × 8 blocks cover
the array, and so the array ends holding the function. -/

set_option pp.maxSteps 5000
set_option pp.deepTerms false

noncomputable section

namespace Cert.Attn.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

section Generic

variable (ropeRow : (Fin 64 → EReal) → (Fin 64 → EReal) → (Fin 64 → EReal) → Fin 64 → EReal)
variable (rowOut : (Fin 64 → EReal) → (Fin 2048 → Fin 64 → EReal) → (Fin 2048 → EReal) → EReal)
variable (V : (c : Dev nD) → (b : Ref sig .tc) → Buf (Elt Ideal) ((c : Thread nD τ).loc b))

/-- One entry of the attention result from the arrays the call is entered with: batch row `b`, position `n`,
    head `h`, feature `f`. The query row is row `2048 b + n`, columns `64 h …` of the projections' array, rotated by
    row `n` of the tables; key row `j` is row `2048 b + j`, columns `1024 + 64 h …`, rotated by row `j`; the value
    column is rows `2048 b + j`, column `2048 + 64 h + f`. -/
def attn1 (c : Dev nD) (b : Fin 2) (n : Fin 2048) (h : Fin 16) (f : Fin 64) : EReal :=
  rowOut
    (ropeRow (fun g => (V c main_v3 : S4096x3072.Idx → EReal) (ix2 ⟨b.val * 2048 + n.val, by omega⟩ ⟨h.val * 64 + g.val, by omega⟩))
      (fun g => (V c main_v4 : S2048x64.Idx → EReal) (ix2 n g))
      (fun g => (V c main_v5 : S2048x64.Idx → EReal) (ix2 n g)))
    (fun j => ropeRow (fun g => (V c main_v3 : S4096x3072.Idx → EReal) (ix2 ⟨b.val * 2048 + j.val, by omega⟩ ⟨1024 + (h.val * 64 + g.val), by omega⟩))
      (fun g => (V c main_v4 : S2048x64.Idx → EReal) (ix2 j g))
      (fun g => (V c main_v5 : S2048x64.Idx → EReal) (ix2 j g)))
    (fun j => (V c main_v3 : S4096x3072.Idx → EReal) (ix2 ⟨b.val * 2048 + j.val, by omega⟩ ⟨2048 + (h.val * 64 + f.val), by omega⟩))

/-- The whole result array as one function of its index: row `R` is batch row `R / 2048` at position `R % 2048`,
    column `C` is head `C / 64` at feature `C % 64`. -/
def G1 (c : Dev nD) : S4096x1024.Idx → EReal := fun i =>
  attn1 ropeRow rowOut V c ⟨(i 0).val / 2048, by have := idx2_lt0 i; omega⟩ ⟨(i 0).val % 2048, by omega⟩
    ⟨(i 1).val / 64, by have := idx2_lt1 i; omega⟩ ⟨(i 1).val % 64, by omega⟩

variable (hpay : ∀ (x0 : Vec Ideal S256x128 .bf16) (x1 x2 : Vec Ideal S2048x128 .bf16) (x3 x4 : Vec Ideal S256x64 .f32)
    (x5 x6 : Vec Ideal S2048x64 .f32) (r : Fin 256) (hh : Fin 2) (f : Fin 64),
    out1_7 (F := Ideal) x0 x1 x2 x3 x4 x5 x6 (ix2 r ⟨hh.val * 64 + f.val, by omega⟩)
      = rowOut (ropeRow (fun g => x0 (ix2 r ⟨hh.val * 64 + g.val, by omega⟩)) (fun g => x3 (ix2 r g)) (fun g => x4 (ix2 r g)))
          (fun j => ropeRow (fun g => x1 (ix2 j ⟨hh.val * 64 + g.val, by omega⟩)) (fun g => x5 (ix2 j g)) (fun g => x6 (ix2 j g)))
          (fun j => x2 (ix2 j ⟨hh.val * 64 + f.val, by omega⟩)))

include hpay in
/-- What the body leaves at entry `(r, cc)` of the output block of point `t` is the array function at the index
    `i` that the block's rectangle puts there: row `256 p + r`, column `128 q + cc` for the block index `(p, q)`. -/
theorem flushed_entry1 (c : Dev nD) (t : Fin cfg1.N) (r : Fin 256) (cc : Fin 128) (i : S4096x1024.Idx)
    (hi0 : (i 0).val = win1_7.index t (0 : Fin 2) * 256 + r.val)
    (hi1 : (i 1).val = win1_7.index t (1 : Fin 2) * 128 + cc.val) :
    out1_7 (F := Ideal) (iblk1 V c 0 t) (iblk1 V c 1 t) (iblk1 V c 2 t) (iblk1 V c 3 t) (iblk1 V c 4 t) (iblk1 V c 5 t) (iblk1 V c 6 t) (ix2 r cc) = G1 ropeRow rowOut V c i := by
  obtain ⟨-, -, -, -, -, -, -, -, -, -, -, -, -, -, b0, b1⟩ := idx_facts1 t
  have hI0 : (i 0).val < 4096 := idx2_lt0 i
  have hI1 : (i 1).val < 1024 := idx2_lt1 i
  have e : (ix2 r cc : S256x128.Idx) = ix2 r ⟨(⟨cc.val / 64, by omega⟩ : Fin 2).val * 64 + (⟨cc.val % 64, by omega⟩ : Fin 64).val, by omega⟩ :=
    congrArg (ix2 r) (Fin.ext (by show cc.val = cc.val / 64 * 64 + cc.val % 64; omega))
  rw [e]
  refine (hpay (iblk1 V c 0 t) (iblk1 V c 1 t) (iblk1 V c 2 t) (iblk1 V c 3 t) (iblk1 V c 4 t) (iblk1 V c 5 t) (iblk1 V c 6 t) r ⟨cc.val / 64, by omega⟩ ⟨cc.val % 64, by omega⟩).trans ?_
  unfold G1 attn1
  refine congr (congr (congrArg rowOut ?_) (funext fun j => ?_)) (funext fun j => ?_)
  · refine congr (congr (congrArg ropeRow (funext fun g => ?_)) (funext fun g => ?_)) (funext fun g => ?_)
    · exact iblk1_0_apply V c t _ _
        (by show (i 0).val / 2048 * 2048 + (i 0).val % 2048 = win1_7.index t (0 : Fin 2) * 256 + r.val; omega)
        (by show (i 1).val / 64 * 64 + g.val = win1_7.index t (1 : Fin 2) * 128 + (cc.val / 64 * 64 + g.val); omega)
    · exact iblk1_3_apply V c t _ _
        (by show (i 0).val % 2048 = win1_7.index t (0 : Fin 2) % 8 * 256 + r.val; omega)
        (by show g.val = g.val; rfl)
    · exact iblk1_4_apply V c t _ _
        (by show (i 0).val % 2048 = win1_7.index t (0 : Fin 2) % 8 * 256 + r.val; omega)
        (by show g.val = g.val; rfl)
  · refine congr (congr (congrArg ropeRow (funext fun g => ?_)) (funext fun g => ?_)) (funext fun g => ?_)
    · exact iblk1_1_apply V c t _ _
        (by show (i 0).val / 2048 * 2048 + j.val = win1_7.index t (0 : Fin 2) / 8 * 2048 + j.val; omega)
        (by show 1024 + ((i 1).val / 64 * 64 + g.val) = 1024 + (win1_7.index t (1 : Fin 2) * 128 + (cc.val / 64 * 64 + g.val)); omega)
    · exact iblk1_5_apply V c t _ _ (by show j.val = j.val; rfl) (by show g.val = g.val; rfl)
    · exact iblk1_6_apply V c t _ _ (by show j.val = j.val; rfl) (by show g.val = g.val; rfl)
  · exact iblk1_2_apply V c t _ _
      (by show (i 0).val / 2048 * 2048 + j.val = win1_7.index t (0 : Fin 2) / 8 * 2048 + j.val; omega)
      (by show 2048 + ((i 1).val / 64 * 64 + (i 1).val % 64) = 2048 + (win1_7.index t (1 : Fin 2) * 128 + (cc.val / 64 * 64 + cc.val % 64)); omega)

include hpay in
/-- What point `t` writes back is its block of the array function. -/
theorem flushed1_eq (c : Dev nD) (t : Fin cfg1.N) :
    (dat1 (F := Ideal) V out1_7 c).flushed 7 t = ((cfg1.win 7).blk t).view.read (Elt Ideal) (G1 ropeRow rowOut V c) := by
  show (cfg1.win 7).cut (grid1.coords t) ((dat1 (F := Ideal) V out1_7 c).after 7 t) = _
  rw [after1_7]
  funext j
  rw [View.read_apply]
  obtain ⟨r, cc, rfl⟩ : ∃ (r : Fin 256) (cc : Fin 128), j = ix2 r cc := ⟨j 0, j 1, eq_ix2 j⟩
  refine flushed_entry1 ropeRow rowOut V hpay c t r cc _ ?_ ?_
  · show win1_7.index t (0 : Fin 2) * 256 + 1 * r.val = win1_7.index t (0 : Fin 2) * 256 + r.val; omega
  · show win1_7.index t (1 : Fin 2) * 128 + 1 * cc.val = win1_7.index t (1 : Fin 2) * 128 + cc.val; omega

/-- An index of the result array is in point `t`'s block iff each coordinate is in the block's range on its axis. -/
theorem mem_blk1 (t : Fin cfg1.N) (i : S4096x1024.Idx) :
    i ∈ ((cfg1.win 7).blk t).view.set ↔ ∀ a : Fin 2, win1_7.index t a * S256x128.size a ≤ (i a).val ∧ (i a).val < win1_7.index t a * S256x128.size a + S256x128.size a := by
  show i ∈ ((View.whole main_v6).slice (win1_7.rect t)).set ↔ _
  rw [View.set_slice_whole, Rect.mem_set_unit]
  exact Iff.rfl

/-- Every index of the result array is in the block of a point that writes back: the one whose block index is
    `(row / 256, column / 128)`. -/
theorem cover1 (i : S4096x1024.Idx) :
    ∃ t : Fin cfg1.N, (cfg1.win 7).flush t = true ∧ i ∈ ((cfg1.win 7).blk t).view.set := by
  have hi0 : (i 0).val < 4096 := idx2_lt0 i
  have hi1 : (i 1).val < 1024 := idx2_lt1 i
  obtain ⟨t, ht⟩ := idx_onto1 ⟨(i 0).val / 256, by omega⟩ ⟨(i 1).val / 128, by omega⟩
  have q0 : win1_7.index t (0 : Fin 2) = (i 0).val / 256 := congrFun ht 0
  have q1 : win1_7.index t (1 : Fin 2) = (i 1).val / 128 := congrFun ht 1
  refine ⟨t, flush1_7 t, ?_⟩
  rw [mem_blk1]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 128 ≤ (i 1).val ∧ (i 1).val < win1_7.index t (1 : Fin 2) * 128 + 128; omega

include hpay in
/-- The result array after the call is the array function. -/
theorem final1_of (c : Dev nD) : (dat1 (F := Ideal) V out1_7 c).arrAt 7 cfg1.N = G1 ropeRow rowOut V c :=
  (dat1 (F := Ideal) V out1_7 c).arrAt_eq_of_cover 7 (G1 ropeRow rowOut V c)
    (fun t _ => flushed1_eq ropeRow rowOut V hpay c t) cover1

include hpay in
/-- The result array after the call at batch row `b`, position `n`, head `h`, feature `f`. -/
theorem arr1_of (c : Dev nD) (b : Fin 2) (n : Fin 2048) (h : Fin 16) (f : Fin 64) :
    ((dat1 (F := Ideal) V out1_7 c).arrAt 7 cfg1.N : S4096x1024.Idx → EReal)
        (ix2 ⟨b.val * 2048 + n.val, by omega⟩ ⟨h.val * 64 + f.val, by omega⟩)
      = attn1 ropeRow rowOut V c b n h f := by
  rw [final1_of ropeRow rowOut V hpay c]
  show attn1 ropeRow rowOut V c ⟨(b.val * 2048 + n.val) / 2048, _⟩ ⟨(b.val * 2048 + n.val) % 2048, _⟩
    ⟨(h.val * 64 + f.val) / 64, _⟩ ⟨(h.val * 64 + f.val) % 64, _⟩ = _
  have hb : (⟨(b.val * 2048 + n.val) / 2048, by omega⟩ : Fin 2) = b := Fin.ext (by show (b.val * 2048 + n.val) / 2048 = b.val; omega)
  have hn : (⟨(b.val * 2048 + n.val) % 2048, by omega⟩ : Fin 2048) = n := Fin.ext (by show (b.val * 2048 + n.val) % 2048 = n.val; omega)
  have hh : (⟨(h.val * 64 + f.val) / 64, by omega⟩ : Fin 16) = h := Fin.ext (by show (h.val * 64 + f.val) / 64 = h.val; omega)
  have hf : (⟨(h.val * 64 + f.val) % 64, by omega⟩ : Fin 64) = f := Fin.ext (by show (h.val * 64 + f.val) % 64 = f.val; omega)
  rw [hb, hn, hh, hf]

end Generic

end Cert.Attn.Val

end
-- ==== Proof.RowSpec.lean ====
import proofs.«130407_j90417651516253_2_alg».proof.Proof.Spec
import Idealize.ShloMosaic.PureOps.Ideal.Laws

/-!
# One query row of one head

The attention of ONE query row of ONE head as functions over the feature coordinate (`Fin 64`) and the key rows
(`Fin 2048`), in the order a blockwise computation has it: the rotary embedding of a row from its own 64 features
and the row's cosines and sines; the scaled scores of the rotated query row against every rotated key row; their
maximum folded from the word minus infinity; the exponentials of the differences; their plain sum; each exponential
over that sum; and the weighted sum of one feature of the value rows.

Then the two facts that tie these to the whole-array specification: its rotary embedding read at one row is
`ropeRow` of that row, and its weighted values read at one row and feature are `rowOut` of that row. The second uses
only that a fold of `max` from a word is at least that word, and that the word zero is the extended real `0`.
-/

noncomputable section

open scoped BigOperators

namespace Cert.Attn.Ker

open Idealize.ShloMosaic Idealize.ShloMosaic.ValueIdx
open Cert.Attn

/-- The rotary embedding of one row: `t f * cs f + r f * sn f` with `r f = -t (f + 32)` below 32 and `t (f - 32)` from
    32 on. -/
def ropeRow (t cs sn : Fin 64 → EReal) : Fin 64 → EReal :=
  fun f => t f * cs f +
    (if hf : f.val < 32 then -(t ⟨32 + f.val, by omega⟩) else t ⟨f.val - 32, by have := f.isLt; omega⟩) * sn f

/-- The scaled scores of one query row against every key row: `(∑ f, q' f * k' j f) * (1/8)`, the scale the f32 word
    `0x3E000000`. -/
def rowScores (q' : Fin 64 → EReal) (k' : Fin 2048 → Fin 64 → EReal) : Fin 2048 → EReal :=
  fun j => (∑ f : Fin 64, q' f * k' j f) * Ideal.ofBits .f32 0x3E000000#32

/-- A row's maximum, folded from the f32 word `0xFF800000` (minus infinity). -/
def rowMax (s : Fin 2048 → EReal) : EReal :=
  (Finset.univ : Finset (Fin 2048)).fold max (Ideal.ofBits .f32 0xFF800000#32) s

/-- The exponentials of a row's scores less the row's maximum. -/
def rowExp (s : Fin 2048 → EReal) : Fin 2048 → EReal :=
  fun j => Ideal.exp (s j - rowMax s)

/-- A row's plain sum. -/
def rowSum (p : Fin 2048 → EReal) : EReal :=
  ∑ j : Fin 2048, p j

/-- One feature of one row's attention output: the exponentials over their sum, against the value rows' feature. -/
def rowOut (q' : Fin 64 → EReal) (k' : Fin 2048 → Fin 64 → EReal) (v : Fin 2048 → EReal) : EReal :=
  ∑ j : Fin 2048, Ideal.div (rowExp (rowScores q' k') j) (rowSum (rowExp (rowScores q' k'))) * v j

/-- The specification's rotary embedding at one row is `ropeRow` of that row with the row's cosines and sines. -/
theorem rope_eq_ropeRow (t : Heads) (pos : FVec Ideal ⟨2, ![2048, 64]⟩ .f32) (b : Fin 2) (h : Fin 16) (n : Fin 2048) :
    rope t pos b h n
      = ropeRow (t b h n) (fun f => Ideal.cos (pos (ix2 n f))) (fun f => Ideal.sin (pos (ix2 n f))) := rfl

/-- The specification's row maximum is the fold alone: the outer maximum with the starting word changes nothing,
    the fold being at least the word it starts from. -/
theorem rowmax_eq_rowMax (s : Sq) (b : Fin 2) (h : Fin 16) (i : Fin 2048) :
    rowmax s b h i = rowMax (fun j => s b h i j) :=
  max_eq_right ((Finset.le_fold_max _).2 (Or.inl le_rfl))

/-- The specification's weighted values at one row and feature are `rowOut` of the row's query, the head's keys and
    that feature of the head's values. -/
theorem attnOut_softmax_eq_rowOut (q k v : Heads) (b : Fin 2) (h : Fin 16) (i : Fin 2048) (f : Fin 64) :
    attnOut (softmax (scores q k)) v b h i f = rowOut (q b h i) (k b h) (fun j => v b h j f) := by
  have hm : rowmax (scores q k) b h i = rowMax (rowScores (q b h i) (k b h)) := rowmax_eq_rowMax _ b h i
  have hp : ∀ j, expo (scores q k) (rowmax (scores q k)) b h i j = rowExp (rowScores (q b h i) (k b h)) j := fun j => by
    show Ideal.exp (scores q k b h i j - rowmax (scores q k) b h i) = _
    rw [hm]; rfl
  have hl : rowsum (expo (scores q k) (rowmax (scores q k))) b h i = rowSum (rowExp (rowScores (q b h i) (k b h))) := by
    show Ideal.ofBits .f32 0x00000000#32 + ∑ j : Fin 2048, expo (scores q k) (rowmax (scores q k)) b h i j = _
    rw [Ideal.ofBits_zero_f32, zero_add]
    exact Finset.sum_congr rfl fun j _ => hp j
  show ∑ j : Fin 2048, Ideal.div (expo (scores q k) (rowmax (scores q k)) b h i j)
      (rowsum (expo (scores q k) (rowmax (scores q k))) b h i) * v b h j f = _
  refine Finset.sum_congr rfl fun j _ => ?_
  rw [hp j, hl]

end Cert.Attn.Ker

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«130407_j90417651516253_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KerHead.lean ====
import proofs.«130407_j90417651516253_2_alg».proof.Proof.Gen.KernelIdeal.Skeleton
import proofs.«130407_j90417651516253_2_alg».proof.Proof.RowSpec
import proofs.«130407_j90417651516253_2_alg».proof.Proof.LibRows
import proofs.«130407_j90417651516253_2_alg».proof.Proof.LibMatmulRows
import proofs.«130407_j90417651516253_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

/-!
# The blocks of one head, at the ideal values

The second body computes, for each of its two heads, the same chain of blocks. Each block is named here in the body's
own spelling and read at an entry as the matching function of one row (`RowSpec`):

* the rotary block of a 64-wide block `T` with tables `cs`, `sn`: `T * cs + [0 - T's upper half | T's lower half] * sn`;
* the scaled scores of the rotated query block against the rotated key block;
* the exponentials of the scores less each row's maximum;
* each exponential over its row's sum;
* the weights against a value block.

Rounding to bf16 is the identity on the extended reals; the word zero is `0`, so `0 - x` is `-x`.
-/

set_option pp.maxSteps 5000
set_option pp.deepTerms false

noncomputable section

open scoped BigOperators

namespace Cert.Attn.Ker

open Cert.KernelIdeal Cert.KernelIdeal.Gen
open Idealize.ShloMosaic Idealize.ShloMosaic.ValueIdx

/-! ## The rotary block -/

/-- The rotary block of an `n`-row, 64-wide block, as the body forms it. -/
def ropeBlock {n : Nat} (T cs sn : FVec Ideal ⟨2, ![n, 64]⟩ .f32)
    (h0 : (⟨2, ![n, 64]⟩ : Shape).Slices ![0, 0] ⟨2, ![n, 32]⟩)
    (h32 : (⟨2, ![n, 64]⟩ : Shape).Slices ![0, 32] ⟨2, ![n, 32]⟩)
    (hc : Shape.Concatenates [⟨2, ![n, 32]⟩, ⟨2, ![n, 32]⟩] ⟨2, ![n, 64]⟩ 1) : FVec Ideal ⟨2, ![n, 64]⟩ .f32 :=
  addf (mulf T cs)
    (mulf (concatenate ⟨2, ![n, 64]⟩ 1
      [⟨⟨2, ![n, 32]⟩, subf (broadcast ⟨2, ![n, 32]⟩ (Scalar.ofBits .f32 0x00000000#32))
          (extractStridedSlice ⟨2, ![n, 32]⟩ ![0, 32] T h32)⟩,
       ⟨⟨2, ![n, 32]⟩, extractStridedSlice ⟨2, ![n, 32]⟩ ![0, 0] T h0⟩] hc) sn)

/-- The rotary block at row `r`: the rotary embedding of that row. -/
theorem ropeBlock_apply {n : Nat} (T cs sn : FVec Ideal ⟨2, ![n, 64]⟩ .f32)
    (h0 : (⟨2, ![n, 64]⟩ : Shape).Slices ![0, 0] ⟨2, ![n, 32]⟩)
    (h32 : (⟨2, ![n, 64]⟩ : Shape).Slices ![0, 32] ⟨2, ![n, 32]⟩)
    (hc : Shape.Concatenates [⟨2, ![n, 32]⟩, ⟨2, ![n, 32]⟩] ⟨2, ![n, 64]⟩ 1) (r : Fin n) (f : Fin 64) :
    ropeBlock T cs sn h0 h32 hc (ix2 r f)
      = ropeRow (fun g => T (ix2 r g)) (fun g => cs (ix2 r g)) (fun g => sn (ix2 r g)) f := by
  unfold ropeBlock ropeRow
  rw [addf_apply, mulf_apply, mulf_apply]
  refine congrArg (fun z => T (ix2 r f) * cs (ix2 r f) + z * sn (ix2 r f)) ?_
  by_cases hf : f.val < 32
  · rw [dif_pos hf, LibRows.concat_cols_left _ _ hc r f hf, subf_apply, broadcast_apply,
      slice2_axis1_eq 32 T h32 r ⟨f.val, hf⟩]
    show Ideal.ofBits .f32 0x00000000#32 - T (ix2 r ⟨32 + f.val, _⟩) = -(T (ix2 r ⟨32 + f.val, _⟩))
    rw [Ideal.ofBits_zero_f32, sub_eq_add_neg, zero_add]
  · rw [dif_neg hf, LibRows.concat_cols_right _ _ hc r f (by omega) (by have := f.isLt; omega),
      slice2_axis1_eq 0 T h0 r _]
    exact congrArg T (congrArg (fun k => ix2 r k) (Fin.ext (Nat.zero_add _)))

/-! ## The four blocks of a head -/

/-- The scaled scores of a rotated query block against a rotated key block. -/
def scoreBlock (Qr : FVec Ideal S256x64 .f32) (Kr : FVec Ideal S2048x64 .f32) : FVec Ideal S256x2048 .f32 :=
  mulf (matmul dot_S256x64_S2048x64_S256x2048_1_1_0_0_n_n none (truncf .bf16 Qr bitsLt_bf16_f32)
      (truncf .bf16 Kr bitsLt_bf16_f32) (constant S256x2048 .f32 0x00000000#32))
    (broadcast S256x2048 (Scalar.ofBits .f32 0x3E000000#32))

/-- The exponentials of a score block less each row's maximum. -/
def expBlock (X : FVec Ideal S256x2048 .f32) : FVec Ideal S256x2048 .f32 :=
  exp (subf X (broadcastTo S256x2048 (shapeCast S256x1
    (multiReduction .maximumf [1] S256 X 0xFF800000#32 reduces_S256x2048_S256 (.inl rfl) rfl)
    shapeCasts_S256_S256x1) broadcasts_S256x1_S256x2048))

/-- Each entry over its row's sum, rounded to bf16. -/
def weightBlock (P : FVec Ideal S256x2048 .f32) : FVec Ideal S256x2048 .bf16 :=
  truncf .bf16 (divf P (broadcastTo S256x2048 (shapeCast S256x1
    (multiReduction .add [1] S256 P 0x00000000#32 reduces_S256x2048_S256 (.inl rfl) rfl)
    shapeCasts_S256_S256x1) broadcasts_S256x1_S256x2048)) bitsLt_bf16_f32

/-- One head's output block: the weights of the scores against a value block. -/
def headBlock (Qr : FVec Ideal S256x64 .f32) (Kr : FVec Ideal S2048x64 .f32) (Vh : FVec Ideal S2048x64 .bf16) :
    FVec Ideal S256x64 .f32 :=
  matmul dot_S256x2048_S2048x64_S256x64_1_0_0_1_n_n none (weightBlock (expBlock (scoreBlock Qr Kr))) Vh
    (constant S256x64 .f32 0x00000000#32)

/-- The score block at row `r`: the row's scaled scores. -/
theorem scoreBlock_apply (Qr : FVec Ideal S256x64 .f32) (Kr : FVec Ideal S2048x64 .f32) (r : Fin 256) (j : Fin 2048) :
    scoreBlock Qr Kr (ix2 r j) = rowScores (fun g => Qr (ix2 r g)) (fun j g => Kr (ix2 j g)) j := by
  unfold scoreBlock rowScores
  rw [mulf_apply, broadcast_apply]
  have hD : dot_S256x64_S2048x64_S256x2048_1_1_0_0_n_n = DotDims.transposedRhs 256 64 2048 := rfl
  rw [hD, LibMatmulRows.matmul_rows_zero_apply (φ₁ := .bf16) (φ₂ := .bf16) none _ _ r j]
  rfl

/-- The exponential block at row `r`: the exponentials of the row's entries less the row's maximum. -/
theorem expBlock_apply (X : FVec Ideal S256x2048 .f32) (r : Fin 256) (j : Fin 2048) :
    expBlock X (ix2 r j) = rowExp (fun j => X (ix2 r j)) j := by
  have hmax : multiReduction .maximumf [1] S256 X 0xFF800000#32 reduces_S256x2048_S256 (.inl rfl) rfl (ix1 r)
      = rowMax (fun j => X (ix2 r j)) := LibRows.lane_max_apply X _ _ _ _ r
  unfold expBlock rowExp
  show Ideal.exp (subf X _ (ix2 r j)) = _
  rw [subf_apply, LibRows.column_broadcast_apply, hmax]

/-- The weight block at row `r`: each entry of the row over the row's sum. -/
theorem weightBlock_apply (P : FVec Ideal S256x2048 .f32) (r : Fin 256) (j : Fin 2048) :
    weightBlock P (ix2 r j) = Ideal.div (P (ix2 r j)) (rowSum (fun j => P (ix2 r j))) := by
  have hsum : multiReduction .add [1] S256 P 0x00000000#32 reduces_S256x2048_S256 (.inl rfl) rfl (ix1 r)
      = rowSum (fun j => P (ix2 r j)) := LibRows.lane_sum_apply P _ _ _ _ r
  unfold weightBlock
  rw [truncf_apply, divf_apply, LibRows.column_broadcast_apply, hsum]

/-- One head's output block at row `r` and feature `f`: the row's attention output. -/
theorem headBlock_apply (Qr : FVec Ideal S256x64 .f32) (Kr : FVec Ideal S2048x64 .f32) (Vh : FVec Ideal S2048x64 .bf16)
    (r : Fin 256) (f : Fin 64) :
    headBlock Qr Kr Vh (ix2 r f)
      = rowOut (fun g => Qr (ix2 r g)) (fun j g => Kr (ix2 j g)) (fun j => Vh (ix2 j f)) := by
  have hS : (fun j => scoreBlock Qr Kr (ix2 r j)) = rowScores (fun g => Qr (ix2 r g)) (fun j g => Kr (ix2 j g)) :=
    funext fun j => scoreBlock_apply Qr Kr r j
  have hE : (fun j => expBlock (scoreBlock Qr Kr) (ix2 r j))
      = rowExp (rowScores (fun g => Qr (ix2 r g)) (fun j g => Kr (ix2 j g))) :=
    funext fun j => by rw [expBlock_apply, hS]
  unfold headBlock rowOut
  have hD : dot_S256x2048_S2048x64_S256x64_1_0_0_1_n_n = DotDims.plain 256 2048 64 := rfl
  rw [hD, LibMatmulPlain.matmul_plain_zero_apply none _ Vh r f]
  refine Finset.sum_congr rfl fun j _ => ?_
  have hEj : expBlock (scoreBlock Qr Kr) (ix2 r j)
      = rowExp (rowScores (fun g => Qr (ix2 r g)) (fun j g => Kr (ix2 j g))) j := congrFun hE j
  rw [weightBlock_apply, hE, hEj]

end Cert.Attn.Ker

end
-- ==== Proof.KerPay1.lean ====
import proofs.«130407_j90417651516253_2_alg».proof.Proof.BodyIdeal1
import proofs.«130407_j90417651516253_2_alg».proof.Proof.Spec
import proofs.«130407_j90417651516253_2_alg».proof.Proof.KerHead
import Idealize.ShloMosaic.Lib.Pipeline.Value
import Idealize.ShloMosaic.Lib.ValueIdx
import Idealize.ShloMosaic.Lib.ValueLayout
import Idealize.ShloMosaic.PureOps.Ideal.Laws

/-!
# The attention body's block at the ideal values

What the second body leaves in its output block, read at an entry. The 128 columns are two heads of 64 features.
Column `c` of head `hh` is feature `c - 64 * hh`; the entry at row `r` is that feature of the attention output of
query row `r`: the row's 64 features of the head rotated by the row's tables, against every key row's 64 features of
the head rotated by that row's tables, weighting that feature of the value rows.

The body's stored value is, by unfolding, the two heads' blocks side by side; each head's block is read by the
lemmas on one head's blocks; a widening of bf16 to f32 and a reshape to the same shape are the identity.
-/

set_option pp.maxSteps 5000
set_option pp.deepTerms false

noncomputable section

open scoped BigOperators

namespace Cert.Attn.Ker

open Cert.KernelIdeal Cert.KernelIdeal.Gen Cert.KernelIdeal.Hand
open Idealize.ShloMosaic Idealize.ShloMosaic.ValueIdx

/-- The zero offsets of a whole-buffer rectangle, as a constant function. -/
private theorem zero_off2 : (![0, 0] : Fin 2 → Nat) = fun _ => 0 := funext fun a => by fin_cases a <;> rfl

/-! ## The payloads that only relabel their operand -/

theorem k1_pay1_apply (v : FVec Ideal S256x128 .bf16) (i : S256x128.Idx) : k1_pay1 (F := Ideal) v i = v i := by
  unfold k1_pay1; simp only [shapeCast_self]; rfl
theorem k1_pay2_apply (v : FVec Ideal S2048x128 .bf16) (i : S2048x128.Idx) : k1_pay2 (F := Ideal) v i = v i := by
  unfold k1_pay2; simp only [shapeCast_self]; rfl
theorem k1_pay3_apply (v : FVec Ideal S2048x128 .bf16) (i : S2048x128.Idx) : k1_pay3 (F := Ideal) v i = v i := by
  unfold k1_pay3; simp only [shapeCast_self]
theorem k1_pay4_apply (v : FVec Ideal S256x64 .f32) (i : S256x64.Idx) : k1_pay4 (F := Ideal) v i = v i := by
  unfold k1_pay4; simp only [shapeCast_self]
theorem k1_pay5_apply (v : FVec Ideal S256x64 .f32) (i : S256x64.Idx) : k1_pay5 (F := Ideal) v i = v i := by
  unfold k1_pay5; simp only [shapeCast_self]
theorem k1_pay6_apply (v : FVec Ideal S2048x64 .f32) (i : S2048x64.Idx) : k1_pay6 (F := Ideal) v i = v i := by
  unfold k1_pay6; simp only [shapeCast_self]
theorem k1_pay7_apply (v : FVec Ideal S2048x64 .f32) (i : S2048x64.Idx) : k1_pay7 (F := Ideal) v i = v i := by
  unfold k1_pay7; simp only [shapeCast_self]

/-! ## Congruences of the row functions -/

theorem ropeRow_congr {t t' cs cs' sn sn' : Fin 64 → EReal} (ht : t = t') (hc : cs = cs') (hs : sn = sn') :
    ropeRow t cs sn = ropeRow t' cs' sn' := by subst ht hc hs; rfl

theorem rowOut_congr {q q' : Fin 64 → EReal} {k k' : Fin 2048 → Fin 64 → EReal} {v v' : Fin 2048 → EReal}
    (hq : q = q') (hk : k = k') (hv : v = v') : rowOut q k v = rowOut q' k' v' := by subst hq hk hv; rfl

/-! ## One head, at the column offset `o` of its 64 features -/

/-- The head whose features are the columns `col g = o + g`: its block at row `r` and feature `f`. -/
theorem head_at (o : Nat) (x0 : FVec Ideal S256x128 .bf16) (x1 x2 : FVec Ideal S2048x128 .bf16) (x3 x4 : FVec Ideal S256x64 .f32)
    (x5 x6 : FVec Ideal S2048x64 .f32)
    (hq : S256x128.Slices ![0, o] S256x64) (hk : S2048x128.Slices ![0, o] S2048x64)
    (col : Fin 64 → Fin 128) (hcol : ∀ g, (col g).val = o + g.val) (r : Fin 256) (f : Fin 64) :
    headBlock
        (ropeBlock (extractStridedSlice S256x64 ![0, o] (k1_pay1 x0) hq) (k1_pay4 x3) (k1_pay5 x4)
            slices_S256x64_o0_0_S256x32 slices_S256x64_o0_32_S256x32 concatenates_S256x32_S256x32_S256x64_d1)
        (ropeBlock (extractStridedSlice S2048x64 ![0, o] (k1_pay2 x1) hk) (k1_pay6 x5) (k1_pay7 x6)
            slices_S2048x64_o0_0_S2048x32 slices_S2048x64_o0_32_S2048x32 concatenates_S2048x32_S2048x32_S2048x64_d1)
        (extractStridedSlice S2048x64 ![0, o] (k1_pay3 x2) hk) (ix2 r f)
      = rowOut (ropeRow (fun g => x0 (ix2 r (col g))) (fun g => x3 (ix2 r g)) (fun g => x4 (ix2 r g)))
        (fun j => ropeRow (fun g => x1 (ix2 j (col g))) (fun g => x5 (ix2 j g)) (fun g => x6 (ix2 j g)))
        (fun j => x2 (ix2 j (col f))) := by
  rw [headBlock_apply]
  refine rowOut_congr ?_ ?_ ?_
  · funext g
    rw [ropeBlock_apply]
    exact congrFun (ropeRow_congr
      (funext fun g => (slice2_axis1_apply o _ hq r g (col g) (hcol g)).trans (k1_pay1_apply x0 _))
      (funext fun g => k1_pay4_apply x3 _) (funext fun g => k1_pay5_apply x4 _)) g
  · funext j g
    rw [ropeBlock_apply]
    exact congrFun (ropeRow_congr
      (funext fun g => (slice2_axis1_apply o _ hk j g (col g) (hcol g)).trans (k1_pay2_apply x1 _))
      (funext fun g => k1_pay6_apply x5 _) (funext fun g => k1_pay7_apply x6 _)) g
  · funext j
    exact (slice2_axis1_apply o _ hk j f (col f) (hcol f)).trans (k1_pay3_apply x2 _)

/-! ## The stored value is the two heads side by side -/

/-- The output block after the second body: the two heads' blocks side by side, rounded to bf16. -/
theorem out1_struct (x0 : FVec Ideal S256x128 .bf16) (x1 x2 : FVec Ideal S2048x128 .bf16) (x3 x4 : FVec Ideal S256x64 .f32)
    (x5 x6 : FVec Ideal S2048x64 .f32) :
    out1_7 (F := Ideal) x0 x1 x2 x3 x4 x5 x6
      = truncf .bf16 (concatenate S256x128 1
        [⟨S256x64, headBlock
          (ropeBlock (extractStridedSlice S256x64 ![0, 0] (k1_pay1 x0) slices_S256x128_o0_0_S256x64) (k1_pay4 x3) (k1_pay5 x4)
            slices_S256x64_o0_0_S256x32 slices_S256x64_o0_32_S256x32 concatenates_S256x32_S256x32_S256x64_d1)
          (ropeBlock (extractStridedSlice S2048x64 ![0, 0] (k1_pay2 x1) slices_S2048x128_o0_0_S2048x64) (k1_pay6 x5) (k1_pay7 x6)
            slices_S2048x64_o0_0_S2048x32 slices_S2048x64_o0_32_S2048x32 concatenates_S2048x32_S2048x32_S2048x64_d1)
          (extractStridedSlice S2048x64 ![0, 0] (k1_pay3 x2) slices_S2048x128_o0_0_S2048x64)⟩,
         ⟨S256x64, headBlock
          (ropeBlock (extractStridedSlice S256x64 ![0, 64] (k1_pay1 x0) slices_S256x128_o0_64_S256x64) (k1_pay4 x3) (k1_pay5 x4)
            slices_S256x64_o0_0_S256x32 slices_S256x64_o0_32_S256x32 concatenates_S256x32_S256x32_S256x64_d1)
          (ropeBlock (extractStridedSlice S2048x64 ![0, 64] (k1_pay2 x1) slices_S2048x128_o0_64_S2048x64) (k1_pay6 x5) (k1_pay7 x6)
            slices_S2048x64_o0_0_S2048x32 slices_S2048x64_o0_32_S2048x32 concatenates_S2048x32_S2048x32_S2048x64_d1)
          (extractStridedSlice S2048x64 ![0, 64] (k1_pay3 x2) slices_S2048x128_o0_64_S2048x64)⟩]
        concatenates_S256x64_S256x64_S256x128_d1) bitsLt_bf16_f32 := by
  unfold out1_7
  rw [View.canon_unit_zero zero_off2]
  simp only [View.ld_unit_zero (S := S256x128) zero_off2, View.ld_unit_zero (S := S2048x128) zero_off2,
    View.ld_unit_zero (S := S256x64) zero_off2, View.ld_unit_zero (S := S2048x64) zero_off2]
  rfl

/-! ## The two heads -/

/-- The first head: columns `0 + g`. -/
theorem out1_head0 (x0 : FVec Ideal S256x128 .bf16) (x1 x2 : FVec Ideal S2048x128 .bf16) (x3 x4 : FVec Ideal S256x64 .f32)
    (x5 x6 : FVec Ideal S2048x64 .f32)
    (col : Fin 64 → Fin 128) (hcol : ∀ g, (col g).val = 0 + g.val) (r : Fin 256) (f : Fin 64) :
    out1_7 (F := Ideal) x0 x1 x2 x3 x4 x5 x6 (ix2 r (col f))
      = rowOut (ropeRow (fun g => x0 (ix2 r (col g))) (fun g => x3 (ix2 r g)) (fun g => x4 (ix2 r g)))
        (fun j => ropeRow (fun g => x1 (ix2 j (col g))) (fun g => x5 (ix2 j g)) (fun g => x6 (ix2 j g)))
        (fun j => x2 (ix2 j (col f))) := by
  have hlt : (col f).val < 64 := by rw [hcol]; have := f.isLt; omega
  have ef : (⟨(col f).val, hlt⟩ : Fin 64) = f := Fin.ext (by show (col f).val = f.val; rw [hcol]; omega)
  rw [out1_struct, truncf_apply, LibRows.concat_cols_left _ _ _ r (col f) hlt, ef]
  exact head_at 0 x0 x1 x2 x3 x4 x5 x6 _ _ col hcol r f

/-- The second head: columns `64 + g`. -/
theorem out1_head1 (x0 : FVec Ideal S256x128 .bf16) (x1 x2 : FVec Ideal S2048x128 .bf16) (x3 x4 : FVec Ideal S256x64 .f32)
    (x5 x6 : FVec Ideal S2048x64 .f32)
    (col : Fin 64 → Fin 128) (hcol : ∀ g, (col g).val = 64 + g.val) (r : Fin 256) (f : Fin 64) :
    out1_7 (F := Ideal) x0 x1 x2 x3 x4 x5 x6 (ix2 r (col f))
      = rowOut (ropeRow (fun g => x0 (ix2 r (col g))) (fun g => x3 (ix2 r g)) (fun g => x4 (ix2 r g)))
        (fun j => ropeRow (fun g => x1 (ix2 j (col g))) (fun g => x5 (ix2 j g)) (fun g => x6 (ix2 j g)))
        (fun j => x2 (ix2 j (col f))) := by
  have hge : 64 ≤ (col f).val := by rw [hcol]; omega
  have hlt : (col f).val - 64 < 64 := by rw [hcol]; have := f.isLt; omega
  have ef : (⟨(col f).val - 64, hlt⟩ : Fin 64) = f := Fin.ext (by show (col f).val - 64 = f.val; rw [hcol]; omega)
  rw [out1_struct, truncf_apply, LibRows.concat_cols_right _ _ _ r (col f) hge hlt, ef]
  exact head_at 64 x0 x1 x2 x3 x4 x5 x6 _ _ col hcol r f

/-! ## The block at an entry -/

/-- The output block after the second body at row `r`, head `hh` and feature `f` (column `hh * 64 + f`). -/
theorem out1_apply (x0 : Vec Ideal S256x128 .bf16) (x1 x2 : Vec Ideal S2048x128 .bf16) (x3 x4 : Vec Ideal S256x64 .f32)
    (x5 x6 : Vec Ideal S2048x64 .f32) (r : Fin 256) (hh : Fin 2) (f : Fin 64) :
    out1_7 (F := Ideal) x0 x1 x2 x3 x4 x5 x6
        (ix2 r ⟨hh.val * 64 + f.val, by have := hh.isLt; have := f.isLt; omega⟩)
      = rowOut
          (ropeRow (fun g => x0 (ix2 r ⟨hh.val * 64 + g.val, by have := hh.isLt; have := g.isLt; omega⟩))
            (fun g => x3 (ix2 r g)) (fun g => x4 (ix2 r g)))
          (fun j => ropeRow (fun g => x1 (ix2 j ⟨hh.val * 64 + g.val, by have := hh.isLt; have := g.isLt; omega⟩))
            (fun g => x5 (ix2 j g)) (fun g => x6 (ix2 j g)))
          (fun j => x2 (ix2 j ⟨hh.val * 64 + f.val, by have := hh.isLt; have := f.isLt; omega⟩)) := by
  match hh with
  | ⟨0, _⟩ =>
    exact out1_head0 x0 x1 x2 x3 x4 x5 x6
      (fun g => ⟨0 * 64 + g.val, by have := g.isLt; omega⟩) (fun g => by show 0 * 64 + g.val = 0 + g.val; omega) r f
  | ⟨1, _⟩ =>
    exact out1_head1 x0 x1 x2 x3 x4 x5 x6
      (fun g => ⟨1 * 64 + g.val, by have := g.isLt; omega⟩) (fun g => by show 1 * 64 + g.val = 64 + g.val; omega) r f

end Cert.Attn.Ker

end
-- ==== Proof.ValCall1.lean ====
import proofs.«130407_j90417651516253_2_alg».proof.Proof.ValCall1Gen
import proofs.«130407_j90417651516253_2_alg».proof.Proof.RowSpec
import proofs.«130407_j90417651516253_2_alg».proof.Proof.KerPay1

/-! # The attention call: the result array at the row specification

The result array of the attention call, entry by entry, with the rotary embedding of a row and the
attention of a query row as the row specification has them, and the body's block read at an entry as
proved for the body's payload. -/

noncomputable section

namespace Cert.Attn.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.Attn.Ker (ropeRow rowOut out1_apply)

variable (V : (c : Dev nD) → (b : Ref sig .tc) → Buf (Elt Ideal) ((c : Thread nD τ).loc b))

/-- The result array after the attention call is the array function of the arrays the call is entered with. -/
theorem final1 (c : Dev nD) : (dat1 (F := Ideal) V out1_7 c).arrAt 7 cfg1.N = G1 ropeRow rowOut V c :=
  final1_of ropeRow rowOut V out1_apply c

/-- The result array after the attention call at batch row `b`, position `n`, head `h`, feature `f`: the attention
    of the rotated query row `(b, n)` of head `h` against the batch row's rotated key rows of that head, over the
    batch row's value column `(h, f)`. -/
theorem arr1 (c : Dev nD) (b : Fin 2) (n : Fin 2048) (h : Fin 16) (f : Fin 64) :
    ((dat1 (F := Ideal) V out1_7 c).arrAt 7 cfg1.N : S4096x1024.Idx → EReal)
        (ix2 ⟨b.val * 2048 + n.val, by omega⟩ ⟨h.val * 64 + f.val, by omega⟩)
      = rowOut
          (ropeRow (fun g => (V c main_v3 : S4096x3072.Idx → EReal) (ix2 ⟨b.val * 2048 + n.val, by omega⟩ ⟨h.val * 64 + g.val, by omega⟩))
            (fun g => (V c main_v4 : S2048x64.Idx → EReal) (ix2 n g))
            (fun g => (V c main_v5 : S2048x64.Idx → EReal) (ix2 n g)))
          (fun j => ropeRow (fun g => (V c main_v3 : S4096x3072.Idx → EReal) (ix2 ⟨b.val * 2048 + j.val, by omega⟩ ⟨1024 + (h.val * 64 + g.val), by omega⟩))
            (fun g => (V c main_v4 : S2048x64.Idx → EReal) (ix2 j g))
            (fun g => (V c main_v5 : S2048x64.Idx → EReal) (ix2 j g)))
          (fun j => (V c main_v3 : S4096x3072.Idx → EReal) (ix2 ⟨b.val * 2048 + j.val, by omega⟩ ⟨2048 + (h.val * 64 + f.val), by omega⟩)) :=
  arr1_of ropeRow rowOut V out1_apply c b n h f

end Cert.Attn.Val

end
-- ==== Proof.KerPay2.lean ====
import proofs.«130407_j90417651516253_2_alg».proof.Proof.BodyIdeal2
import proofs.«130407_j90417651516253_2_alg».proof.Proof.Spec
import proofs.«130407_j90417651516253_2_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

/-! # The output projection's block at the ideal values

What the third body leaves in its output block, read at an entry: the inner product of a row of the
activations' block with a row of the weights' block, plus the bias of that column. A reshape to the same
shape is the identity, the product into the zero splat is the plain sum over the contracted coordinate,
and the one-row bias repeated along the rows reads its one row. -/

set_option pp.maxSteps 5000
set_option pp.deepTerms false

noncomputable section

open scoped BigOperators

namespace Cert.Attn.Ker

open Cert.KernelIdeal Cert.KernelIdeal.Gen Cert.KernelIdeal.Hand
open Idealize.ShloMosaic Idealize.ShloMosaic.ValueIdx

/-- The zero offsets of a whole-buffer rectangle, as a constant function. -/
private theorem zero_off2 : (![0, 0] : Fin 2 → Nat) = fun _ => 0 := funext fun a => by fin_cases a <;> rfl

/-- The body's one stored value at an entry: a row of the first operand against a row of the second, plus
    the bias row's entry of that column. -/
theorem k2_pay1_apply (v0 : FVec Ideal S512x1024 .bf16) (v2 : FVec Ideal S1024x1024 .bf16) (v5 : FVec Ideal S1x1024 .f32)
    (r : Fin 512) (d : Fin 1024) :
    k2_pay1 (F := Ideal) v0 v2 v5 (ix2 r d) = (∑ e : Fin 1024, v0 (ix2 r e) * v2 (ix2 d e)) + v5 (ix2 0 d) := by
  unfold k2_pay1
  simp only [shapeCast_self]
  rw [addf_apply]
  have hD : dot_S512x1024_S1024x1024_S512x1024_1_1_0_0_n_n = DotDims.transposedRhs 512 1024 1024 := rfl
  rw [hD, LibMatmulRows.matmul_rows_zero_apply (φ₁ := .bf16) (φ₂ := .bf16) none v0 v2 r d, broadcastTo_1b_ab_apply]

/-- The output block after the third body, at row `r` and column `d`. -/
theorem out2_apply (x0 : Vec Ideal S512x1024 .bf16) (x1 : Vec Ideal S1024x1024 .bf16) (x2 : Vec Ideal S1x1024 .f32)
    (r : Fin 512) (d : Fin 1024) :
    out2_3 (F := Ideal) x0 x1 x2 (ix2 r d) = (∑ e : Fin 1024, x0 (ix2 r e) * x1 (ix2 d e)) + x2 (ix2 0 d) := by
  unfold out2_3
  rw [View.canon_unit_zero zero_off2]
  simp only [View.ld_unit_zero (S := S512x1024) zero_off2, View.ld_unit_zero (S := S1024x1024) zero_off2,
    View.ld_unit_zero (S := S1x1024) zero_off2]
  exact k2_pay1_apply x0 x1 x2 r d

end Cert.Attn.Ker

end
-- ==== Proof.ValCall2.lean ====
import proofs.«130407_j90417651516253_2_alg».proof.Proof.FrameIdeal2
import proofs.«130407_j90417651516253_2_alg».proof.Proof.BodyIdeal2
import proofs.«130407_j90417651516253_2_alg».proof.Proof.KerPay2
import Idealize.ShloMosaic.Lib.Pipeline.Value
import Idealize.ShloMosaic.Lib.ValueIdx

/-! # The output projection: from its row blocks to the whole array

The third call walks eight grid points. At point `t` it reads rows `512·t … 512·t + 511` of the attention
output, the whole weight matrix and the whole bias row, and writes rows `512·t … 512·t + 511` of the result.
What it writes at row `r` of the block and column `d` is the inner product of row `r` of the input block with
row `d` of the weights, plus the bias at `d`. Row `r` of block `t` is row `512·t + r` of the array, so every point
writes its block of ONE function of the three arrays — row `R` against row `d`, plus the bias at `d` — and the
eight blocks cover the 4096 rows (row `R` lies in block `R / 512`). Hence the array ends holding that function. -/

noncomputable section

open scoped BigOperators

namespace Cert.Attn.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The projection as one function of the three arrays: at row `R` and column `d`, row `R` of the first against
    row `d` of the second, plus the third at column `d`. -/
def projBias (a6 : S4096x1024.Idx → EReal) (a7 : S1024x1024.Idx → EReal) (a8 : S1x1024.Idx → EReal) :
    S4096x1024.Idx → EReal :=
  fun i => (∑ e : Fin 1024, a6 (ix2 (i 0 : Fin 4096) e) * a7 (ix2 (i 1 : Fin 1024) e)) + a8 (ix2 (0 : Fin 1) (i 1 : Fin 1024))

theorem projBias_apply (a6 : S4096x1024.Idx → EReal) (a7 : S1024x1024.Idx → EReal) (a8 : S1x1024.Idx → EReal)
    (R : Fin 4096) (d : Fin 1024) :
    projBias a6 a7 a8 (ix2 R d) = (∑ e : Fin 1024, a6 (ix2 R e) * a7 (ix2 d e)) + a8 (ix2 0 d) := rfl

/-- The printed index maps over the eight points: the input rows and the output rows move with the point, on the
    first axis only; the weights and the bias stay at block (0, 0). -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `r` of the input block at point `t` is row `512·t + r` of the attention output. -/
theorem rows2_in (c : Dev nD) (t : Fin cfg2.N) (x : S512x1024.Idx) (k : S4096x1024.Idx)
    (hk0 : (k 0).val = 512 * t.val + (x 0).val) (hk1 : (k 1).val = (x 1).val) :
    (iblk2 V c 0 t : Vec Ideal S512x1024 .bf16) x = (V c main_v6 : S4096x1024.Idx → EReal) k := by
  obtain ⟨h0, h1, -⟩ := index2 t
  unfold iblk2
  rw [View.read_apply]
  show (V c main_v6 : S4096x1024.Idx → EReal) _ = _
  congr 1
  funext a
  apply Fin.ext
  match a with
  | ⟨0, _⟩ => show win2_0.index t 0 * 512 + 1 * (x 0).val = (k 0).val; rw [h0, hk0]; omega
  | ⟨1, _⟩ => show win2_0.index t 1 * 1024 + 1 * (x 1).val = (k 1).val; rw [h1, hk1]; omega

/-- The weights' block at any point is the whole weight matrix. -/
theorem whole2_w (c : Dev nD) (t : Fin cfg2.N) (x : S1024x1024.Idx) :
    (iblk2 V c 1 t : Vec Ideal S1024x1024 .bf16) x = (V c main_v7 : S1024x1024.Idx → EReal) x := by
  obtain ⟨-, -, h0, h1, -⟩ := index2 t
  unfold iblk2
  rw [View.read_apply]
  show (V c main_v7 : S1024x1024.Idx → EReal) _ = _
  congr 1
  funext a
  apply Fin.ext
  match a with
  | ⟨0, _⟩ => show win2_1.index t 0 * 1024 + 1 * (x 0).val = (x 0).val; rw [h0]; omega
  | ⟨1, _⟩ => show win2_1.index t 1 * 1024 + 1 * (x 1).val = (x 1).val; rw [h1]; omega

/-- The bias block at any point is the whole bias row. -/
theorem whole2_b (c : Dev nD) (t : Fin cfg2.N) (x : S1x1024.Idx) :
    (iblk2 V c 2 t : Vec Ideal S1x1024 .f32) x = (V c main_v8 : S1x1024.Idx → EReal) x := by
  obtain ⟨-, -, -, -, h0, h1, -⟩ := index2 t
  unfold iblk2
  rw [View.read_apply]
  show (V c main_v8 : S1x1024.Idx → EReal) _ = _
  congr 1
  funext a
  apply Fin.ext
  match a with
  | ⟨0, _⟩ => show win2_2.index t 0 * 1 + 1 * (x 0).val = (x 0).val; rw [h0]; omega
  | ⟨1, _⟩ => show win2_2.index t 1 * 1024 + 1 * (x 1).val = (x 1).val; rw [h1]; omega

/-- What the body leaves at row `r`, column `d` of its output block, when row `r` of its first input is row `R` of
    an array `a6` and its other two inputs are the arrays `a7`, `a8`: the projection of those arrays at `(R, d)`. -/
theorem block2_at (x0 : Vec Ideal S512x1024 .bf16) (x1 : Vec Ideal S1024x1024 .bf16) (x2 : Vec Ideal S1x1024 .f32)
    (a6 : S4096x1024.Idx → EReal) (a7 : S1024x1024.Idx → EReal) (a8 : S1x1024.Idx → EReal)
    (r : Fin 512) (d : Fin 1024) (R : Fin 4096)
    (h0 : ∀ e : Fin 1024, x0 (ix2 r e) = a6 (ix2 R e)) (h1 : ∀ x, x1 x = a7 x) (h2 : ∀ x, x2 x = a8 x) :
    out2_3 (F := Ideal) x0 x1 x2 (ix2 r d) = projBias a6 a7 a8 (ix2 R d) := by
  rw [projBias_apply, Cert.Attn.Ker.out2_apply, h2]
  congr 1
  exact Finset.sum_congr rfl fun e _ => by rw [h0, h1]

/-- What point `t` writes back is block `t` of the projection of the arrays the call is entered with. -/
theorem flushed2_eq (c : Dev nD) (t : Fin cfg2.N) :
    (dat2 (F := Ideal) V out2_3 c).flushed 3 t
      = ((cfg2.win 3).blk t).view.read (Elt Ideal) (projBias (V c main_v6) (V c main_v7) (V c main_v8)) := by
  show (cfg2.win 3).cut (grid2.coords t) ((dat2 (F := Ideal) V out2_3 c).after 3 t) = _
  rw [after2_3]
  obtain ⟨-, -, -, -, -, -, h0, h1⟩ := index2 t
  have hN : t.val < 8 := lt_of_lt_of_eq t.isLt N_2
  funext j
  obtain ⟨r, d, rfl⟩ : ∃ (r : Fin 512) (d : Fin 1024), j = (ix2 r d : S512x1024.Idx) := ⟨j 0, j 1, eq_ix2 (n0 := 512) (n1 := 1024) j⟩
  rw [View.read_apply]
  have hemb : ((cfg2.win 3).blk t).view.emb (ix2 r d : S512x1024.Idx) = (ix2 (⟨512 * t.val + r.val, by omega⟩ : Fin 4096) d : S4096x1024.Idx) := by
    funext a
    apply Fin.ext
    match a with
    | ⟨0, _⟩ => show win2_3.index t 0 * 512 + 1 * r.val = 512 * t.val + r.val; rw [h0]; omega
    | ⟨1, _⟩ => show win2_3.index t 1 * 1024 + 1 * d.val = d.val; rw [h1]; omega
  rw [hemb]
  exact block2_at (iblk2 V c 0 t) (iblk2 V c 1 t) (iblk2 V c 2 t) _ _ _ r d _
    (fun e => rows2_in V c t _ _ rfl rfl) (whole2_w V c t) (whole2_b V c t)

/-- An index of the result array is in point `t`'s block iff each coordinate is in the block's range on its axis. -/
theorem mem_rows2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v9).slice (win2_3.rect t)).set ↔ _
  rw [View.set_slice_whole, Rect.mem_set_unit]
  exact Iff.rfl

/-- Every index of the result array is in some point's block: row `R` is in block `R / 512`. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have ht : (i 0).val / 512 < cfg2.N := by rw [show cfg2.N = 8 from N_2]; omega
  obtain ⟨-, -, -, -, -, -, h0, h1⟩ := index2 ⟨(i 0).val / 512, ht⟩
  refine ⟨⟨(i 0).val / 512, ht⟩, flush2_3 _, ?_⟩
  rw [mem_rows2]
  intro a
  match a with
  | ⟨0, _⟩ =>
    show win2_3.index ⟨(i 0).val / 512, ht⟩ 0 * 512 ≤ (i 0).val ∧ (i 0).val < win2_3.index ⟨(i 0).val / 512, ht⟩ 0 * 512 + 512
    rw [h0]; show (i 0).val / 512 * 512 ≤ (i 0).val ∧ (i 0).val < (i 0).val / 512 * 512 + 512; omega
  | ⟨1, _⟩ =>
    show win2_3.index ⟨(i 0).val / 512, ht⟩ 1 * 1024 ≤ (i 1).val ∧ (i 1).val < win2_3.index ⟨(i 0).val / 512, ht⟩ 1 * 1024 + 1024
    rw [h1]; omega

/-- The result array after the call is the projection of the arrays the call is entered with. -/
theorem final2 (c : Dev nD) :
    (dat2 (F := Ideal) V out2_3 c).arrAt 3 cfg2.N = projBias (V c main_v6) (V c main_v7) (V c main_v8) :=
  (dat2 (F := Ideal) V out2_3 c).arrAt_eq_of_cover 3 (projBias (V c main_v6) (V c main_v7) (V c main_v8))
    (fun t _ => flushed2_eq V c t) cover2

/-- The result array after the call, entry by entry, in terms of the three arrays the call is entered with (named as
    functions to the extended reals): row `R` of the attention output against row `d` of the weights, plus the bias
    at `d`. -/
theorem arr2 (c : Dev nD) (a6 : S4096x1024.Idx → EReal) (a7 : S1024x1024.Idx → EReal) (a8 : S1x1024.Idx → EReal)
    (h6 : (V c main_v6 : S4096x1024.Idx → EReal) = a6) (h7 : (V c main_v7 : S1024x1024.Idx → EReal) = a7)
    (h8 : (V c main_v8 : S1x1024.Idx → EReal) = a8) (R : Fin 4096) (d : Fin 1024) :
    ((dat2 (F := Ideal) V out2_3 c).arrAt 3 cfg2.N : S4096x1024.Idx → EReal) (ix2 R d)
      = (∑ e : Fin 1024, a6 (ix2 R e) * a7 (ix2 d e)) + a8 (ix2 0 d) := by
  subst h6 h7 h8
  rw [final2]
  rfl

end Cert.Attn.Val

end
-- ==== Proof.ValChain.lean ====
/-
  The kernel program's result array is the specification. Through the program's boundaries: the projection call's
  output array holds the joint projection of the flattened activations and the joint weights; the attention call's
  output array holds, at row b * 2048 + n and column h * 64 + f, one query row's attention output for head h, computed
  from the joint projection's thirds and the cosines and sines of the angle table — the specification's rotary
  embedding, scores, softmax and weighted values, by the row-wise form of each; the output projection's array holds the
  merged heads against the output weights plus the bias; and the last host operation splits the 4096 rows back into
  2 × 2048. Every step is a reading of one array at an index: no sum is regrouped and no law of arithmetic is used.
-/
import proofs.«130407_j90417651516253_2_alg».proof.Proof.ValHost
import proofs.«130407_j90417651516253_2_alg».proof.Proof.ValCall0
import proofs.«130407_j90417651516253_2_alg».proof.Proof.ValCall1
import proofs.«130407_j90417651516253_2_alg».proof.Proof.ValCall2
import proofs.«130407_j90417651516253_2_alg».proof.Proof.RowSpec

noncomputable section

open scoped BigOperators

namespace Cert.Attn.Val

open Cert.KernelIdeal Cert.KernelIdeal.Hand Cert.Attn Cert.Attn.Ker
open Cert.KernelIdeal.Gen (hostOps0 hostOps1 hostOps2 hostOps3 hostOps0_W hostOps1_W hostOps2_W hostOps3_W
  hostOps0_writes hostOps1_writes hostOps2_writes hostOps3_writes shapeCasts_S4096x1024_S2x2048x1024)
open Idealize.ShloMosaic Idealize.ShloMosaic.TcCoe Idealize.ShloMosaic.ValueIdx Idealize.SL.Sem Idealize.ShloMosaic.StableHlo
open Idealize.ShloMosaic.Pipeline (Dat)

/-- Two one-row attention outputs with equal query row, key rows and value column are equal. -/
theorem rowOut_congr {q q' : Fin 64 → EReal} {k k' : Fin 2048 → Fin 64 → EReal} {v v' : Fin 2048 → EReal}
    (hq : q = q') (hk : k = k') (hv : v = v') : rowOut q k v = rowOut q' k' v' := by
  subst hq hk hv; rfl

/-- Two rotated rows with entrywise equal row, cosines and sines are equal. -/
theorem ropeRow_congr {t t' cs cs' sn sn' : Fin 64 → EReal} (ht : ∀ g, t g = t' g) (hc : ∀ g, cs g = cs' g)
    (hs : ∀ g, sn g = sn' g) : ropeRow t cs sn = ropeRow t' cs' sn' := by
  obtain rfl : t = t' := funext ht
  obtain rfl : cs = cs' := funext hc
  obtain rfl : sn = sn' := funext hs
  rfl

section Chain

variable (m : (ℓ : Loc nD τ sig) → Buf (Elt Ideal) ℓ) (c : Dev nD)

/-- A row index of the flattened arrays is below 4096. -/
theorem row_lt (b : Fin 2) (n : Fin 2048) : b.val * 2048 + n.val < 4096 := by omega
/-- A column index of a head's feature is below 1024. -/
theorem col_lt (h : Fin 16) (f : Fin 64) : h.val * 64 + f.val < 1024 := by omega

/-- The joint projection at the attention call's entry: row `2048 * b + n`, column `e`. -/
theorem v3_at (b : Fin 2) (n : Fin 2048) (e : Fin 3072) (R : Fin 4096) (hR : R.val = 2048 * b.val + n.val) :
    (Hand.V3 (F := Ideal) m c main_v3 : S4096x3072.Idx → EReal) (ix2 R e) = qkv (ax m c) (awqkv m c) b n e := by
  have h : (Hand.V3 (F := Ideal) m c main_v3 : S4096x3072.Idx → EReal)
      = ((dat0 (F := Ideal) (Hand.V1 m) out0_2 c).arrAt 2 cfg0.N : S4096x3072.Idx → EReal) :=
    (StableHlo.after_of_writes_sub hostOps1 _ hostOps1_writes (by decide)).trans (Hand.W2_arr m c 2)
  rw [h]
  refine (arr0 (Hand.V1 m) c _ _ rfl rfl R e).trans ?_
  show @Eq EReal _ _
  exact Finset.sum_congr rfl fun d _ => congrArg₂ (fun u w : EReal => u * w) (v1_at m c b n d R hR) (v2_at m c e d)

/-- The attention output at the output projection's entry: row `b * 2048 + n`, column `h * 64 + f`. -/
theorem v6_at (b : Fin 2) (n : Fin 2048) (h : Fin 16) (f : Fin 64) (R : Fin 4096) (C : Fin 1024)
    (hR : R.val = b.val * 2048 + n.val) (hC : C.val = h.val * 64 + f.val) :
    (Hand.V5 (F := Ideal) m c main_v6 : S4096x1024.Idx → EReal) (ix2 R C)
      = headsOut (ax m c) (apos m c) (awqkv m c) b h n f := by
  have h6 : (Hand.V5 (F := Ideal) m c main_v6 : S4096x1024.Idx → EReal)
      = ((dat1 (F := Ideal) (Hand.V3 m) out1_7 c).arrAt 7 cfg1.N : S4096x1024.Idx → EReal) :=
    (StableHlo.after_of_writes_sub hostOps2 _ hostOps2_writes (by decide)).trans (Hand.W4_out m c)
  obtain rfl : R = (⟨b.val * 2048 + n.val, row_lt b n⟩ : Fin 4096) := Fin.ext hR
  obtain rfl : C = (⟨h.val * 64 + f.val, col_lt h f⟩ : Fin 1024) := Fin.ext hC
  rw [h6]
  refine (arr1 (Hand.V3 m) c b n h f).trans ?_
  show @Eq EReal (rowOut _ _ _) _
  refine Eq.trans ?_ (attnOut_softmax_eq_rowOut (ropeQ (ax m c) (apos m c) (awqkv m c))
    (ropeK (ax m c) (apos m c) (awqkv m c)) (valV (ax m c) (awqkv m c)) b h n f).symm
  refine rowOut_congr
    (ropeRow_congr (fun g => ?_) (fun g => v4_at m c n g) (fun g => v5_at m c n g))
    (funext fun j => ropeRow_congr (fun g => ?_) (fun g => v4_at m c j g) (fun g => v5_at m c j g))
    (funext fun j => ?_)
  · exact v3_at m c b n _ _ (by show b.val * 2048 + n.val = 2048 * b.val + n.val; omega)
  · exact v3_at m c b j _ _ (by show b.val * 2048 + j.val = 2048 * b.val + j.val; omega)
  · exact v3_at m c b j _ _ (by show b.val * 2048 + j.val = 2048 * b.val + j.val; omega)

/-- The program's result at (b, n, d). -/
theorem v10_at (b : Fin 2) (n : Fin 2048) (d : Fin 1024) :
    (Hand.W7 (F := Ideal) m c (Proc.devRef .tc main_v10) : S2x2048x1024.Idx → EReal) (ix3 b n d)
      = finalAt (ax m c) (apos m c) (awqkv m c) (awout m c) (abias m c) b n d := by
  have h : (Hand.W7 (F := Ideal) m c (Proc.devRef .tc main_v10) : S2x2048x1024.Idx → EReal)
      = shapeCast S2x2048x1024 (Hand.W6 m c (Proc.devRef .tc main_v9) : S4096x1024.Idx → EReal)
          shapeCasts_S4096x1024_S2x2048x1024 := by
    dsimp only [Hand.W7, hostOps3]; after_results <;> rfl
  have h9 : (Hand.W6 (F := Ideal) m c (Proc.devRef .tc main_v9) : S4096x1024.Idx → EReal)
      = ((dat2 (F := Ideal) (Hand.V5 m) out2_3 c).arrAt 3 cfg2.N : S4096x1024.Idx → EReal) := Hand.W6_arr m c 3
  rw [h, Cert.LibFlatten.split_apply _ _ b n d
    (⟨2048 * b.val + n.val, by have := b.isLt; have := n.isLt; omega⟩ : Fin 4096) rfl, h9]
  refine (arr2 (Hand.V5 m) c _ _ _ rfl rfl rfl _ d).trans ?_
  show @Eq EReal _ ((∑ e : Fin 1024, merge (headsOut (ax m c) (apos m c) (awqkv m c)) b n e * awout m c (ix2 d e))
    + abias m c (ix1 d))
  refine congrArg₂ (fun u w : EReal => u + w) (Finset.sum_congr rfl fun e _ =>
    congrArg₂ (fun u w : EReal => u * w) ?_ (v7_at m c d e)) (v8_at m c d)
  exact v6_at m c b n (⟨e.val / 64, by have := e.isLt; omega⟩ : Fin 16)
    (⟨e.val % 64, Nat.mod_lt _ (by decide)⟩ : Fin 64) _ e
    (by show 2048 * b.val + n.val = b.val * 2048 + n.val; omega)
    (by show e.val = e.val / 64 * 64 + e.val % 64; omega)

/-- The program's result array is the specification of the launch memory's five argument arrays. -/
theorem kernel_value :
    (Hand.W7 (F := Ideal) m c (Proc.devRef .tc main_v10) : S2x2048x1024.Idx → EReal)
      = Cert.Attn.final (ax m c) (apos m c) (awqkv m c) (awout m c) (abias m c) := by
  funext i
  obtain ⟨b, n, d, rfl⟩ : ∃ (b : Fin 2) (n : Fin 2048) (d : Fin 1024), i = ix3 b n d := ⟨i 0, i 1, i 2, eq_ix3 i⟩
  exact v10_at m c b n d

end Chain

end Cert.Attn.Val

end
-- ==== Proof.lean ====
/-
  Rotary-embedded multi-head attention, y = (softmax((RoPE(xWq)·RoPE(xWk)ᵀ)/8) · xWv)·Woᵀ + b over f32[2, 2048, 1024], computed by
  three pallas_calls — the joint projection in 512×1024 tiles; attention for a pair of heads on a tile of 256 queries,
  with the batch row's 2048 keys and values resident, so each query row's softmax is taken over its whole row; the output
  projection with its bias — against the plain jnp reference.

  Both programs, read on the extended reals where every operation is exact and a change of float format is the identity,
  perform the same operations in the same order on every element: each sum of the reference (over the 1024 input
  features, the 64 features of a head, the 2048 key rows, the 1024 merged features) is the kernel's sum over the same
  index set in the same order, the scale is the same word 1/8, the row maximum is folded from −∞ on both sides (the
  reference takes the maximum with −∞ once more, which changes nothing), and the row sum starts from the zero word. Only
  the layout differs: the kernel keeps queries, keys and values side by side in one [4096, 3072] array and reads heads as
  64-column strips, where the reference transposes to [2, 16, 2048, 64]. So the claim needs no law of arithmetic beyond
  reading arrays at indices, and the precondition (finite inputs) is never opened.

  The frames: the kernel's program is run through its seven items — four stretches of host operations and the three
  calls — over one thread state (RunIdealB / RunBitsB: `run_all`, at any float instance, ends with every unscoped buffer
  at the last boundary's contents); the attention call reads one array through three windows and each angle table through
  two, so its pipeline holds them at parts of the full share (Share1Ideal / Share1Bits). The reference's frame is its run.
  The values: each call's output array as one function of its input arrays (ValCall0 / ValCall1 / ValCall2, over the
  bodies' arithmetic read at an index: KerPay0 / KerPay1 / KerPay2), chained through the host operations to the
  specification (ValChain); the reference's stages read one operation at a time to the same specification (RefIsSpec).
-/
import proofs.«130407_j90417651516253_2_alg».proof.Defs
import proofs.«130407_j90417651516253_2_alg».proof.Proof.Gen.Kernel
import proofs.«130407_j90417651516253_2_alg».proof.Proof.Gen.KernelIdeal
import proofs.«130407_j90417651516253_2_alg».proof.Proof.Gen.ReferenceIdeal
import proofs.«130407_j90417651516253_2_alg».proof.Proof.Gen.ReferenceIdeal.Run
import proofs.«130407_j90417651516253_2_alg».proof.Proof.Gen.ReferenceIdeal.Read
import proofs.«130407_j90417651516253_2_alg».proof.Proof.Gen.Pre_finite_inputs
import proofs.«130407_j90417651516253_2_alg».proof.Proof.RunBitsB
import proofs.«130407_j90417651516253_2_alg».proof.Proof.RunIdealB
import proofs.«130407_j90417651516253_2_alg».proof.Proof.RefIsSpec
import proofs.«130407_j90417651516253_2_alg».proof.Proof.ValChain

noncomputable section

open Idealize.ShloMosaic Idealize.ShloMosaic.TcCoe Idealize.SL.Sem

namespace Cert.Proof

/-- The word-level kernel runs, and no stretch or call of it writes an argument array. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W7_main_arg0 m c),
     (h c _ (Cert.Kernel.Hand.mem_uc Cert.Kernel.main_arg1 (by decide))).trans (Cert.Kernel.Hand.W7_main_arg1 m c),
     (h c _ (Cert.Kernel.Hand.mem_uc Cert.Kernel.main_arg2 (by decide))).trans (Cert.Kernel.Hand.W7_main_arg2 m c),
     (h c _ (Cert.Kernel.Hand.mem_uc Cert.Kernel.main_arg3 (by decide))).trans (Cert.Kernel.Hand.W7_main_arg3 m c),
     (h c _ (Cert.Kernel.Hand.mem_uc Cert.Kernel.main_arg4 (by decide))).trans (Cert.Kernel.Hand.W7_main_arg4 m c)⟩)
    (Cert.Kernel.Hand.run_all (F := Bits) m ρ)

/-- The same program read on the extended reals runs likewise. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W7_main_arg0 m c),
     (h c _ (Cert.KernelIdeal.Hand.mem_uc Cert.KernelIdeal.main_arg1 (by decide))).trans (Cert.KernelIdeal.Hand.W7_main_arg1 m c),
     (h c _ (Cert.KernelIdeal.Hand.mem_uc Cert.KernelIdeal.main_arg2 (by decide))).trans (Cert.KernelIdeal.Hand.W7_main_arg2 m c),
     (h c _ (Cert.KernelIdeal.Hand.mem_uc Cert.KernelIdeal.main_arg3 (by decide))).trans (Cert.KernelIdeal.Hand.W7_main_arg3 m c),
     (h c _ (Cert.KernelIdeal.Hand.mem_uc Cert.KernelIdeal.main_arg4 (by decide))).trans (Cert.KernelIdeal.Hand.W7_main_arg4 m c)⟩)
    (Cert.KernelIdeal.Hand.run_all (F := Ideal) m ρ)

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- On the extended reals both programs end with the specification of the argument arrays in their result array. -/
theorem algebraic : Cert.algebraic_KernelIdeal_ReferenceIdeal := by
  intro m ρ m' ρ' _ hagree
  refine ⟨fun c => Cert.Attn.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_,
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c)⟩)
      (Cert.KernelIdeal.Hand.run_all (F := Ideal) m ρ)
    exact (h c _ (Cert.KernelIdeal.Hand.mem_uc Cert.KernelIdeal.main_v10 (by decide))).trans (Cert.Attn.Val.kernel_value m c)
  · refine (θ_run Cert.ReferenceIdeal.defs _ _).mono (fun r h c => ⟨(h c).1.trans ?_, (h c).2⟩) (Cert.Attn.Ref.ref_run m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
